-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v53_0)) (v3 : (c : Dev Cert.KernelIdeal.nD) → Buf (Elt Ideal) ((c.tc : Thread Cert.KernelIdeal.nD Cert.KernelIdeal.τ).loc Cert.KernelIdeal.main_v53_1)) (v4 : (c : Dev Cert.KernelIdeal.nD) → Buf (Elt Ideal) ((c.tc : Thread Cert.KernelIdeal.nD Cert.KernelIdeal.τ).loc Cert.KernelIdeal.main_v54_0)) (v5 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v53_0) = v2 c
          ∧ r.2.mem ((c.tc : Thread Cert.KernelIdeal.nD Cert.KernelIdeal.τ).loc Cert.KernelIdeal.main_v53_1) = v3 c
          ∧ r.2.mem ((c.tc : Thread Cert.KernelIdeal.nD Cert.KernelIdeal.τ).loc Cert.KernelIdeal.main_v54_0) = v4 c
          ∧ r.2.mem ((c.tc : Thread Cert.KernelIdeal.nD Cert.KernelIdeal.τ).loc Cert.KernelIdeal.main_v57) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_arg8 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S16384x128 .f32) (main_arg1 : IVec S2x524288 32) (main_arg2 : IVec S2x131072 32) (main_arg3 : FVec F S128x128 .f32) (main_arg4 : FVec F S128 .f32) (main_arg5 : FVec F S128x128 .f32) (main_arg6 : FVec F S128x64 .f32) (main_arg7 : FVec F S64 .f32) (main_arg8 : FVec F S128x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S16384x128 : Shape := ⟨2, ![16384, 128]⟩
abbrev S2x524288 : Shape := ⟨2, ![2, 524288]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x524288 : Shape := ⟨2, ![1, 524288]⟩
abbrev S524288 : Shape := ⟨1, ![524288]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S524288x128 : Shape := ⟨2, ![524288, 128]⟩
abbrev S2048x128 : Shape := ⟨2, ![2048, 128]⟩
abbrev S2048x1 : Shape := ⟨2, ![2048, 1]⟩
abbrev S1x128 : Shape := ⟨2, ![1, 128]⟩
abbrev S16384x64 : Shape := ⟨2, ![16384, 64]⟩
abbrev S2048x64 : Shape := ⟨2, ![2048, 64]⟩
abbrev S1x64 : Shape := ⟨2, ![1, 64]⟩
abbrev S1x131072 : Shape := ⟨2, ![1, 131072]⟩
abbrev S131072 : Shape := ⟨1, ![131072]⟩
abbrev S131072x1 : Shape := ⟨2, ![131072, 1]⟩
abbrev S131072x64 : Shape := ⟨2, ![131072, 64]⟩
abbrev S4096x64 : Shape := ⟨2, ![4096, 64]⟩
abbrev S4096 : Shape := ⟨1, ![4096]⟩
abbrev S16384x16384 : Shape := ⟨2, ![16384, 16384]⟩
abbrev S1024x64 : Shape := ⟨2, ![1024, 64]⟩
abbrev S1024x1024 : Shape := ⟨2, ![1024, 1024]⟩

abbrev nBuf : Space → Nat
  | .hbm => 84
  | .vmem => 37
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S2x131072, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .f32⟩
  | .hbm, ⟨14, _⟩ => ⟨S524288, .f32⟩
  | .hbm, ⟨15, _⟩ => ⟨S_, .f32⟩
  | .hbm, ⟨16, _⟩ => ⟨S16384, .f32⟩
  | .hbm, ⟨17, _⟩ => ⟨S524288x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384x1, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S524288x128, .f32⟩
  | .hbm, ⟨35, _⟩ => ⟨S_, .f32⟩
  | .hbm, ⟨36, _⟩ => ⟨S16384x128, .f32⟩
  | .hbm, ⟨37, _⟩ => ⟨S524288x1, .i32⟩
  | .hbm, ⟨38, _⟩ => ⟨S16384x128, .f32⟩
  | .hbm, ⟨39, _⟩ => ⟨S16384x128, .f32⟩
  | .hbm, ⟨40, _⟩ => ⟨S_, .i32⟩
  | .hbm, ⟨41, _⟩ => ⟨S524288, .i32⟩
  | .hbm, ⟨42, _⟩ => ⟨S524288, .i1⟩
  | .hbm, ⟨43, _⟩ => ⟨S_, .i32⟩
  | .hbm, ⟨44, _⟩ => ⟨S524288, .i32⟩
  | .hbm, ⟨45, _⟩ => ⟨S524288, .i32⟩
  | .hbm, ⟨46, _⟩ => ⟨S524288, .i32⟩
  | .hbm, ⟨47, _⟩ => ⟨S524288x1, .i32⟩
  | .hbm, ⟨48, _⟩ => ⟨S524288x128, .f32⟩
  | .hbm, ⟨49, _⟩ => ⟨S_, .f32⟩
  | .hbm, ⟨50, _⟩ => ⟨S16384x128, .f32⟩
  | .hbm, ⟨51, _⟩ => ⟨S524288x1, .i32⟩
  | .hbm, ⟨52, _⟩ => ⟨S16384x128, .f32⟩
  | .hbm, ⟨53, _⟩ => ⟨S16384x64, .f32⟩
  | .hbm, ⟨54, _⟩ => ⟨S1x131072, .i32⟩
  | .hbm, ⟨55, _⟩ => ⟨S131072, .i32⟩
  | .hbm, ⟨56, _⟩ => ⟨S1x131072, .i32⟩
  | .hbm, ⟨57, _⟩ => ⟨S131072, .i32⟩
  | .hbm, ⟨58, _⟩ => ⟨S_, .i32⟩
  | .hbm, ⟨59, _⟩ => ⟨S131072, .i32⟩
  | .hbm, ⟨60, _⟩ => ⟨S131072, .i1⟩
  | .hbm, ⟨61, _⟩ => ⟨S_, .i32⟩
  | .hbm, ⟨62, _⟩ => ⟨S131072, .i32⟩
  | .hbm, ⟨63, _⟩ => ⟨S131072, .i32⟩
  | .hbm, ⟨64, _⟩ => ⟨S131072, .i32⟩
  | .hbm, ⟨65, _⟩ => ⟨S131072x1, .i32⟩
  | .hbm, ⟨66, _⟩ => ⟨S131072x64, .f32⟩
  | .hbm, ⟨67, _⟩ => ⟨S_, .i32⟩
  | .hbm, ⟨68, _⟩ => ⟨S131072, .i32⟩
  | .hbm, ⟨69, _⟩ => ⟨S131072, .i1⟩
  | .hbm, ⟨70, _⟩ => ⟨S_, .i32⟩
  | .hbm, ⟨71, _⟩ => ⟨S131072, .i32⟩
  | .hbm, ⟨72, _⟩ => ⟨S131072, .i32⟩
  | .hbm, ⟨73, _⟩ => ⟨S131072, .i32⟩
  | .hbm, ⟨74, _⟩ => ⟨S131072x1, .i32⟩
  | .hbm, ⟨75, _⟩ => ⟨S131072x64, .f32⟩
  | .hbm, ⟨76, _⟩ => ⟨S131072x64, .f32⟩
  | .hbm, ⟨77, _⟩ => ⟨S131072, .f32⟩
  | .hbm, ⟨78, _⟩ => ⟨S16384x16384, .f32⟩
  | .hbm, ⟨79, _⟩ => ⟨S16384x16384, .i32⟩
  | .hbm, ⟨80, _⟩ => ⟨S_, .i32⟩
  | .hbm, ⟨81, _⟩ => ⟨S16384x16384, .i32⟩
  | .hbm, ⟨82, _⟩ => ⟨S16384x16384, .i1⟩
  | .hbm, ⟨83, _⟩ => ⟨S16384x16384, .i1⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x1, .f32⟩
  | .local _ .vmem, ⟨5, _⟩ => ⟨S2048x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x1, .f32⟩
  | .local _ .vmem, ⟨16, _⟩ => ⟨S2048x1, .f32⟩
  | .local _ .vmem, ⟨17, _⟩ => ⟨S128x64, .f32⟩
  | .local _ .vmem, ⟨18, _⟩ => ⟨S128x64, .f32⟩
  | .local _ .vmem, ⟨19, _⟩ => ⟨S64, .f32⟩
  | .local _ .vmem, ⟨20, _⟩ => ⟨S2048x64, .f32⟩
  | .local _ .vmem, ⟨21, _⟩ => ⟨S2048x64, .f32⟩
  | .local _ .vmem, ⟨22, _⟩ => ⟨S4096x64, .f32⟩
  | .local _ .vmem, ⟨23, _⟩ => ⟨S4096x64, .f32⟩
  | .local _ .vmem, ⟨24, _⟩ => ⟨S4096x64, .f32⟩
  | .local _ .vmem, ⟨25, _⟩ => ⟨S4096x64, .f32⟩
  | .local _ .vmem, ⟨26, _⟩ => ⟨S4096x64, .f32⟩
  | .local _ .vmem, ⟨27, _⟩ => ⟨S4096x64, .f32⟩
  | .local _ .vmem, ⟨28, _⟩ => ⟨S4096, .f32⟩
  | .local _ .vmem, ⟨29, _⟩ => ⟨S4096, .f32⟩
  | .local _ .vmem, ⟨30, _⟩ => ⟨S1024x64, .f32⟩
  | .local _ .vmem, ⟨31, _⟩ => ⟨S1024x64, .f32⟩
  | .local _ .vmem, ⟨32, _⟩ => ⟨S16384x64, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .i32⟩
  | .local _ .vmem, ⟨36, _⟩ => ⟨S1024x1024, .i32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_c_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev main_v54_0 : Ref sig .tc := ⟨.hbm, 78, rfl⟩
abbrev main_v54_1 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem3_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![16, 16], ![false, false]⟩

def k3_mult1 (i : grid3.Coords) : BitVec 32 :=
  let arg1 : BitVec 32 := BitVec.ofNat 32 (i 1).val
  let c1024_i32 : BitVec 32 := 1024#32
  let v0 : BitVec 32 := Scalar.muli arg1 c1024_i32
  v0
def k3_off1 (i : grid3.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S16384x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S_S16384x128 : S_.BroadcastsInDim S16384x128 (![] : Fin 0 → Fin S16384x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S131072 : S_.BroadcastsInDim S131072 (![] : Fin 0 → Fin S131072.rank)
  bcast_S131072_S131072x1_0 : S131072.BroadcastsInDim S131072x1 (![0] : Fin 1 → Fin S131072x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  inb_S4096_S4096_0 : ∀ a, (![0] : Fin 1 → Nat) a + S4096.size a ≤ S4096.size a
  h_S4096 : 0 < S4096.numel
  h_S1024x64 : 0 < S1024x64.numel
  shapeCasts_S1024x64_S1024x64 : S1024x64.ShapeCasts S1024x64
  inb_S1024x64_S1024x64_0_0 : ∀ a, (![0, 0] : Fin 2 → Nat) a + S1024x64.size a ≤ S1024x64.size a
  inb_S1024x1024_S1024x1024_0_0 : ∀ a, (![0, 0] : Fin 2 → Nat) a + S1024x1024.size a ≤ S1024x1024.size a
  h_S1024x1024 : 0 < S1024x1024.numel
  natLt_1_32 : 1 < 32
  bcast_S_S16384x16384 : S_.BroadcastsInDim S16384x16384 (![] : Fin 0 → Fin S16384x16384.rank)
  scatter_S16384_S524288x1_S524288_n_0_0_1_wf : ScatterDims.WF S16384 S524288x1 S524288 [] [0] [0] 1
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x128_S2048x128_1_0_0_1_n_n_wf : DotDims.WF S2048x128 S128x128 S2048x128 [1] [0] [0] [1] [] []
  dot_S2048x128_S128x64_S2048x64_1_0_0_1_n_n_wf : DotDims.WF S2048x128 S128x64 S2048x64 [1] [0] [0] [1] [] []
  gather_S16384x64_S131072x1_S131072x64_1_0_n_n_0_1_164_wf : GatherDims.WF S16384x64 S131072x1 S131072x64 [1] [0] [] [0] [] 1 ![1, 64]
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S16384x1.size a
  hwx0_2 : ∀ i : grid0.Coords, EltTy.bits .f32 = 32 ∨ (Rect.block (s := S16384x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S16384x128.size a
  hwx0_6 : ∀ i : grid0.Coords, EltTy.bits .f32 = 32 ∨ (Rect.block (s := S16384x128) S2048x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .f32 = 32 ∨ (Rect.block (s := S16384x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x64.size a ≤ S16384x64.size a
  hwx1_6 : ∀ i : grid1.Coords, EltTy.bits .f32 = 32 ∨ (Rect.block (s := S16384x64) S2048x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S131072x64.size a
  hwx2_1 : ∀ i : grid2.Coords, EltTy.bits .f32 = 32 ∨ (Rect.block (s := S131072x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S131072x64.size a
  hwx2_2 : ∀ i : grid2.Coords, EltTy.bits .f32 = 32 ∨ (Rect.block (s := S131072x64) S4096x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096.size a ≤ S131072.size a
  hwx2_3 : ∀ i : grid2.Coords, EltTy.bits .f32 = 32 ∨ (Rect.block (s := S131072) S4096.size (cc2_transform_3 i) (hinb2_3 i)).WholeWords (EltTy.packing .f32)
  hrank3 : 0 < grid3.rank
  k3_mult1_dvd : ∀ i : grid3.Coords, 1024 ∣ (k3_mult1 i).toNat
  k3_off1_inb : ∀ i : grid3.Coords, ∀ a, (k3_off1 i) a + S1024x64.size a ≤ S16384x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x64.size a ≤ S16384x64.size a
  hwx3_0 : ∀ i : grid3.Coords, EltTy.bits .f32 = 32 ∨ (Rect.block (s := S16384x64) S1024x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16384x64.size a ≤ S16384x64.size a
  hwx3_1 : ∀ i : grid3.Coords, EltTy.bits .f32 = 32 ∨ (Rect.block (s := S16384x64) S16384x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S16384x16384.size a
  hwx3_2 : ∀ i : grid3.Coords, EltTy.bits .f32 = 32 ∨ (Rect.block (s := S16384x16384) S1024x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S16384x16384.size a
  hwx3_3 : ∀ i : grid3.Coords, EltTy.bits .i32 = 32 ∨ (Rect.block (s := S16384x16384) S1024x1024.size (cc3_transform_3 i) (hinb3_3 i)).WholeWords (EltTy.packing .i32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def gather_S16384x64_S131072x1_S131072x64_1_0_n_n_0_1_164 : GatherDims S16384x64 S131072x1 S131072x64 where
  offsetDims := [1]
  collapsedSliceDims := [0]
  operandBatchingDims := []
  startIndicesBatchingDims := []
  startIndexMap := [0]
  indexVectorDim := 1
  sliceSizes := ![1, 64]
  wf := gather_S16384x64_S131072x1_S131072x64_1_0_n_n_0_1_164_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v22) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S2048x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53_0) S4096x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53_1) S4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S1024x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S16384x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54_0) S1024x1024.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54_1) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S2x131072 : Shape := ⟨2, ![2, 131072]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S16384 : Shape := ⟨1, ![16384]⟩
abbrev S16384x1 : Shape := ⟨2, ![16384, 1]⟩
abbrev S1x128 : Shape := ⟨2, ![1, 128]⟩
abbrev S16384x64 : Shape := ⟨2, ![16384, 64]⟩
abbrev S1x64 : Shape := ⟨2, ![1, 64]⟩
abbrev S1x131072 : Shape := ⟨2, ![1, 131072]⟩
abbrev S131072 : Shape := ⟨1, ![131072]⟩
abbrev S131072x1 : Shape := ⟨2, ![131072, 1]⟩
abbrev S131072x64 : Shape := ⟨2, ![131072, 64]⟩
abbrev S64x16384 : Shape := ⟨2, ![64, 16384]⟩
abbrev S16384x16384 : Shape := ⟨2, ![16384, 16384]⟩

abbrev nBuf : Space → Nat
  | .hbm => 108
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S2x131072, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S1x524288, .i32⟩
  | .hbm, ⟨10, _⟩ => ⟨S524288, .i32⟩
  | .hbm, ⟨11, _⟩ => ⟨S1x524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x128, .f32⟩
  | .hbm, ⟨22, _⟩ => ⟨S_, .f32⟩
  | .hbm, ⟨23, _⟩ => ⟨S16384x128, .f32⟩
  | .hbm, ⟨24, _⟩ => ⟨S524288x1, .i32⟩
  | .hbm, ⟨25, _⟩ => ⟨S16384x128, .f32⟩
  | .hbm, ⟨26, _⟩ => ⟨S_, .f32⟩
  | .hbm, ⟨27, _⟩ => ⟨S524288, .f32⟩
  | .hbm, ⟨28, _⟩ => ⟨S_, .f32⟩
  | .hbm, ⟨29, _⟩ => ⟨S16384, .f32⟩
  | .hbm, ⟨30, _⟩ => ⟨S524288x1, .i32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384x1, .f32⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S1x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S_, .f32⟩
  | .hbm, ⟨45, _⟩ => ⟨S16384x128, .f32⟩
  | .hbm, ⟨46, _⟩ => ⟨S16384x128, .f32⟩
  | .hbm, ⟨47, _⟩ => ⟨S_, .i32⟩
  | .hbm, ⟨48, _⟩ => ⟨S524288, .i32⟩
  | .hbm, ⟨49, _⟩ => ⟨S524288, .i1⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S524288, .i32⟩
  | .hbm, ⟨54, _⟩ => ⟨S524288x1, .i32⟩
  | .hbm, ⟨55, _⟩ => ⟨S524288x128, .f32⟩
  | .hbm, ⟨56, _⟩ => ⟨S_, .f32⟩
  | .hbm, ⟨57, _⟩ => ⟨S16384x128, .f32⟩
  | .hbm, ⟨58, _⟩ => ⟨S524288x1, .i32⟩
  | .hbm, ⟨59, _⟩ => ⟨S16384x128, .f32⟩
  | .hbm, ⟨60, _⟩ => ⟨S_, .f32⟩
  | .hbm, ⟨61, _⟩ => ⟨S524288, .f32⟩
  | .hbm, ⟨62, _⟩ => ⟨S_, .f32⟩
  | .hbm, ⟨63, _⟩ => ⟨S16384, .f32⟩
  | .hbm, ⟨64, _⟩ => ⟨S524288x1, .i32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S16384x1, .f32⟩
  | .hbm, ⟨70, _⟩ => ⟨S16384x128, .f32⟩
  | .hbm, ⟨71, _⟩ => ⟨S16384x128, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64, .f32⟩
  | .hbm, ⟨78, _⟩ => ⟨S1x131072, .i32⟩
  | .hbm, ⟨79, _⟩ => ⟨S131072, .i32⟩
  | .hbm, ⟨80, _⟩ => ⟨S_, .i32⟩
  | .hbm, ⟨81, _⟩ => ⟨S131072, .i32⟩
  | .hbm, ⟨82, _⟩ => ⟨S131072, .i1⟩
  | .hbm, ⟨83, _⟩ => ⟨S_, .i32⟩
  | .hbm, ⟨84, _⟩ => ⟨S131072, .i32⟩
  | .hbm, ⟨85, _⟩ => ⟨S131072, .i32⟩
  | .hbm, ⟨86, _⟩ => ⟨S131072, .i32⟩
  | .hbm, ⟨87, _⟩ => ⟨S131072x1, .i32⟩
  | .hbm, ⟨88, _⟩ => ⟨S131072x64, .f32⟩
  | .hbm, ⟨89, _⟩ => ⟨S1x131072, .i32⟩
  | .hbm, ⟨90, _⟩ => ⟨S131072, .i32⟩
  | .hbm, ⟨91, _⟩ => ⟨S_, .i32⟩
  | .hbm, ⟨92, _⟩ => ⟨S131072, .i32⟩
  | .hbm, ⟨93, _⟩ => ⟨S131072, .i1⟩
  | .hbm, ⟨94, _⟩ => ⟨S_, .i32⟩
  | .hbm, ⟨95, _⟩ => ⟨S131072, .i32⟩
  | .hbm, ⟨96, _⟩ => ⟨S131072, .i32⟩
  | .hbm, ⟨97, _⟩ => ⟨S131072, .i32⟩
  | .hbm, ⟨98, _⟩ => ⟨S131072x1, .i32⟩
  | .hbm, ⟨99, _⟩ => ⟨S131072x64, .f32⟩
  | .hbm, ⟨100, _⟩ => ⟨S131072x64, .f32⟩
  | .hbm, ⟨101, _⟩ => ⟨S_, .f32⟩
  | .hbm, ⟨102, _⟩ => ⟨S131072, .f32⟩
  | .hbm, ⟨103, _⟩ => ⟨S64x16384, .f32⟩
  | .hbm, ⟨104, _⟩ => ⟨S16384x16384, .f32⟩
  | .hbm, ⟨105, _⟩ => ⟨S_, .f32⟩
  | .hbm, ⟨106, _⟩ => ⟨S16384x16384, .f32⟩
  | .hbm, ⟨107, _⟩ => ⟨S16384x16384, .i1⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x128 : S_.BroadcastsInDim S16384x128 (![] : Fin 0 → Fin S16384x128.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S2x131072_S1x131072_0_0 : S2x131072.Slices ![0, 0] S1x131072
  shapeCasts_S1x131072_S131072 : S1x131072.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S2x131072_S1x131072_1_0 : S2x131072.Slices ![1, 0] S1x131072
  reducesTo_S131072x64_S131072_d1 : S131072x64.ReducesTo [1] S131072
  h_S_ : 0 < S_.numel
  transposes_S16384x64_S64x16384_1_0 : S16384x64.Transposes [1, 0] S64x16384
  bcast_S_S16384x16384 : S_.BroadcastsInDim S16384x16384 (![] : Fin 0 → Fin S16384x16384.rank)
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  scatter_S16384_S524288x1_S524288_n_0_0_1_wf : ScatterDims.WF S16384 S524288x1 S524288 [] [0] [0] 1
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  gather_S16384x64_S131072x1_S131072x64_1_0_n_n_0_1_164_wf : GatherDims.WF S16384x64 S131072x1 S131072x64 [1] [0] [] [0] [] 1 ![1, 64]
  dot_S16384x64_S64x16384_S16384x16384_1_0_0_1_n_n_wf : DotDims.WF S16384x64 S64x16384 S16384x16384 [1] [0] [0] [1] [] []

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S131072x1_S131072x64_1_0_n_n_0_1_164 : GatherDims S16384x64 S131072x1 S131072x64 where
  offsetDims := [1]
  collapsedSliceDims := [0]
  operandBatchingDims := []
  startIndicesBatchingDims := []
  startIndexMap := [0]
  indexVectorDim := 1
  sliceSizes := ![1, 64]
  wf := gather_S16384x64_S131072x1_S131072x64_1_0_n_n_0_1_164_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.K.RunCond.lean ====
/-
  The program as a chain of host stretches and kernel regions: from one record per region (its body obligation and
  how its arrays are taken out of, and put back among, the core's unscoped buffers) every execution terminates and
  the final memory holds, at each result array, what the chain of valuations says, and at each argument array its
  launch contents.
-/
import proofs.«155684_j2405181685928_2_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- the launch theorem's implicit arguments are found by unifying its conclusion with this one, which takes unfolding
-- plain definitions in a metavariable's type
set_option backward.isDefEq.respectTransparency.types false in
/-- The run of the whole program, given the four regions' records: every weakly fair execution of the entry
    function terminates, the six result arrays end at what the last valuation of the unscoped buffers holds for
    them (the contents the regions leave, then the host operations after them), and the argument arrays end
    as launched. The thread state between two items is "every unscoped buffer of the core at the valuation
    reached so far", beside a rest of the caller's choosing. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c)) :
    θ_run defs (onTc (τ := τ) (main (F := F))) ⟨m, fun _ => 0, ρ⟩ (fun r => ∀ c : Dev nD,
      r.2.mem ((c.tc : Thread nD τ).loc main_v23) = V8 m outs c main_v23
      ∧       r.2.mem ((c.tc : Thread nD τ).loc main_v34) = V8 m outs c main_v34
      ∧       r.2.mem ((c.tc : Thread nD τ).loc main_v53_0) = V8 m outs c main_v53_0
      ∧       r.2.mem ((c.tc : Thread nD τ).loc main_v53_1) = V8 m outs c main_v53_1
      ∧       r.2.mem ((c.tc : Thread nD τ).loc main_v54_0) = V8 m outs c main_v54_0
      ∧       r.2.mem ((c.tc : Thread nD τ).loc main_v57) = V8 m outs c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, (hpost2 c).trans (hpre3 c), hpost3 c, sep_mono .rfl (hE4 c)⟩)
    (hinit := ?_) (QY := fun c s => s.mem ((c.tc : Thread nD τ).loc main_v23) = V8 m outs c main_v23 ∧ s.mem ((c.tc : Thread nD τ).loc main_v34) = V8 m outs c main_v34 ∧ s.mem ((c.tc : Thread nD τ).loc main_v53_0) = V8 m outs c main_v53_0 ∧ s.mem ((c.tc : Thread nD τ).loc main_v53_1) = V8 m outs c main_v53_1 ∧ s.mem ((c.tc : Thread nD τ).loc main_v54_0) = V8 m outs c main_v54_0 ∧ s.mem ((c.tc : Thread nD τ).loc main_v57) = V8 m outs c main_v57 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v23) (Finset.mem_filter.mpr ⟨StableHlo.devRef_mem_tcRefs main_v23, by decide⟩),
        h (Proc.devRef .tc main_v34) (Finset.mem_filter.mpr ⟨StableHlo.devRef_mem_tcRefs main_v34, by decide⟩),
        h (Proc.devRef .tc main_v53_0) (Finset.mem_filter.mpr ⟨StableHlo.devRef_mem_tcRefs main_v53_0, by decide⟩),
        h (Proc.devRef .tc main_v53_1) (Finset.mem_filter.mpr ⟨StableHlo.devRef_mem_tcRefs main_v53_1, by decide⟩),
        h (Proc.devRef .tc main_v54_0) (Finset.mem_filter.mpr ⟨StableHlo.devRef_mem_tcRefs main_v54_0, by decide⟩),
        h (Proc.devRef .tc main_v57) (Finset.mem_filter.mpr ⟨StableHlo.devRef_mem_tcRefs main_v57, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

end Cert.Kernel.Hand

end
-- ==== Proof.K.Reg0.lean ====
/-
  The body half of the first graph layer's launch (grid of 8 blocks of 2048 node rows).

  At a grid point t the body reads six staged blocks — the aggregated neighbour rows, the node rows, the stored
  reciprocals 1 / d, the two weight matrices and the bias — and overwrites the staged output block, whole, with
      max ((agg ⊙ inv) · Wl + x · Wr + b, 0).
  Nothing else is written, so the output block after the body is a function of the six input blocks alone
  ("out0_6"), and each input block is left as it was.  The three row-blocked inputs move with t; the two weight
  matrices and the bias have a constant index map, are fetched once, and keep holding their (only) block at every
  later point.  This file states these facts for ANY contents V of the arrays at the moment the launch starts,
  and proves the pipeline's body obligation from them.
-/
import proofs.«155684_j2405181685928_2_alg».proof.Proof.Gen.Kernel.Launch
import proofs.«155684_j2405181685928_2_alg».proof.Proof.Gen.Kernel.Skeleton
import proofs.«155684_j2405181685928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The blocks the body sees -/

/-- The block of window w at grid point t: the rows (and columns) the window's index map selects at t, read
    from the window's array at its contents V when the launch starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at t at EVERY point t, whether the pipeline copied
    it in at t or not: where it did not, the index map has not moved since the last copy (for the weights and the
    bias: since the first point), and the body never writes an input.  Stated for any proof data with arrays V
    whose body leaves input blocks alone. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

/-! ## The rectangles the body reads and writes: every access is of a whole staged block -/

abbrev r0_rows : Rect S2048x128 := Rect.unit (s := S2048x128) ![0, 0] S2048x128.size inb_S2048x128_S2048x128_0_0
abbrev r0_inv : Rect S2048x1 := Rect.unit (s := S2048x1) ![0, 0] S2048x1.size inb_S2048x1_S2048x1_0_0
abbrev r0_wt : Rect S128x128 := Rect.unit (s := S128x128) ![0, 0] S128x128.size inb_S128x128_S128x128_0_0
abbrev r0_bias : Rect S128 := Rect.unit (s := S128) ![0] S128.size inb_S128_S128_0
abbrev r0_out : Rect S2048x128 := Rect.unit (s := S2048x128) ![0, 0] S2048x128.size inb_S2048x128_S2048x128_0_0

/-! ## The output block after the body -/

/-- The staged output block after the body, from the six input blocks (x0 aggregate, x1 node rows, x2
    reciprocals, x3 and x4 the weights, x5 the bias): its single store, of the layer's value on the whole block.
    The payload takes the blocks in the order the body loads them: aggregate, reciprocals, left weights, node
    rows, right weights, bias. -/
def out0_6 (x0 : Vec F S2048x128 .f32) (x1 : Vec F S2048x128 .f32) (x2 : Vec F S2048x1 .f32)
    (x3 x4 : Vec F S128x128 .f32) (x5 : Vec F S128 .f32) : Vec F S2048x128 .f32 :=
  View.canon [⟨r0_out, k0_pay1 (View.ld x0 r0_rows) (View.ld x2 r0_inv) (View.ld x3 r0_wt) (View.ld x1 r0_rows)
    (View.ld x4 r0_wt) (View.ld x5 r0_bias)⟩]

/-- The single store is of the whole block, so every index of the block lies in it. -/
theorem cover0_6 (p0 : Vec F S2048x128 .f32) (y : S2048x128.Idx) :
    ∃ pc ∈ ([⟨r0_out, p0⟩] : List (View.Piece (Elt F) S2048x128 .f32)), y ∈ pc.1.set :=
  View.cover_of_tiled [⟨r0_out, p0⟩] S2048x128.size (by rfl) y

/-! ## The body, as a triple -/

set_option maxHeartbeats 1000000 in
/-- Run on seven whole staging buffers — the six inputs holding x0 … x5 and the output holding anything — the
    body ends with the inputs unchanged and the output holding out0_6 x0 … x5.  (It also reads the output
    buffer once before the store; the value read is not used.) -/
theorem sound_kernel0 (c : Dev nD) (E : Set ℕ) (i : grid0.Coords)
    (arg1 : Memref sig .tc .vmem S2048x128 .f32) (harg1 : arg1.IsWhole)
    (arg2 : Memref sig .tc .vmem S2048x128 .f32) (harg2 : arg2.IsWhole)
    (arg3 : Memref sig .tc .vmem S2048x1 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S128 .f32) (harg6 : arg6.IsWhole)
    (arg7 : Memref sig .tc .vmem S2048x128 .f32) (harg7 : arg7.IsWhole)
    (x0 : Vec F S2048x128 .f32) (x1 : Vec F S2048x128 .f32) (x2 : Vec F S2048x1 .f32)
    (x3 x4 : Vec F S128x128 .f32) (x5 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of the launch -/

/-- The proof data of this launch on core c.  Arrays: as the launch finds them (V).  After the body at point t:
    each input's staging buffer still holds its block at t, and the output's holds out0_6 of the six input
    blocks.  The invariant is the one of a body that touches nothing but its staging buffers; nothing is owed;
    all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- Its arrays are V's. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-! What the body finds in each input's staging buffer: the window's block at t. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the pipeline hands the body at point t: the invariant, what is owed, and each window's current staging
    buffer at what the proof data says it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it must hand back: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point t: the six input buffers hold the blocks at t, so the body's triple applies with x_w the
    block of window w; the invariant and what is owed are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t)
    (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation for this launch, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  The body half of the second graph layer's launch (grid of 8 blocks of 2048 node rows, 128 → 64 channels).

  At a grid point t the body reads six staged blocks — the aggregated rows of the first layer's result, those
  rows themselves, the stored reciprocals 1 / d, the two 128 × 64 weight matrices and the 64 biases — and overwrites
  the staged output block, whole, with
      (agg ⊙ inv) · Wl + h · Wr + b
  (no activation in this layer).  Nothing else is written, so the output block after the body is a function of the
  six input blocks alone ("out1_6"), and each input block is left as it was.  The three row-blocked inputs move
  with t; the weights and the bias have a constant index map, are fetched once, and keep holding their (only) block
  at every later point.  This file states these facts for ANY contents V of the arrays at the moment the launch
  starts, and proves the pipeline's body obligation from them.
-/
import proofs.«155684_j2405181685928_2_alg».proof.Proof.Gen.Kernel.Launch
import proofs.«155684_j2405181685928_2_alg».proof.Proof.Gen.Kernel.Skeleton
import proofs.«155684_j2405181685928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The blocks the body sees -/

/-- The block of window w at grid point t: the rows (and columns) the window's index map selects at t, read
    from the window's array at its contents V when the launch starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at t at EVERY point t, whether the pipeline copied
    it in at t or not: where it did not, the index map has not moved since the last copy (for the weights and the
    bias: since the first point), and the body never writes an input.  Stated for any proof data with arrays V
    whose body leaves input blocks alone. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
      (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl)
      (fun t => by rw [hafter]; unfold Dat.blockOf iblk1; rw [hA]; try rfl) t d).trans
    (by unfold Dat.fetched Dat.blockOf iblk1; rw [hA]; try rfl)

/-! ## The rectangles the body reads and writes: every access is of a whole staged block -/

abbrev r1_rows : Rect S2048x128 := Rect.unit (s := S2048x128) ![0, 0] S2048x128.size inb_S2048x128_S2048x128_0_0
abbrev r1_inv : Rect S2048x1 := Rect.unit (s := S2048x1) ![0, 0] S2048x1.size inb_S2048x1_S2048x1_0_0
abbrev r1_wt : Rect S128x64 := Rect.unit (s := S128x64) ![0, 0] S128x64.size inb_S128x64_S128x64_0_0
abbrev r1_bias : Rect S64 := Rect.unit (s := S64) ![0] S64.size inb_S64_S64_0
abbrev r1_out : Rect S2048x64 := Rect.unit (s := S2048x64) ![0, 0] S2048x64.size inb_S2048x64_S2048x64_0_0

/-! ## The output block after the body -/

/-- The staged output block after the body, from the six input blocks (x0 aggregate, x1 the first layer's rows,
    x2 reciprocals, x3 and x4 the weights, x5 the bias): its single store, of the layer's value on the whole block.
    The payload takes the blocks in the order the body loads them: aggregate, reciprocals, left weights, node
    rows, right weights, bias. -/
def out1_6 (x0 : Vec F S2048x128 .f32) (x1 : Vec F S2048x128 .f32) (x2 : Vec F S2048x1 .f32)
    (x3 x4 : Vec F S128x64 .f32) (x5 : Vec F S64 .f32) : Vec F S2048x64 .f32 :=
  View.canon [⟨r1_out, k1_pay1 (View.ld x0 r1_rows) (View.ld x2 r1_inv) (View.ld x3 r1_wt) (View.ld x1 r1_rows)
    (View.ld x4 r1_wt) (View.ld x5 r1_bias)⟩]

/-- The single store is of the whole block, so every index of the block lies in it. -/
theorem cover1_6 (p0 : Vec F S2048x64 .f32) (y : S2048x64.Idx) :
    ∃ pc ∈ ([⟨r1_out, p0⟩] : List (View.Piece (Elt F) S2048x64 .f32)), y ∈ pc.1.set :=
  View.cover_of_tiled [⟨r1_out, p0⟩] S2048x64.size (by rfl) y

/-! ## The body, as a triple -/

set_option maxHeartbeats 1000000 in
/-- Run on seven whole staging buffers — the six inputs holding x0 … x5 and the output holding anything — the
    body ends with the inputs unchanged and the output holding out1_6 x0 … x5.  (It also reads the output
    buffer once before the store; the value read is not used.) -/
theorem sound_kernel1 (c : Dev nD) (E : Set ℕ) (i : grid1.Coords)
    (arg1 : Memref sig .tc .vmem S2048x128 .f32) (harg1 : arg1.IsWhole)
    (arg2 : Memref sig .tc .vmem S2048x128 .f32) (harg2 : arg2.IsWhole)
    (arg3 : Memref sig .tc .vmem S2048x1 .f32) (harg3 : arg3.IsWhole)
    (arg4 : Memref sig .tc .vmem S128x64 .f32) (harg4 : arg4.IsWhole)
    (arg5 : Memref sig .tc .vmem S128x64 .f32) (harg5 : arg5.IsWhole)
    (arg6 : Memref sig .tc .vmem S64 .f32) (harg6 : arg6.IsWhole)
    (arg7 : Memref sig .tc .vmem S2048x64 .f32) (harg7 : arg7.IsWhole)
    (x0 : Vec F S2048x128 .f32) (x1 : Vec F S2048x128 .f32) (x2 : Vec F S2048x1 .f32)
    (x3 x4 : Vec F S128x64 .f32) (x5 : Vec F S64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_linear_kernel i arg1 harg1 arg2 harg2 arg3 harg3 arg4 harg4 arg5 harg5 arg6 harg6 arg7 harg7) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data of the launch -/

/-- The proof data of this launch on core c.  Arrays: as the launch finds them (V).  After the body at point t:
    each input's staging buffer still holds its block at t, and the output's holds out1_6 of the six input
    blocks.  The invariant is the one of a body that touches nothing but its staging buffers; nothing is owed;
    all shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- Its arrays are V's. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

/-! What the body finds in each input's staging buffer: the window's block at t. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the pipeline hands the body at point t: the invariant, what is owed, and each window's current staging
    buffer at what the proof data says it holds before the body; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it must hand back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point t: the six input buffers hold the blocks at t, so the body's triple applies with x_w the
    block of window w; the invariant and what is owed are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t)
    (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation for this launch, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
/-
  The edge scores.  For each of the 131072 edges e the program has gathered the two end rows z0[e,·], z1[e,·]
  (64 channels each); the call `cc2__decode_kernel` walks the edges in 32 consecutive blocks of 4096 and, on a
  block, writes
      mul[e,k] = z0[e,k] · z1[e,k]          (window 2)
      sum[e]   = Σ_k mul[e,k]                (window 3).
  This file says what one visit of the body does to the four staging buffers and packages it as the pipeline's
  proof data.  The point of the statement: both stores overwrite their buffer entirely, so what an output
  buffer holds after a visit is a function of the two input blocks of that visit only — nothing of an earlier
  visit survives, and the value does not depend on which of the two alternating buffers is current.
-/
import proofs.«155684_j2405181685928_2_alg».proof.Proof.Gen.Kernel.Launch
import proofs.«155684_j2405181685928_2_alg».proof.Proof.Gen.Kernel.Skeleton
import proofs.«155684_j2405181685928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with a side of several thousand recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the edge-score call begins
variable (V : (c : Dev nD) → (b : Ref sig .tc) → Buf (Elt F) ((c : Thread nD τ).loc b))

/-! ## The blocks a visit reads -/

/-- Rows 4096·t … 4096·t+4095 of window `w`'s array (for the 1-dimensional window 3: entries), as the array stands
    when the call begins. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two stores -/

/-- All of a 4096×64 buffer, as a rectangle at the origin. -/
abbrev all4096x64 : Rect S4096x64 := Rect.unit (s := S4096x64) ![0, 0] S4096x64.size inb_S4096x64_S4096x64_0_0
/-- All of a length-4096 buffer. -/
abbrev all4096 : Rect S4096 := Rect.unit (s := S4096) ![0] S4096.size inb_S4096_S4096_0

/-- The products' buffer after a visit that read `x0`, `x1`: the single store of z0 · z1 over all of it. -/
def out2_2 (x0 x1 : Vec F S4096x64 .f32) : Vec F S4096x64 .f32 :=
  View.canon [⟨all4096x64, k2_pay1 (View.ld x0 all4096x64) (View.ld x1 all4096x64)⟩]

/-- The sums' buffer after the same visit: the single store of Σ_k z0 · z1 over all of it. -/
def out2_3 (x0 x1 : Vec F S4096x64 .f32) : Vec F S4096 .f32 :=
  View.canon [⟨all4096, k2_pay2 (View.ld x0 all4096x64) (View.ld x1 all4096x64)⟩]

/-- Every entry of the products' buffer lies in the stored rectangle (it is the whole buffer). -/
theorem store_mul_covers (p : Vec F S4096x64 .f32) (y : S4096x64.Idx) :
    ∃ pc ∈ ([⟨all4096x64, p⟩] : List (View.Piece (Elt F) S4096x64 .f32)), y ∈ pc.1.set :=
  View.cover_of_tiled [⟨all4096x64, p⟩] S4096x64.size (by rfl) y

/-- Every entry of the sums' buffer lies in the stored rectangle. -/
theorem store_sum_covers (p : Vec F S4096 .f32) (y : S4096.Idx) :
    ∃ pc ∈ ([⟨all4096, p⟩] : List (View.Piece (Elt F) S4096 .f32)), y ∈ pc.1.set :=
  View.cover_of_tiled [⟨all4096, p⟩] S4096.size (by rfl) y

/-! ## One visit, on any four buffers -/

set_option maxHeartbeats 400000 in
/-- Run the body on four whole buffers: `a0`, `a1` reading `x0`, `x1`, and `b0`, `b1` holding anything.  It
    loads `x0` and `x1`, loads `b0` (a value it never uses), stores the products over `b0`, loads `b1` (unused
    again) and stores the sums over `b1`.  So it ends with `a0`, `a1` untouched, `b0` reading `out2_2 x0 x1` and `b1`
    reading `out2_3 x0 x1`; whatever continuation `K` can start from that, the body reaches. -/
theorem decode_visit (c : Dev nD) (E : Set ℕ) (i : grid2.Coords)
    (a0 : Memref sig .tc .vmem S4096x64 .f32) (ha0 : a0.IsWhole) (a1 : Memref sig .tc .vmem S4096x64 .f32) (ha1 : a1.IsWhole)
    (b0 : Memref sig .tc .vmem S4096x64 .f32) (hb0 : b0.IsWhole) (b1 : Memref sig .tc .vmem S4096 .f32) (hb1 : b1.IsWhole)
    (x0 x1 : Vec F S4096x64 .f32) (K : PUnit → sProp 𝕄) :
    iprop(owns (c : Thread nD τ) a0 fullShare x0 ∗ owns (c : Thread nD τ) a1 fullShare x1
        ∗ (∃ y, owns (c : Thread nD τ) b0 fullShare y) ∗ (∃ y, owns (c : Thread nD τ) b1 fullShare y)
        ∗ (iprop(owns (c : Thread nD τ) a0 fullShare x0 ∗ owns (c : Thread nD τ) a1 fullShare x1
            ∗ owns (c : Thread nD τ) b0 fullShare (out2_2 x0 x1) ∗ owns (c : Thread nD τ) b1 fullShare (out2_3 x0 x1)) -∗ K ⟨⟩))
      ⊢ wp frame (wpE (defs₀ (F := F)) Variants.none c none) E (cc2__decode_kernel i a0 ha0 a1 ha1 b0 hb0 b1 hb1) K := by
  -- the printed body is its sequence of four loads and two stores over the named payloads
  simp only [cc2__decode_kernel_eq_skeleton]; unfold cc2__decode_kernel_skel
  -- a buffer "reads x" when its raw contents f satisfy read f = x: name the raw contents
  unfold owns
  iintro ⟨⟨%f0, %e0, Ha0⟩, ⟨%f1, %e1, Ha1⟩, ⟨%y0, %g0, -, Hb0⟩, ⟨%y1, %g1, -, Hb1⟩, HK⟩
  subst e0; subst e1
  -- the loads and stores, one after the other, then the return
  sl_exec
  sl_step
  iapply HK
  -- the inputs' raw contents never changed
  isplitl [Ha0]
  · iexists f0; isplitr
    · ipureintro; rfl
    · iexact Ha0
  isplitl [Ha1]
  · iexists f1; isplitr
    · ipureintro; rfl
    · iexact Ha1
  -- each output's raw contents are the old ones with one covering store written in: they read the stored value
  -- (the raw contents are fixed by the buffer we hold, so that half goes first)
  isplitl [Hb0]
  · iexists _; isplitr
    swap
    · iexact Hb0
    · ipureintro; exact View.read_writes_eq_canon _ _ _ (store_mul_covers _)
  · iexists _; isplitr
    swap
    · iexact Hb1
    · ipureintro; exact View.read_writes_eq_canon _ _ _ (store_sum_covers _)

/-! ## The call's proof data -/

/-- For the pipeline rule: the four arrays as the call finds them; after visit `t` the input buffers still at
    their blocks, the products' buffer at z0-block · z1-block and the sums' buffer at its channel sums; no other
    state is involved (the rule's own invariant), the core owes no DMA, and every array is held outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- When visit `t` starts, the z0 buffer holds block `t` of z0.  The block index is `t` itself, so the pipeline
    copies the block in before every visit; the window is an input, never idle, and 4096 divides 131072 so no
    block is cut short. -/
theorem z0_ready (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) keep t d]
  unfold Dat.fetched Dat.blockOf iblk2; rw [A_eq2]; try rfl

/-- Likewise the z1 buffer holds block `t` of z1. -/
theorem z1_ready (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) keep t d]
  unfold Dat.fetched Dat.blockOf iblk2; rw [A_eq2]; try rfl

/-! ## The body obligation -/

/-- Visit `t` as the pipeline runs it, on the four current staging buffers: the rule's invariant and the core's
    (empty) debt are not touched, the inputs hold their blocks (`z0_ready`, `z1_ready`), the outputs hold whatever
    the previous use of that buffer left; `decode_visit` does the rest. -/
theorem visit2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t))) := by
  unfold bodyAt2
  simp only [z0_ready, z1_ready]
  -- the invariant and the debt do not depend on the point
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Howe, ⟨%d0, Hz0⟩, ⟨%d1, Hz1⟩, Hmul, Hsum⟩
  iapply (decode_visit c Set.univ _ _ _ _ _ _ _ _ _ (iblk2 V c 0 t) (iblk2 V c 1 t) _)
  isplitl [Hz0]; · iexact Hz0
  isplitl [Hz1]; · iexact Hz1
  isplitl [Hmul]
  · icases Hmul with ⟨%d2, Hmul⟩; iexists _; iexact Hmul
  isplitl [Hsum]
  · icases Hsum with ⟨%d3, Hsum⟩; iexists _; iexact Hsum
  iintro ⟨Hz0, Hz1, Hmul, Hsum⟩
  isplitl [HΦ]; · iexact HΦ
  isplitl [Howe]; · iexact Howe
  isplitl [Hz0]; · iexact Hz0
  isplitl [Hz1]; · iexact Hz1
  isplitl [Hmul]; · iexact Hmul
  iexact Hsum

/-- What the pipeline rule asks of the body, at every visit. -/
theorem body_obligation2 (c : Dev nD) : BodyObligation (dat2 (F := F) V c) (defs₀ (F := F)) Variants.none () Set.univ := fun t => by
  rw [bigSep_W2, bigSep_W2]
  exact visit2 V c t

end Cert.Kernel.Hand

end
-- ==== Proof.K.Reg3.lean ====
/-
  The dense scores.  z is the 16384×64 matrix of node embeddings; the call `cc3__zzt_kernel` walks a 16×16 grid
  of points (i, j) and at (i, j) computes, for the 1024 rows r of row block i and the 1024 rows s of row block j,
      prob[r,s] = Σ_k z[r,k] · z[s,k]            (window 2, a 1024×1024 tile of the 16384×16384 result)
      mask[r,s] = 1 if prob[r,s] > 0 else 0       (window 3, the same tile as 32-bit integers).
  It reads z twice: window 0 stages row block i (copied in when j = 0 and kept while j runs), window 1 stages ALL
  of z once, at the first point, and the body cuts rows 1024·j … 1024·j+1023 out of that copy itself.

  Two things differ from a plain call.  (1) What the body stores depends on the point, through the offset 1024·j
  of the slice, so the functions giving an output buffer's contents take the grid coordinates.  (2) Windows 0 and 1
  read one and the same array.  Neither writes it, so each can hold it at half the full share: window 0 the left
  half, window 1 the right half.  The last section splits the array's full share into those halves when the call
  begins and joins them again when it ends.
-/
import proofs.«155684_j2405181685928_2_alg».proof.Proof.Gen.Kernel.Launch
import proofs.«155684_j2405181685928_2_alg».proof.Proof.Gen.Kernel.Skeleton
import proofs.«155684_j2405181685928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with a side of several thousand recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the dense-score call begins
variable (V : (c : Dev nD) → (b : Ref sig .tc) → Buf (Elt F) ((c : Thread nD τ).loc b))

/-! ## The blocks a visit reads -/

/-- Window `w`'s block at point `t` of its array as the call finds it: for window 0 rows 1024·i … of z, for
    window 1 all of z. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accesses -/

/-- All of a 1024×64 buffer. -/
abbrev all1024x64 : Rect S1024x64 := Rect.unit (s := S1024x64) ![0, 0] S1024x64.size inb_S1024x64_S1024x64_0_0
/-- All of a 1024×1024 buffer. -/
abbrev all1024x1024 : Rect S1024x1024 := Rect.unit (s := S1024x1024) ![0, 0] S1024x1024.size inb_S1024x1024_S1024x1024_0_0
/-- Rows 1024·j … 1024·j+1023 of the staged copy of z, at the point with coordinates `i = (i, j)`. -/
abbrev colRows (i : grid3.Coords) : Rect S16384x64 := Rect.unit (s := S16384x64) (k3_off1 i) S1024x64.size (k3_off1_inb i)

/-- The scores' buffer after the visit at coordinates `i` that found row block `x0` and the copy `x1` of z: the
    single store of (row block) · (rows 1024·j … of z)ᵀ over all of it. -/
def out3_2 (i : grid3.Coords) (x0 : Vec F S1024x64 .f32) (x1 : Vec F S16384x64 .f32) : Vec F S1024x1024 .f32 :=
  View.canon [⟨all1024x1024, k3_pay1 (View.ld x1 (colRows i)) (View.ld x0 all1024x64)⟩]

/-- The mask's buffer after the same visit: the single store of the scores' signs, as 0/1 words. -/
def out3_3 (i : grid3.Coords) (x0 : Vec F S1024x64 .f32) (x1 : Vec F S16384x64 .f32) : Vec F S1024x1024 .i32 :=
  View.canon [⟨all1024x1024, k3_pay2 (View.ld x1 (colRows i)) (View.ld x0 all1024x64)⟩]

/-- Every entry of a 1024×1024 buffer lies in the stored rectangle (it is the whole buffer), whatever the element type. -/
theorem store_tile_covers {e : EltTy} (p : all1024x1024.shape.Idx → Elt F e) (y : S1024x1024.Idx) :
    ∃ pc ∈ ([⟨all1024x1024, p⟩] : List (View.Piece (Elt F) S1024x1024 e)), y ∈ pc.1.set :=
  View.cover_of_tiled [⟨all1024x1024, p⟩] S1024x1024.size (by rfl) y

/-! ## One visit, on any four buffers -/

set_option maxHeartbeats 400000 in
/-- Run the body at coordinates `i` on four whole buffers: `a0` reading the row block `x0`, `a1` reading the copy
    `x1` of z, and `b0`, `b1` holding anything.  It loads the slice `colRows i` of `a1`, loads `a0`, loads `b0`
    (unused) and stores the scores over it, loads `b1` (unused) and stores the mask over it.  The inputs are left
    alone; `b0` ends reading `out3_2 i x0 x1` and `b1` reading `out3_3 i x0 x1`. -/
theorem zzt_visit (c : Dev nD) (E : Set ℕ) (i : grid3.Coords)
    (a0 : Memref sig .tc .vmem S1024x64 .f32) (ha0 : a0.IsWhole) (a1 : Memref sig .tc .vmem S16384x64 .f32) (ha1 : a1.IsWhole)
    (b0 : Memref sig .tc .vmem S1024x1024 .f32) (hb0 : b0.IsWhole) (b1 : Memref sig .tc .vmem S1024x1024 .i32) (hb1 : b1.IsWhole)
    (x0 : Vec F S1024x64 .f32) (x1 : Vec F S16384x64 .f32) (K : PUnit → sProp 𝕄) :
    iprop(owns (c : Thread nD τ) a0 fullShare x0 ∗ owns (c : Thread nD τ) a1 fullShare x1
        ∗ (∃ y, owns (c : Thread nD τ) b0 fullShare y) ∗ (∃ y, owns (c : Thread nD τ) b1 fullShare y)
        ∗ (iprop(owns (c : Thread nD τ) a0 fullShare x0 ∗ owns (c : Thread nD τ) a1 fullShare x1
            ∗ owns (c : Thread nD τ) b0 fullShare (out3_2 i x0 x1) ∗ owns (c : Thread nD τ) b1 fullShare (out3_3 i x0 x1)) -∗ K ⟨⟩))
      ⊢ wp frame (wpE (defs₀ (F := F)) Variants.none c none) E (cc3__zzt_kernel i a0 ha0 a1 ha1 b0 hb0 b1 hb1) K := by
  -- the printed body is its sequence of loads and stores over the named payloads
  simp only [cc3__zzt_kernel_eq_skeleton]; unfold cc3__zzt_kernel_skel
  -- name the buffers' raw contents
  unfold owns
  iintro ⟨⟨%f0, %e0, Ha0⟩, ⟨%f1, %e1, Ha1⟩, ⟨%y0, %g0, -, Hb0⟩, ⟨%y1, %g1, -, Hb1⟩, HK⟩
  subst e0; subst e1
  sl_exec
  sl_step
  iapply HK
  isplitl [Ha0]
  · iexists f0; isplitr
    · ipureintro; rfl
    · iexact Ha0
  isplitl [Ha1]
  · iexists f1; isplitr
    · ipureintro; rfl
    · iexact Ha1
  -- an output's raw contents are the old ones with one covering store written in
  -- (the raw contents are fixed by the buffer we hold, so that half goes first)
  isplitl [Hb0]
  · iexists _; isplitr
    swap
    · iexact Hb0
    · ipureintro; exact View.read_writes_eq_canon _ _ _ (store_tile_covers _)
  · iexists _; isplitr
    swap
    · iexact Hb1
    · ipureintro; exact View.read_writes_eq_canon _ _ _ (store_tile_covers _)

/-! ## The call's proof data -/

/-- For the pipeline rule: the arrays as the call finds them; after visit `t` the two input buffers still at
    their blocks, the scores' buffer and the mask's at `out3_2`, `out3_3` of those blocks at `t`'s coordinates; the
    rule's own invariant; no DMA owed.  The array z is held twice, by window 0 at the left half of the full share
    and by window 1 at the right half; the two result arrays outright. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (grid3.coords t) (iblk3 V c 0 t) (iblk3 V c 1 t)
    | ⟨3, _⟩ => out3_3 (grid3.coords t) (iblk3 V c 0 t) (iblk3 V c 1 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (grid3.coords t) (iblk3 V c 0 t) (iblk3 V c 1 t) := by dsimp only [dat3]
theorem after3_3 (c : Dev nD) (t : Fin cfg3.N) :
    (dat3 V c).after 3 t = out3_3 (grid3.coords t) (iblk3 V c 0 t) (iblk3 V c 1 t) := by dsimp only [dat3]

/-- When the visit at `t = (i, j)` starts, window 0's buffer holds row block i of z.  It was copied in at (i, 0);
    for j > 0 the block index (i, 0) has not moved and the body left the buffer as it found it, so it is still
    there.  1024 divides 16384: no block is cut short. -/
theorem rowblock_ready (c : Dev nD) (t : Fin cfg3.N) (d) : (dat3 V c).before 0 t d = iblk3 V c 0 t := by
  have keep : ∀ s, (cfg3.win 0).cut (cfg3.grid.coords s) ((dat3 V c).after 0 s) = (dat3 V c).blockOf 0 s := fun s => by
    rw [after3_0]; unfold Dat.blockOf iblk3; rw [A_eq3]; try rfl
  rw [(dat3 V c).before_in_eq_fetched 0 rfl (fun _ => rfl) (fun _ _ _ => rfl) keep t d]
  unfold Dat.fetched Dat.blockOf iblk3; rw [A_eq3]; try rfl

/-- Window 1's buffer holds all of z at every visit: copied in once at the first point, its block index is constant
    and the body never writes it. -/
theorem zcopy_ready (c : Dev nD) (t : Fin cfg3.N) (d) : (dat3 V c).before 1 t d = iblk3 V c 1 t := by
  have keep : ∀ s, (cfg3.win 1).cut (cfg3.grid.coords s) ((dat3 V c).after 1 s) = (dat3 V c).blockOf 1 s := fun s => by
    rw [after3_1]; unfold Dat.blockOf iblk3; rw [A_eq3]; try rfl
  rw [(dat3 V c).before_in_eq_fetched 1 rfl (fun _ => rfl) (fun _ _ _ => rfl) keep t d]
  unfold Dat.fetched Dat.blockOf iblk3; rw [A_eq3]; try rfl

/-! ## The body obligation -/

/-- The visit at `t` as the pipeline runs it, on the four current staging buffers.  The staging buffers are the
    core's own and held outright — the half shares concern the array z in main memory, which the body never
    touches. -/
theorem visit3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t))) := by
  unfold bodyAt3
  simp only [rowblock_ready, zcopy_ready]
  -- the invariant and the debt do not depend on the point
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Howe, ⟨%d0, Hzr⟩, ⟨%d1, Hz⟩, Hprob, Hmask⟩
  iapply (zzt_visit c Set.univ _ _ _ _ _ _ _ _ _ (iblk3 V c 0 t) (iblk3 V c 1 t) _)
  isplitl [Hzr]; · iexact Hzr
  isplitl [Hz]; · iexact Hz
  isplitl [Hprob]
  · icases Hprob with ⟨%d2, Hprob⟩; iexists _; iexact Hprob
  isplitl [Hmask]
  · icases Hmask with ⟨%d3, Hmask⟩; iexists _; iexact Hmask
  iintro ⟨Hzr, Hz, Hprob, Hmask⟩
  isplitl [HΦ]; · iexact HΦ
  isplitl [Howe]; · iexact Howe
  isplitl [Hzr]; · iexact Hzr
  isplitl [Hz]; · iexact Hz
  isplitl [Hprob]; · iexact Hprob
  iexact Hmask

/-- What the pipeline rule asks of the body, at every visit. -/
theorem body_obligation3 (c : Dev nD) : BodyObligation (dat3 (F := F) V c) (defs₀ (F := F)) Variants.none () Set.univ := fun t => by
  rw [bigSep_W3, bigSep_W3]
  exact visit3 V c t

end Cert.Kernel.Hand

end
-- ==== Proof.K.Reg3Arr.lean ====
/-
  The dense-score call reads the embedding matrix z through two windows.  The core enters the call holding every
  array outright; this file deals z's full share out to the two windows — the left half to the row-block window,
  the right half to the whole-matrix window — and collects the halves again when the call is over.  Neither window
  writes z, so both halves come back at the contents they went out with, and joining them restores the full share.
-/
import proofs.«155684_j2405181685928_2_alg».proof.Proof.K.Reg3
import proofs.«155684_j2405181685928_2_alg».proof.Proof.Gen.Kernel.Launch
import proofs.«155684_j2405181685928_2_alg».proof.Proof.Gen.Kernel.Skeleton
import proofs.«155684_j2405181685928_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with a side of several thousand recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the dense-score call begins
variable (V : (c : Dev nD) → (b : Ref sig .tc) → Buf (Elt F) ((c : Thread nD τ).loc b))

/-! ## The arrays behind the windows -/

/-- The four windows stand on three arrays: z (windows 0 and 1), the scores, the mask. -/
theorem call3_arrays : Finset.univ.image (Pipeline.arrRef spec3) = ([main_v34, main_v54_0, main_v54_1] : List (Ref sig .tc)).toFinset := by decide

/-- Those three buffers, each held whole and outright at contents `W`, one by one. -/
theorem arrBufs3_eq (c : Dev nD) (W : (b : Ref sig .tc) → Buf (Elt F) ((c : Thread nD τ).loc b)) :
    (Pipeline.arrBufs spec3 c W : sProp 𝕄)
      = iprop((((c : Thread nD τ).loc main_v34) ↦{fullShare} W main_v34) ∗ (((c : Thread nD τ).loc main_v54_0) ↦{fullShare} W main_v54_0)
          ∗ (((c : Thread nD τ).loc main_v54_1) ↦{fullShare} W main_v54_1)) :=
  bigSep_eq_bigSepL_of_eq [main_v34, main_v54_0, main_v54_1] call3_arrays (by decide) _

/-- A core's unscoped buffers are those three and the rest. -/
theorem split3 (c : Dev nD) (W : (b : Ref sig .tc) → Buf (Elt F) ((c : Thread nD τ).loc b)) :
    (unscopedBufs c W : sProp 𝕄) = iprop(Pipeline.arrBufs spec3 c W ∗ Pipeline.unscopedRest spec3 c W) :=
  Pipeline.unscopedBufs_split₀ cfgs 3 winFacts₀3.arr_unscoped c W

/-- The share each window holds its array at: the inputs their halves, the outputs everything. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl
theorem share3_3 (c : Dev nD) : (dat3 V c).share 3 = fullShare := rfl

/-- The call's arrays at contents `G`, window by window: z twice, at the two halves; the results outright.  Every
    window's array is a whole buffer, and windows 0 and 1 name the same one. -/
theorem arrays3_eq (c : Dev nD) (G : (w : Fin cfg3.W) → Buf (Elt F) ((cfg3.win w).arr.view.loc (c.tc : Thread nD τ))) :
    (dat3 V c).arrays G
      = iprop((((cfg3.win 0).arr.view.loc (c.tc : Thread nD τ)) ↦{fullShare.left} G 0) ∗ (((cfg3.win 1).arr.view.loc (c.tc : Thread nD τ)) ↦{fullShare.right} G 1)
          ∗ (((cfg3.win 2).arr.view.loc (c.tc : Thread nD τ)) ↦{fullShare} G 2) ∗ (((cfg3.win 3).arr.view.loc (c.tc : Thread nD τ)) ↦{fullShare} G 3)) := by
  unfold Dat.arrays
  rw [bigSep_W3, (arr_whole3 0).set_eq_univ, (arr_whole3 2).set_eq_univ, (arr_whole3 3).set_eq_univ,
    share3_0, share3_1, share3_2, share3_3]

/-! ## Entering the call: z's full share dealt to its two readers -/

set_option maxHeartbeats 400000 in
/-- From the three buffers held outright at `V` to the call's arrays at their entry contents: the scores' and the
    mask's buffers go to their windows as they are; z's full share is cut into its left and right halves. -/
theorem hsplit3 (c : Dev nD) : (Pipeline.arrBufs spec3 c (V c) : sProp 𝕄) ⊢ (dat3 V c).arrays ((dat3 V c).arrAt · 0) := by
  rw [arrBufs3_eq, arrays3_eq]
  iintro ⟨Hz, Hp, Hm⟩
  ihave Hz := (pointsTo_share (PosShare.mem_left_op_right fullShare)).1 $$ Hz
  icases Hz with ⟨HzL, HzR⟩
  isplitl [HzL]; · iexact HzL
  isplitl [HzR]; · iexact HzR
  isplitl [Hp]; · iexact Hp
  iexact Hm

/-- The same beside the buffers the call does not touch. -/
theorem entry3 (c : Dev nD) :
    (unscopedBufs c (V c) : sProp 𝕄) ⊢ iprop((dat3 V c).arrays ((dat3 V c).arrAt · 0) ∗ Pipeline.unscopedRest spec3 c (V c)) := by
  rw [split3]
  exact sep_mono (hsplit3 V c) .rfl

/-! ## Leaving the call: the halves joined again -/

set_option maxHeartbeats 400000 in
/-- The call's arrays at contents `G`, and the untouched rest at `V`, are the core's unscoped buffers at any `V'` that
    has each window's array at that window's `G` and agrees with `V` elsewhere.  Windows 0 and 1 both say what z holds;
    the two halves at the same contents make the full share. -/
theorem exit3_of (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w))
    (hrest : ∀ b, b ∉ Finset.univ.image (Pipeline.arrRef spec3) → V' b = V c b) :
    iprop((dat3 V c).arrays G ∗ Pipeline.unscopedRest spec3 c (V c)) ⊢ (unscopedBufs c V' : sProp 𝕄) := by
  rw [split3, arrBufs3_eq, arrays3_eq, hG 0, hG 1, hG 2, hG 3]
  refine sep_mono ?_ (Entails.of_eq ?_)
  · iintro ⟨HzL, HzR, Hp, Hm⟩
    isplitl [HzL HzR]
    · iapply (pointsTo_share (PosShare.mem_left_op_right fullShare)).2
      isplitl [HzL]; · iexact HzL
      iexact HzR
    isplitl [Hp]; · iexact Hp
    iexact Hm
  · unfold Pipeline.unscopedRest
    exact bigSep_congr fun b hb => by rw [hrest b (Finset.mem_sdiff.mp hb).2]

/-- In particular at the contents the call leaves: z as it was (an input array is never written), the scores and
    the mask as the write-backs of all 256 visits left them. -/
theorem exit3 (c : Dev nD) (V' : (b : Ref sig .tc) → Buf (Elt F) ((c : Thread nD τ).loc b))
    (h2 : V' main_v54_0 = (dat3 V c).arrAt 2 cfg3.N) (h3 : V' main_v54_1 = (dat3 V c).arrAt 3 cfg3.N)
    (hrest : ∀ b, b ≠ main_v54_0 → b ≠ main_v54_1 → V' b = V c b) :
    iprop((dat3 V c).arrays ((dat3 V c).arrAt · cfg3.N) ∗ Pipeline.unscopedRest spec3 c (V c)) ⊢ (unscopedBufs c V' : sProp 𝕄) := by
  have hz : V' main_v34 = V c main_v34 := hrest main_v34 (by decide) (by decide)
  refine exit3_of V c V' _ (fun w => ?_) (fun b hb => hrest b (fun e => hb ?_) (fun e => hb ?_))
  · match w with
    | ⟨0, _⟩ => exact ((dat3 V c).arrAt_in 0 rfl cfg3.N).trans ((A_eq3 V c 0).trans hz.symm)
    | ⟨1, _⟩ => exact ((dat3 V c).arrAt_in 1 rfl cfg3.N).trans ((A_eq3 V c 1).trans hz.symm)
    | ⟨2, _⟩ => exact h2.symm
    | ⟨3, _⟩ => exact h3.symm
  · exact e ▸ Finset.mem_image.mpr ⟨2, Finset.mem_univ _, rfl⟩
  · exact e ▸ Finset.mem_image.mpr ⟨3, Finset.mem_univ _, rfl⟩

end Cert.Kernel.Hand

end
-- ==== Proof.K.Chain.lean ====
/-
  The host side's irregular steps, named once and never opened: the wrapped source index and the destination
  index of every edge, the sum of the neighbours' feature rows per node, the node degrees clamped below at 1,
  their reciprocals as a column, and the rows of an array gathered at the two endpoints of the labelled edges.
  Both programs apply the same operations here, so the certificate only ever needs these terms to be equal
  as terms.
-/
import proofs.«155684_j2405181685928_2_alg».proof.Proof.Gen.Kernel

noncomputable section

namespace Cert.Kernel.Hand

open Cert.Kernel Cert.Kernel.Gen Idealize.ShloMosaic

variable {F : FTy → Type} [FloatOps F]

/-- Row `w` (0 = sources, 1 = destinations) of the edge list as a vector. -/
def edgeRow0 (ei : IVec S2x524288 32) : IVec S524288 32 :=
  shapeCast S524288 (extractStridedSlice S1x524288 ![0, 0] ei slices_S2x524288_S1x524288_0_0) shapeCasts_S1x524288_S524288
def edgeRow1 (ei : IVec S2x524288 32) : IVec S524288 32 :=
  shapeCast S524288 (extractStridedSlice S1x524288 ![1, 0] ei slices_S2x524288_S1x524288_1_0) shapeCasts_S1x524288_S524288

/-- The source node of each edge, a negative index wrapped by the node count, as an index column. -/
def SrcOf (ei : IVec S2x524288 32) : IVec S524288x1 32 :=
  broadcastInDim S524288x1 ![0] bcast_S524288_S524288x1_0
    (select (cmpi .slt (edgeRow0 ei) (broadcastInDim S524288 ![] bcast_S_S524288 (constantI S_ 32 0#32)))
      (addi (edgeRow0 ei) (broadcastInDim S524288 ![] bcast_S_S524288 (constantI S_ 32 16384#32))) (edgeRow0 ei))

/-- The destination node of each edge, as an index column. -/
def DstOf (ei : IVec S2x524288 32) : IVec S524288x1 32 :=
  broadcastInDim S524288x1 ![0] bcast_S524288_S524288x1_0 (edgeRow1 ei)

/-- Per node, the sum of the feature rows of its in-neighbours. -/
def RawOf (feat : FVec F S16384x128 .f32) (ei : IVec S2x524288 32) : FVec F S16384x128 .f32 :=
  Host.scatterAdd scatter_S16384x128_S524288x1_S524288x128_1_0_0_1
    (broadcastInDim S16384x128 ![] bcast_S_S16384x128 (constant S_ .f32 0x00000000#32)) (DstOf ei)
    (Host.gather gather_S16384x128_S524288x1_S524288x128_1_0_n_n_0_1_1128 feat (SrcOf ei))

/-- Per node, its in-degree clamped below at 1. -/
def DOf (ei : IVec S2x524288 32) : FVec F S16384 .f32 :=
  maximumf
    (Host.scatterAdd scatter_S16384_S524288x1_S524288_n_0_0_1
      (broadcastInDim S16384 ![] bcast_S_S16384 (constant S_ .f32 0x00000000#32)) (DstOf ei)
      (broadcastInDim S524288 ![] bcast_S_S524288 (constant S_ .f32 0x3F800000#32)))
    (broadcastInDim S16384 ![] bcast_S_S16384 (constant S_ .f32 0x3F800000#32))

/-- Per node, 1 over that clamped degree, as a column. -/
def InvOf (ei : IVec S2x524288 32) : FVec F S16384x1 .f32 :=
  broadcastInDim S16384x1 ![0] bcast_S16384_S16384x1_0
    (Host.divf (broadcastInDim S16384 ![] bcast_S_S16384 (constant S_ .f32 0x3F800000#32)) (DOf ei))

/-- Row `w` of the labelled-edge list as a vector. -/
def lblRow0 (eli : IVec S2x131072 32) : IVec S131072 32 :=
  shapeCast S131072 (extractStridedSlice S1x131072 ![0, 0] eli slices_S2x131072_S1x131072_0_0) shapeCasts_S1x131072_S131072
def lblRow1 (eli : IVec S2x131072 32) : IVec S131072 32 :=
  shapeCast S131072 (extractStridedSlice S1x131072 ![1, 0] eli slices_S2x131072_S1x131072_1_0) shapeCasts_S1x131072_S131072

/-- The rows of `z` at the first endpoints of the labelled edges (a negative index wrapped). -/
def Rows0Of (z : FVec F S16384x64 .f32) (eli : IVec S2x131072 32) : FVec F S131072x64 .f32 :=
  Host.gather gather_S16384x64_S131072x1_S131072x64_1_0_n_n_0_1_164 z
    (broadcastInDim S131072x1 ![0] bcast_S131072_S131072x1_0
      (select (cmpi .slt (lblRow0 eli) (broadcastInDim S131072 ![] bcast_S_S131072 (constantI S_ 32 0#32)))
        (addi (lblRow0 eli) (broadcastInDim S131072 ![] bcast_S_S131072 (constantI S_ 32 16384#32))) (lblRow0 eli)))

/-- The rows of `z` at the second endpoints. -/
def Rows1Of (z : FVec F S16384x64 .f32) (eli : IVec S2x131072 32) : FVec F S131072x64 .f32 :=
  Host.gather gather_S16384x64_S131072x1_S131072x64_1_0_n_n_0_1_164 z
    (broadcastInDim S131072x1 ![0] bcast_S131072_S131072x1_0
      (select (cmpi .slt (lblRow1 eli) (broadcastInDim S131072 ![] bcast_S_S131072 (constantI S_ 32 0#32)))
        (addi (lblRow1 eli) (broadcastInDim S131072 ![] bcast_S_S131072 (constantI S_ 32 16384#32))) (lblRow1 eli)))

end Cert.Kernel.Hand

end
-- ==== Proof.K.Walk.lean ====
/-
  Reading the chain of valuations: each result array, at the end, holds what its region left (the mask: the
  comparison with zero of the sign words the last region left), and each region is entered with its operand arrays
  at the host side's named terms of the arguments and of what the earlier regions left.
-/
import proofs.«155684_j2405181685928_2_alg».proof.Proof.K.RunCond
import proofs.«155684_j2405181685928_2_alg».proof.Proof.K.Chain
import Idealize.ShloMosaic.Lib.StableHlo.Run

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-! ## The results, read off the last valuation -/

theorem V8_v23 (c : Dev nD) : V8 m outs c main_v23 = outs 2 main_v23 c :=
  (V8_of m outs c main_v23 (by decide)).trans <| (V7_of m outs c main_v23 (by decide)).trans <| (V6_of m outs c main_v23 (by decide)).trans <|
    (V5_of m outs c main_v23 (by decide)).trans <| (V4_of m outs c main_v23 (by decide)).trans <| (V3_of m outs c main_v23 (by decide)).trans
      (Function.update_self ..)
theorem V8_v34 (c : Dev nD) : V8 m outs c main_v34 = outs 4 main_v34 c :=
  (V8_of m outs c main_v34 (by decide)).trans <| (V7_of m outs c main_v34 (by decide)).trans <| (V6_of m outs c main_v34 (by decide)).trans <|
    (V5_of m outs c main_v34 (by decide)).trans (Function.update_self ..)
theorem V6_v53_0 (c : Dev nD) : V6 m outs c main_v53_0 = outs 6 main_v53_0 c := by
  show Function.update (Function.update (V5 m outs c) main_v53_0 (outs 6 main_v53_0 c)) main_v53_1 (outs 6 main_v53_1 c) main_v53_0 = _
  rw [Function.update_of_ne (StableHlo.devRef_ne_of_ne (by decide) : (Proc.devRef .tc main_v53_0 : DevRef τ sig) ≠ Proc.devRef .tc main_v53_1)]
  exact Function.update_self ..
theorem V6_v53_1 (c : Dev nD) : V6 m outs c main_v53_1 = outs 6 main_v53_1 c := Function.update_self ..
theorem V8_v53_0 (c : Dev nD) : V8 m outs c main_v53_0 = outs 6 main_v53_0 c :=
  (V8_of m outs c main_v53_0 (by decide)).trans <| (V7_of m outs c main_v53_0 (by decide)).trans (V6_v53_0 m outs c)
theorem V8_v53_1 (c : Dev nD) : V8 m outs c main_v53_1 = outs 6 main_v53_1 c :=
  (V8_of m outs c main_v53_1 (by decide)).trans <| (V7_of m outs c main_v53_1 (by decide)).trans (Function.update_self ..)
theorem V7_v54_0 (c : Dev nD) : V7 m outs c main_v54_0 = outs 7 main_v54_0 c := by
  show Function.update (Function.update (V6 m outs c) main_v54_0 (outs 7 main_v54_0 c)) main_v54_1 (outs 7 main_v54_1 c) main_v54_0 = _
  rw [Function.update_of_ne (StableHlo.devRef_ne_of_ne (by decide) : (Proc.devRef .tc main_v54_0 : DevRef τ sig) ≠ Proc.devRef .tc main_v54_1)]
  exact Function.update_self ..
theorem V7_v54_1 (c : Dev nD) : V7 m outs c main_v54_1 = outs 7 main_v54_1 c := Function.update_self ..
theorem V8_v54_0 (c : Dev nD) : V8 m outs c main_v54_0 = outs 7 main_v54_0 c :=
  (V8_of m outs c main_v54_0 (by decide)).trans (V7_v54_0 m outs c)
set_option maxHeartbeats 1000000 in
/-- The mask: where the sign word the last region left is not zero. -/
theorem V8_v57 (c : Dev nD) : V8 m outs c main_v57
    = cmpi .ne (outs 7 main_v54_1 c) (broadcastInDim S16384x16384 ![] bcast_S_S16384x16384 (constantI S_ 32 0#32)) := by
  show StableHlo.after hostOps4 (V7 m outs c) (Proc.devRef .tc main_v57) = _
  after_results
  show cmpi .ne (V7 m outs c (Proc.devRef .tc main_v54_1)) _ = _
  rw [show V7 m outs c (Proc.devRef .tc main_v54_1) = outs 7 main_v54_1 c from V7_v54_1 m outs c]

/-! ## Region 0's operands -/

set_option maxHeartbeats 1000000 in
theorem V1_v22 (c : Dev nD) : V1 m c main_v22 = RawOf (m ((c.tc : Thread nD τ).loc main_arg0)) (m ((c.tc : Thread nD τ).loc main_arg1)) := by
  show StableHlo.after hostOps0 (V0 m c) (Proc.devRef .tc main_v22) = _
  after_results
  rfl
set_option maxHeartbeats 1000000 in
theorem V1_v12 (c : Dev nD) : V1 m c main_v12 = InvOf (m ((c.tc : Thread nD τ).loc main_arg1)) := by
  show StableHlo.after hostOps0 (V0 m c) (Proc.devRef .tc main_v12) = _
  after_results
  rfl
set_option maxHeartbeats 1000000 in
theorem V1_v1 (c : Dev nD) : V1 m c main_v1 = edgeRow0 (m ((c.tc : Thread nD τ).loc main_arg1)) := by
  show StableHlo.after hostOps0 (V0 m c) (Proc.devRef .tc main_v1) = _
  after_results
  rfl
set_option maxHeartbeats 1000000 in
theorem V1_v3 (c : Dev nD) : V1 m c main_v3 = edgeRow1 (m ((c.tc : Thread nD τ).loc main_arg1)) := by
  show StableHlo.after hostOps0 (V0 m c) (Proc.devRef .tc main_v3) = _
  after_results
  rfl
theorem V1_arg (c : Dev nD) (r : Ref sig .tc) (h : r ∉ hostOps0_W) : V1 m c r = m ((c.tc : Thread nD τ).loc r) := V1_of m c r h

/-! ## Region 1's operands -/

theorem V2_v23 (c : Dev nD) : V2 m outs c main_v23 = outs 2 main_v23 c := Function.update_self ..
theorem V3_v23 (c : Dev nD) : V3 m outs c main_v23 = outs 2 main_v23 c :=
  (V3_of m outs c main_v23 (by decide)).trans (V2_v23 m outs c)
theorem V3_v12 (c : Dev nD) : V3 m outs c main_v12 = InvOf (m ((c.tc : Thread nD τ).loc main_arg1)) :=
  (V3_of m outs c main_v12 (by decide)).trans <| (V2_of m outs c main_v12 (by decide)).trans (V1_v12 m c)
theorem V3_arg (c : Dev nD) (r : Ref sig .tc) (h3 : r ∉ hostOps1_W) (h2 : r ∉ ([main_v23] : List (Ref sig .tc))) (h1 : r ∉ hostOps0_W) :
    V3 m outs c r = m ((c.tc : Thread nD τ).loc r) :=
  (V3_of m outs c r h3).trans <| (V2_of m outs c r h2).trans (V1_of m c r h1)
set_option maxHeartbeats 1000000 in
theorem V3_v33 (c : Dev nD) : V3 m outs c main_v33 = RawOf (outs 2 main_v23 c) (m ((c.tc : Thread nD τ).loc main_arg1)) := by
  show StableHlo.after hostOps1 (V2 m outs c) (Proc.devRef .tc main_v33) = _
  after_results
  rw [show V2 m outs c (Proc.devRef .tc main_v23) = outs 2 main_v23 c from V2_v23 m outs c,
    show V2 m outs c (Proc.devRef .tc main_v1) = edgeRow0 (m ((c.tc : Thread nD τ).loc main_arg1)) from (V2_of m outs c main_v1 (by decide)).trans (V1_v1 m c),
    show V2 m outs c (Proc.devRef .tc main_v3) = edgeRow1 (m ((c.tc : Thread nD τ).loc main_arg1)) from (V2_of m outs c main_v3 (by decide)).trans (V1_v3 m c)]
  rfl

/-! ## Region 2's and region 3's operands -/

theorem V4_v34 (c : Dev nD) : V4 m outs c main_v34 = outs 4 main_v34 c := Function.update_self ..
theorem V4_arg2 (c : Dev nD) : V4 m outs c main_arg2 = m ((c.tc : Thread nD τ).loc main_arg2) :=
  (V4_of m outs c main_arg2 (by decide)).trans <| V3_arg m outs c main_arg2 (by decide) (by decide) (by decide)
set_option maxHeartbeats 1000000 in
theorem V5_v45 (c : Dev nD) : V5 m outs c main_v45 = Rows0Of (outs 4 main_v34 c) (m ((c.tc : Thread nD τ).loc main_arg2)) := by
  show StableHlo.after hostOps2 (V4 m outs c) (Proc.devRef .tc main_v45) = _
  after_results
  rw [show V4 m outs c (Proc.devRef .tc main_v34) = outs 4 main_v34 c from V4_v34 m outs c,
    show V4 m outs c (Proc.devRef .tc main_arg2) = m ((c.tc : Thread nD τ).loc main_arg2) from V4_arg2 m outs c]
  rfl
set_option maxHeartbeats 1000000 in
theorem V5_v52 (c : Dev nD) : V5 m outs c main_v52 = Rows1Of (outs 4 main_v34 c) (m ((c.tc : Thread nD τ).loc main_arg2)) := by
  show StableHlo.after hostOps2 (V4 m outs c) (Proc.devRef .tc main_v52) = _
  after_results
  rw [show V4 m outs c (Proc.devRef .tc main_v34) = outs 4 main_v34 c from V4_v34 m outs c,
    show V4 m outs c (Proc.devRef .tc main_arg2) = m ((c.tc : Thread nD τ).loc main_arg2) from V4_arg2 m outs c]
  rfl
theorem V6_v34 (c : Dev nD) : V6 m outs c main_v34 = outs 4 main_v34 c :=
  (V6_of m outs c main_v34 (by decide)).trans <| (V5_of m outs c main_v34 (by decide)).trans (V4_v34 m outs c)

end Cert.Kernel.Hand

end
-- ==== Proof.K.Run.lean ====
/-
  The whole program's run from its four regions: what each region leaves in its result arrays (the proof data's
  array after the last write-back), the proof data of every region at the contents it is entered from, each
  region's record — its arrays taken out of the core's unscoped buffers on entry and put back, the results at
  what the write-backs leave, on exit — and the instantiated run.

  A region is entered from the valuation the items before it produce; the valuations are the generated chain
  (launch contents; after each host stretch; a region's results replaced by what it leaves), read here at the
  contents `left` below. The last region's first two windows stage one and the same array: each holds half of
  the share of that array.
-/
import proofs.«155684_j2405181685928_2_alg».proof.Proof.K.RunCond
import proofs.«155684_j2405181685928_2_alg».proof.Proof.K.Reg0
import proofs.«155684_j2405181685928_2_alg».proof.Proof.K.Reg1
import proofs.«155684_j2405181685928_2_alg».proof.Proof.K.Reg2
import proofs.«155684_j2405181685928_2_alg».proof.Proof.K.Reg3
import proofs.«155684_j2405181685928_2_alg».proof.Proof.K.Reg3Arr
import proofs.«155684_j2405181685928_2_alg».proof.Proof.K.Walk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ)

/-! ## What the regions leave, and the contents each is entered from -/

/-- Region 0 is entered from the launch contents after the first host stretch. -/
abbrev X1 : (c : Dev nD) → (b : Ref sig .tc) → Buf (Elt F) ((c : Thread nD τ).loc b) := fun c b => V1 m c b

/-- The first layer's output array as region 0 leaves it. -/
def o23 (c : Dev nD) : Buf (Elt F) ((c : Thread nD τ).loc main_v23) := (dat0 (X1 m) c).arrAt 6 cfg0.N

/-- The contents left, region 0 only. -/
def leftA : Outs (F := F) := fun _ r c => if h : r = main_v23 then h ▸ o23 m c else m ((c : Thread nD τ).loc r)

abbrev X3 : (c : Dev nD) → (b : Ref sig .tc) → Buf (Elt F) ((c : Thread nD τ).loc b) := fun c b => V3 m (leftA m) c b

/-- The second layer's output array as region 1 leaves it. -/
def o34 (c : Dev nD) : Buf (Elt F) ((c : Thread nD τ).loc main_v34) := (dat1 (X3 m) c).arrAt 6 cfg1.N

def leftB : Outs (F := F) := fun J r c => if h : r = main_v34 then h ▸ o34 m c else leftA m J r c

abbrev X5 : (c : Dev nD) → (b : Ref sig .tc) → Buf (Elt F) ((c : Thread nD τ).loc b) := fun c b => V5 m (leftB m) c b

/-- The edge products and their channel sums as region 2 leaves them. -/
def o53_0 (c : Dev nD) : Buf (Elt F) ((c : Thread nD τ).loc main_v53_0) := (dat2 (X5 m) c).arrAt 2 cfg2.N
def o53_1 (c : Dev nD) : Buf (Elt F) ((c : Thread nD τ).loc main_v53_1) := (dat2 (X5 m) c).arrAt 3 cfg2.N

def leftC : Outs (F := F) := fun J r c =>
  if h : r = main_v53_0 then h ▸ o53_0 m c else if h : r = main_v53_1 then h ▸ o53_1 m c else leftB m J r c

abbrev X6 : (c : Dev nD) → (b : Ref sig .tc) → Buf (Elt F) ((c : Thread nD τ).loc b) := fun c b => V6 m (leftC m) c b

/-- The dense scores and their sign words as region 3 leaves them. -/
def o54_0 (c : Dev nD) : Buf (Elt F) ((c : Thread nD τ).loc main_v54_0) := (dat3 (X6 m) c).arrAt 2 cfg3.N
def o54_1 (c : Dev nD) : Buf (Elt F) ((c : Thread nD τ).loc main_v54_1) := (dat3 (X6 m) c).arrAt 3 cfg3.N

/-- The contents every region leaves. -/
def left : Outs (F := F) := fun J r c =>
  if h : r = main_v54_0 then h ▸ o54_0 m c else if h : r = main_v54_1 then h ▸ o54_1 m c else leftC m J r c

/-! ### `left` at each result array -/

theorem leftA_v23 (J : ℕ) (c : Dev nD) : leftA m J main_v23 c = o23 m c := by unfold leftA; rw [dif_pos rfl]
theorem leftB_v23 (J : ℕ) (c : Dev nD) : leftB m J main_v23 c = o23 m c := by
  unfold leftB; rw [dif_neg (by decide)]; exact leftA_v23 m J c
theorem leftB_v34 (J : ℕ) (c : Dev nD) : leftB m J main_v34 c = o34 m c := by unfold leftB; rw [dif_pos rfl]
theorem leftC_v23 (J : ℕ) (c : Dev nD) : leftC m J main_v23 c = o23 m c := by
  unfold leftC; rw [dif_neg (by decide), dif_neg (by decide)]; exact leftB_v23 m J c
theorem leftC_v34 (J : ℕ) (c : Dev nD) : leftC m J main_v34 c = o34 m c := by
  unfold leftC; rw [dif_neg (by decide), dif_neg (by decide)]; exact leftB_v34 m J c
theorem leftC_v53_0 (J : ℕ) (c : Dev nD) : leftC m J main_v53_0 c = o53_0 m c := by unfold leftC; rw [dif_pos rfl]
theorem leftC_v53_1 (J : ℕ) (c : Dev nD) : leftC m J main_v53_1 c = o53_1 m c := by
  unfold leftC; rw [dif_neg (by decide), dif_pos rfl]
theorem left_v23 (J : ℕ) (c : Dev nD) : left m J main_v23 c = o23 m c := by
  unfold left; rw [dif_neg (by decide), dif_neg (by decide)]; exact leftC_v23 m J c
theorem left_v34 (J : ℕ) (c : Dev nD) : left m J main_v34 c = o34 m c := by
  unfold left; rw [dif_neg (by decide), dif_neg (by decide)]; exact leftC_v34 m J c
theorem left_v53_0 (J : ℕ) (c : Dev nD) : left m J main_v53_0 c = o53_0 m c := by
  unfold left; rw [dif_neg (by decide), dif_neg (by decide)]; exact leftC_v53_0 m J c
theorem left_v53_1 (J : ℕ) (c : Dev nD) : left m J main_v53_1 c = o53_1 m c := by
  unfold left; rw [dif_neg (by decide), dif_neg (by decide)]; exact leftC_v53_1 m J c
theorem left_v54_0 (J : ℕ) (c : Dev nD) : left m J main_v54_0 c = o54_0 m c := by unfold left; rw [dif_pos rfl]
theorem left_v54_1 (J : ℕ) (c : Dev nD) : left m J main_v54_1 c = o54_1 m c := by
  unfold left; rw [dif_neg (by decide), dif_pos rfl]

/-! ### The chain's valuations do not see the later regions' contents -/

theorem V3_left (c : Dev nD) : V3 m (left m) c = V3 m (leftA m) c := by
  show StableHlo.after hostOps1 (Function.update (V1 m c) main_v23 (left m 2 main_v23 c))
    = StableHlo.after hostOps1 (Function.update (V1 m c) main_v23 (leftA m 2 main_v23 c))
  rw [left_v23, leftA_v23]
theorem V5_left (c : Dev nD) : V5 m (left m) c = V5 m (leftB m) c := by
  show StableHlo.after hostOps2 (Function.update (StableHlo.after hostOps1 (Function.update (V1 m c) main_v23 (left m 2 main_v23 c))) main_v34 (left m 4 main_v34 c))
    = StableHlo.after hostOps2 (Function.update (StableHlo.after hostOps1 (Function.update (V1 m c) main_v23 (leftB m 2 main_v23 c))) main_v34 (leftB m 4 main_v34 c))
  rw [left_v23, left_v34, leftB_v23, leftB_v34]
theorem V6_left (c : Dev nD) : V6 m (left m) c = V6 m (leftC m) c := by
  show Function.update (Function.update (StableHlo.after hostOps2 (Function.update (StableHlo.after hostOps1 (Function.update (V1 m c) main_v23 (left m 2 main_v23 c))) main_v34 (left m 4 main_v34 c))) main_v53_0 (left m 6 main_v53_0 c)) main_v53_1 (left m 6 main_v53_1 c)
    = Function.update (Function.update (StableHlo.after hostOps2 (Function.update (StableHlo.after hostOps1 (Function.update (V1 m c) main_v23 (leftC m 2 main_v23 c))) main_v34 (leftC m 4 main_v34 c))) main_v53_0 (leftC m 6 main_v53_0 c)) main_v53_1 (leftC m 6 main_v53_1 c)
  rw [left_v23, left_v34, left_v53_0, left_v53_1, leftC_v23, leftC_v34, leftC_v53_0, leftC_v53_1]

/-! ## The proof data family -/

/-- Every region's proof data, each at the contents the region is entered from. -/
def pdats : (p : Fin 4) → (c : Dev nD) → Dat τ (Elt F) Unit ℕ (UR sig nD τ) ℕ (cfgs p) c
  | ⟨0, _⟩ => fun c => dat0 (X1 m) c
  | ⟨1, _⟩ => fun c => dat1 (X3 m) c
  | ⟨2, _⟩ => fun c => dat2 (X5 m) c
  | ⟨3, _⟩ => fun c => dat3 (X6 m) c

abbrev 𝒱ₙ : Variants := Variants.none
/-- No core waits on another: no level is assigned. -/
abbrev Lₙ : GSem nD τ sig → Finset Unit := fun _ => ∅
abbrev lvₙ : GSem nD τ sig → Unit → ℕ := fun _ _ => 0
/-- Beside the buffers every item carries the core's generator register, at some state, and its dues, none. -/
abbrev Rest (c : Dev nD) : sProp 𝕄 := iprop((∃ r, prngReg c r) ∗ ∃ W, owes (c : Thread nD τ) (0 : CellTallies nD τ sig Unit) W)

/-! ## Region 0 -/

/-- A buffer the region's results are not among is, after the region, as the region found it. -/
theorem kept0 (c : Dev nD) (b : Ref sig .tc) (h : b ∉ ([main_v23] : List (Ref sig .tc))) : V2 m (left m) c b = X1 m c b :=
  (V2_of m (left m) c b h)

/-- At the region's exit each of its arrays holds what the exit valuation says: an operand as entered, a result as
    the write-backs leave it. -/
theorem hF0 (c : Dev nD) (w : Fin cfg0.W) : (dat0 (X1 m) c).arrAt w cfg0.N = V2 m (left m) c (Pipeline.arrRef spec0 w) :=
  match w with
  | ⟨0, _⟩ => ((dat0 (X1 m) c).arrAt_in 0 rfl _).trans ((A_eq0 (X1 m) c 0).trans (kept0 m c _ (by decide)).symm)
  | ⟨1, _⟩ => ((dat0 (X1 m) c).arrAt_in 1 rfl _).trans ((A_eq0 (X1 m) c 1).trans (kept0 m c _ (by decide)).symm)
  | ⟨2, _⟩ => ((dat0 (X1 m) c).arrAt_in 2 rfl _).trans ((A_eq0 (X1 m) c 2).trans (kept0 m c _ (by decide)).symm)
  | ⟨3, _⟩ => ((dat0 (X1 m) c).arrAt_in 3 rfl _).trans ((A_eq0 (X1 m) c 3).trans (kept0 m c _ (by decide)).symm)
  | ⟨4, _⟩ => ((dat0 (X1 m) c).arrAt_in 4 rfl _).trans ((A_eq0 (X1 m) c 4).trans (kept0 m c _ (by decide)).symm)
  | ⟨5, _⟩ => ((dat0 (X1 m) c).arrAt_in 5 rfl _).trans ((A_eq0 (X1 m) c 5).trans (kept0 m c _ (by decide)).symm)
  | ⟨6, _⟩ => by show o23 m c = _; exact ((V2_v23 m (left m) c).trans (left_v23 m 2 c)).symm

theorem hrest0 (c : Dev nD) : ∀ b, b ∉ Finset.univ.image (Pipeline.arrRef spec0) → V2 m (left m) c b = X1 m c b :=
  fun b hb => kept0 m c b (by
    intro hmem
    exact hb (Finset.mem_image.mpr ⟨6, Finset.mem_univ _, (List.mem_singleton.mp hmem).symm⟩))

set_option backward.isDefEq.respectTransparency.types false in
/-- Region 0 over the thread state "every unscoped buffer at the valuation reached, the generator register, no
    dues": its arrays are split out of the unscoped buffers on entry and joined back, the results replaced, on exit;
    the register passes through the body's invariant; the body owes nothing and has no semaphore of its own. -/
def reg0 : RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ Lₙ lvₙ 0 fun _ _ => rfl
  pre c := iprop(StableHlo.held (c : Thread nD τ) (Pipeline.ucRefs τ sig) (V1 m c) ∗ Rest c)
  post c := iprop(StableHlo.held (c : Thread nD τ) (Pipeline.ucRefs τ sig) (V2 m (left m) c) ∗ Rest c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    skip
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (fun b => V2 m (left m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- A buffer the region's results are not among is, after the region, as the region found it. -/
theorem kept1 (c : Dev nD) (b : Ref sig .tc) (h : b ∉ ([main_v34] : List (Ref sig .tc))) : V4 m (left m) c b = X3 m c b :=
  (V4_of m (left m) c b h).trans (congrFun (V3_left m c) (Proc.devRef .tc b))

/-- At the region's exit each of its arrays holds what the exit valuation says: an operand as entered, a result as
    the write-backs leave it. -/
theorem hF1 (c : Dev nD) (w : Fin cfg1.W) : (dat1 (X3 m) c).arrAt w cfg1.N = V4 m (left m) c (Pipeline.arrRef spec1 w) :=
  match w with
  | ⟨0, _⟩ => ((dat1 (X3 m) c).arrAt_in 0 rfl _).trans ((A_eq1 (X3 m) c 0).trans (kept1 m c _ (by decide)).symm)
  | ⟨1, _⟩ => ((dat1 (X3 m) c).arrAt_in 1 rfl _).trans ((A_eq1 (X3 m) c 1).trans (kept1 m c _ (by decide)).symm)
  | ⟨2, _⟩ => ((dat1 (X3 m) c).arrAt_in 2 rfl _).trans ((A_eq1 (X3 m) c 2).trans (kept1 m c _ (by decide)).symm)
  | ⟨3, _⟩ => ((dat1 (X3 m) c).arrAt_in 3 rfl _).trans ((A_eq1 (X3 m) c 3).trans (kept1 m c _ (by decide)).symm)
  | ⟨4, _⟩ => ((dat1 (X3 m) c).arrAt_in 4 rfl _).trans ((A_eq1 (X3 m) c 4).trans (kept1 m c _ (by decide)).symm)
  | ⟨5, _⟩ => ((dat1 (X3 m) c).arrAt_in 5 rfl _).trans ((A_eq1 (X3 m) c 5).trans (kept1 m c _ (by decide)).symm)
  | ⟨6, _⟩ => by show o34 m c = _; exact ((V4_v34 m (left m) c).trans (left_v34 m 4 c)).symm

theorem hrest1 (c : Dev nD) : ∀ b, b ∉ Finset.univ.image (Pipeline.arrRef spec1) → V4 m (left m) c b = X3 m c b :=
  fun b hb => kept1 m c b (by
    intro hmem
    exact hb (Finset.mem_image.mpr ⟨6, Finset.mem_univ _, (List.mem_singleton.mp hmem).symm⟩))

set_option backward.isDefEq.respectTransparency.types false in
/-- Region 1 over the thread state "every unscoped buffer at the valuation reached, the generator register, no
    dues": its arrays are split out of the unscoped buffers on entry and joined back, the results replaced, on exit;
    the register passes through the body's invariant; the body owes nothing and has no semaphore of its own. -/
def reg1 : RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ Lₙ lvₙ 1 fun _ _ => rfl
  pre c := iprop(StableHlo.held (c : Thread nD τ) (Pipeline.ucRefs τ sig) (V3 m (left m) c) ∗ Rest c)
  post c := iprop(StableHlo.held (c : Thread nD τ) (Pipeline.ucRefs τ sig) (V4 m (left m) c) ∗ Rest c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3 m c) fun _ => rfl
    rw [Pipeline.unscopedBufs_held] at hsplit
    rw [V3_left m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (fun b => V4 m (left m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- A buffer the region's results are not among is, after the region, as the region found it. -/
theorem kept2 (c : Dev nD) (b : Ref sig .tc) (h : b ∉ ([main_v53_0, main_v53_1] : List (Ref sig .tc))) : V6 m (left m) c b = X5 m c b :=
  (V6_of m (left m) c b h).trans (congrFun (V5_left m c) (Proc.devRef .tc b))

/-- At the region's exit each of its arrays holds what the exit valuation says: an operand as entered, a result as
    the write-backs leave it. -/
theorem hF2 (c : Dev nD) (w : Fin cfg2.W) : (dat2 (X5 m) c).arrAt w cfg2.N = V6 m (left m) c (Pipeline.arrRef spec2 w) :=
  match w with
  | ⟨0, _⟩ => ((dat2 (X5 m) c).arrAt_in 0 rfl _).trans ((A_eq2 (X5 m) c 0).trans (kept2 m c _ (by decide)).symm)
  | ⟨1, _⟩ => ((dat2 (X5 m) c).arrAt_in 1 rfl _).trans ((A_eq2 (X5 m) c 1).trans (kept2 m c _ (by decide)).symm)
  | ⟨2, _⟩ => by show o53_0 m c = _; exact ((V6_v53_0 m (left m) c).trans (left_v53_0 m 6 c)).symm
  | ⟨3, _⟩ => by show o53_1 m c = _; exact ((V6_v53_1 m (left m) c).trans (left_v53_1 m 6 c)).symm

theorem hrest2 (c : Dev nD) : ∀ b, b ∉ Finset.univ.image (Pipeline.arrRef spec2) → V6 m (left m) c b = X5 m c b :=
  fun b hb => kept2 m c b (by
    intro hmem
    rcases List.mem_cons.mp hmem with h | hmem
    · exact hb (Finset.mem_image.mpr ⟨2, Finset.mem_univ _, h.symm⟩)
    · exact hb (Finset.mem_image.mpr ⟨3, Finset.mem_univ _, (List.mem_singleton.mp hmem).symm⟩))

set_option backward.isDefEq.respectTransparency.types false in
/-- Region 2 over the thread state "every unscoped buffer at the valuation reached, the generator register, no
    dues": its arrays are split out of the unscoped buffers on entry and joined back, the results replaced, on exit;
    the register passes through the body's invariant; the body owes nothing and has no semaphore of its own. -/
def reg2 : RegionSeg (pcfgs (F := F)) adm (pdats m) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (X5 m) c).loose
  hwaits := Pipeline.hwaits_of_owed_zero _ _ _ _ Lₙ lvₙ 2 fun _ _ => rfl
  pre c := iprop(StableHlo.held (c : Thread nD τ) (Pipeline.ucRefs τ sig) (V5 m (left m) c) ∗ Rest c)
  post c := iprop(StableHlo.held (c : Thread nD τ) (Pipeline.ucRefs τ sig) (V6 m (left m) c) ∗ Rest c)
  X c := iprop(∃ r, prngReg c r)
  Y c := iprop(∃ r, prngReg c r)
  Z c := Pipeline.unscopedRest (Ix := Unit) (Name := ℕ) (U := UR sig nD τ) (Lvl := ℕ) spec2 c (X5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X5 m c) fun _ => rfl
    rw [Pipeline.unscopedBufs_held] at hsplit
    rw [V5_left m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X5 m c) (fun b => V6 m (left m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3: two of its windows stage one array -/

theorem kept3 (c : Dev nD) (b : Ref sig .tc) (h : b ∉ ([main_v54_0, main_v54_1] : List (Ref sig .tc))) : V7 m (left m) c b = X6 m c b :=
  (V7_of m (left m) c b h).trans (congrFun (V6_left m c) (Proc.devRef .tc b))

set_option backward.isDefEq.respectTransparency.types false in
/-- Region 3 over the same thread state. The row block and the whole of `z` are two windows on ONE array, each holding
    half of it; the two result arrays are replaced by what the write-backs leave. -/
def reg3 : RegionSeg (pcfgs (F := F)) adm (pdats m) () defs₀ 𝒱ₙ Lₙ lvₙ 3 where
  win := winFacts₀3
  block_pos := block_pos3
  stage_whole := stage_whole3
  K := PEmpty
  osem k := k.elim
  ho := Pipeline.OwnSemFacts.none _
  hbody c := (body_obligation3 (X6 m) c).loose
  hwaits := Pipeline.hwaits_of_owed_zero _ _ _ _ Lₙ lvₙ 3 fun _ _ => rfl
  pre c := iprop(StableHlo.held (c : Thread nD τ) (Pipeline.ucRefs τ sig) (V6 m (left m) c) ∗ Rest c)
  post c := iprop(StableHlo.held (c : Thread nD τ) (Pipeline.ucRefs τ sig) (V7 m (left m) c) ∗ Rest c)
  X c := iprop(∃ r, prngReg c r)
  Y c := iprop(∃ r, prngReg c r)
  Z c := Pipeline.unscopedRest (Ix := Unit) (Name := ℕ) (U := UR sig nD τ) (Lvl := ℕ) spec3 c (X6 m c)
  hentry c := by
    rw [Pipeline.ownSems0_none]
    have hsplit := entry3 (X6 m) c
    rw [Pipeline.unscopedBufs_held] at hsplit
    rw [V6_left m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (X6 m) c (fun b => V7 m (left m) c b)
      (by show V7 m (left m) c main_v54_0 = o54_0 m c; exact (V7_v54_0 m (left m) c).trans (left_v54_0 m 7 c))
      (by show V7 m (left m) c main_v54_1 = o54_1 m c; exact (V7_v54_1 m (left m) c).trans (left_v54_1 m 7 c))
      (fun b h0 h1 => kept3 m c b (by
        intro hmem
        rcases List.mem_cons.mp hmem with h | hmem
        · exact h0 h
        · exact h1 (List.mem_singleton.mp hmem)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program terminates, nothing faulting; each result array ends at what the chain of
    valuations holds for it, each argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v23) = V8 m (left m) c main_v23
      ∧ r.2.mem ((c.tc : Thread nD τ).loc main_v34) = V8 m (left m) c main_v34
      ∧ r.2.mem ((c.tc : Thread nD τ).loc main_v53_0) = V8 m (left m) c main_v53_0
      ∧ r.2.mem ((c.tc : Thread nD τ).loc main_v53_1) = V8 m (left m) c main_v53_1
      ∧ r.2.mem ((c.tc : Thread nD τ).loc main_v54_0) = V8 m (left m) c main_v54_0
      ∧ r.2.mem ((c.tc : Thread nD τ).loc main_v57) = V8 m (left m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m emb₁ () 𝒱ₙ Lₙ lvₙ (fun _ _ => rfl) ρ (left m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rest)
    (Pipeline.initEach Lₙ lvₙ fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.Kernel.Hand

end
-- ==== Proof.KI.RunCond.lean ====
/-
  The program as a chain of host stretches and kernel regions: from one record per region (its body obligation and
  how its arrays are taken out of, and put back among, the core's unscoped buffers) every execution terminates and
  the final memory holds, at each result array, what the chain of valuations says, and at each argument array its
  launch contents.
-/
import proofs.«155684_j2405181685928_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

-- the launch theorem's implicit arguments are found by unifying its conclusion with this one, which takes unfolding
-- plain definitions in a metavariable's type
set_option backward.isDefEq.respectTransparency.types false in
/-- The run of the whole program, given the four regions' records: every weakly fair execution of the entry
    function terminates, the six result arrays end at what the last valuation of the unscoped buffers holds for
    them (the contents the regions leave, then the host operations after them), and the argument arrays end
    as launched. The thread state between two items is "every unscoped buffer of the core at the valuation
    reached so far", beside a rest of the caller's choosing. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c)) :
    θ_run defs (onTc (τ := τ) (main (F := F))) ⟨m, fun _ => 0, ρ⟩ (fun r => ∀ c : Dev nD,
      r.2.mem ((c.tc : Thread nD τ).loc main_v23) = V8 m outs c main_v23
      ∧       r.2.mem ((c.tc : Thread nD τ).loc main_v34) = V8 m outs c main_v34
      ∧       r.2.mem ((c.tc : Thread nD τ).loc main_v53_0) = V8 m outs c main_v53_0
      ∧       r.2.mem ((c.tc : Thread nD τ).loc main_v53_1) = V8 m outs c main_v53_1
      ∧       r.2.mem ((c.tc : Thread nD τ).loc main_v54_0) = V8 m outs c main_v54_0
      ∧       r.2.mem ((c.tc : Thread nD τ).loc main_v57) = V8 m outs c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, hpre1 c, hpost1 c, hpre2 c, (hpost2 c).trans (hpre3 c), hpost3 c, sep_mono .rfl (hE4 c)⟩)
    (hinit := ?_) (QY := fun c s => s.mem ((c.tc : Thread nD τ).loc main_v23) = V8 m outs c main_v23 ∧ s.mem ((c.tc : Thread nD τ).loc main_v34) = V8 m outs c main_v34 ∧ s.mem ((c.tc : Thread nD τ).loc main_v53_0) = V8 m outs c main_v53_0 ∧ s.mem ((c.tc : Thread nD τ).loc main_v53_1) = V8 m outs c main_v53_1 ∧ s.mem ((c.tc : Thread nD τ).loc main_v54_0) = V8 m outs c main_v54_0 ∧ s.mem ((c.tc : Thread nD τ).loc main_v57) = V8 m outs c main_v57 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨h (Proc.devRef .tc main_v23) (Finset.mem_filter.mpr ⟨StableHlo.devRef_mem_tcRefs main_v23, by decide⟩),
        h (Proc.devRef .tc main_v34) (Finset.mem_filter.mpr ⟨StableHlo.devRef_mem_tcRefs main_v34, by decide⟩),
        h (Proc.devRef .tc main_v53_0) (Finset.mem_filter.mpr ⟨StableHlo.devRef_mem_tcRefs main_v53_0, by decide⟩),
        h (Proc.devRef .tc main_v53_1) (Finset.mem_filter.mpr ⟨StableHlo.devRef_mem_tcRefs main_v53_1, by decide⟩),
        h (Proc.devRef .tc main_v54_0) (Finset.mem_filter.mpr ⟨StableHlo.devRef_mem_tcRefs main_v54_0, by decide⟩),
        h (Proc.devRef .tc main_v57) (Finset.mem_filter.mpr ⟨StableHlo.devRef_mem_tcRefs main_v57, by decide⟩),
        (h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        (h (Proc.devRef .tc main_arg7) (Finset.mem_filter.mpr ⟨StableHlo.devRef_mem_tcRefs main_arg7, by decide⟩)).trans (V8_main_arg7 m outs c),
        (h (Proc.devRef .tc main_arg8) (Finset.mem_filter.mpr ⟨StableHlo.devRef_mem_tcRefs main_arg8, by decide⟩)).trans (V8_main_arg8 m outs c)⟩
    · iexact HSI

end Cert.KernelIdeal.Hand

end
-- ==== Proof.KI.Reg0.lean ====
/-
  The body half of the first graph layer's launch (grid of 8 blocks of 2048 node rows).

  At a grid point t the body reads six staged blocks — the aggregated neighbour rows, the node rows, the stored
  reciprocals 1 / d, the two weight matrices and the bias — and overwrites the staged output block, whole, with
      max ((agg ⊙ inv) · Wl + x · Wr + b, 0).
  Nothing else is written, so the output block after the body is a function of the six input blocks alone
  ("out0_6"), and each input block is left as it was.  The three row-blocked inputs move with t; the two weight
  matrices and the bias have a constant index map, are fetched once, and keep holding their (only) block at every
  later point.  This file states these facts for ANY contents V of the arrays at the moment the launch starts,
  and proves the pipeline's body obligation from them.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The blocks the body sees -/

/-- The block of window w at grid point t: the rows (and columns) the window's index map selects at t, read
    from the window's array at its contents V when the launch starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at t at EVERY point t, whether the pipeline copied
    it in at t or not: where it did not, the index map has not moved since the last copy (for the weights and the
    bias: since the first point), and the body never writes an input.  Stated for any proof data with arrays V
    whose body leaves input blocks alone. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl)
      (fun t => by rw [hafter]; unfold Dat.blockOf iblk0; rw [hA]; try rfl) t d).trans
    (by unfold Dat.fetched Dat.blockOf iblk0; rw [hA]; try rfl)

/-! ## The rectangles the body reads and writes: every access is of a whole staged block -/

abbrev r0_rows : Rect S2048x128 := Rect.unit (s := S2048x128) ![0, 0] S2048x128.size inb_S2048x128_S2048x128_0_0
abbrev r0_inv : Rect S2048x1 := Rect.unit (s := S2048x1) ![0, 0] S2048x1.size inb_S2048x1_S2048x1_0_0
abbrev r0_wt : Rect S128x128 := Rect.unit (s := S128x128) ![0, 0] S128x128.size inb_S128x128_S128x128_0_0
abbrev r0_bias : Rect S128 := Rect.unit (s := S128) ![0] S128.size inb_S128_S128_0
abbrev r0_out : Rect S2048x128 := Rect.unit (s := S2048x128) ![0, 0] S2048x128.size inb_S2048x128_S2048x128_0_0

/-! ## The output block after the body -/

/-- The staged output block after the body, from the six input blocks (x0 aggregate, x1 node rows, x2
    reciprocals, x3 and x4 the weights, x5 the bias): its single store, of the layer's value on the whole block.
    The payload takes the blocks in the order the body loads them: aggregate, reciprocals, left weights, node
    rows, right weights, bias. -/
def out0_6 (x0 : Vec F S2048x128 .f32) (x1 : Vec F S2048x128 .f32) (x2 : Vec F S2048x1 .f32)
    (x3 x4 : Vec F S128x128 .f32) (x5 : Vec F S128 .f32) : Vec F S2048x128 .f32 :=
  View.canon [⟨r0_out, k0_pay1 (View.ld x0 r0_rows) (View.ld x2 r0_inv) (View.ld x3 r0_wt) (View.ld x1 r0_rows)
    (View.ld x4 r0_wt) (View.ld x5 r0_bias)⟩]

/-- The single store is of the whole block, so every index of the block lies in it. -/
theorem cover0_6 (p0 : Vec F S2048x128 .f32) (y : S2048x128.Idx) :
    ∃ pc ∈ ([⟨r0_out, p0⟩] : List (View.Piece (Elt F) S2048x128 .f32)), y ∈ pc.1.set :=
  View.cover_of_tiled [⟨r0_out, p0⟩] S2048x128.size (by rfl) y

/-! ## The body, as a triple -/

set_option maxHeartbeats 1000000 in
/-- Run on seven whole staging buffers — the six inputs holding x0 … x5 and the output holding anything — the
    body ends with the inputs unchanged and the output holding out0_6 x0 … x5.  (It also reads the output
    buffer once before the store; the value read is not used.) -/
theorem sound_kernel0 (c : Dev nD) (E : Set ℕ) (i : grid0.Coords)
    (arg1 : Memref sig .tc .vmem S2048x128 .f32) (harg1 : arg1.IsWhole)
    (arg2 : Memref sig .tc .vmem S2048x128 .f32) (harg2 : arg2.IsWhole)
    (arg3 : Memref sig .tc .vmem S2048x1 .f32) (harg3 : arg3.IsWhole)
    (arg4 : Memref sig .tc .vmem S128x128 .f32) (harg4 : arg4.IsWhole)
    (arg5 : Memref sig .tc .vmem S128x128 .f32) (harg5 : arg5.IsWhole)
    (arg6 : Memref sig .tc .vmem S128 .f32) (harg6 : arg6.IsWhole)
    (arg7 : Memref sig .tc .vmem S2048x128 .f32) (harg7 : arg7.IsWhole)
    (x0 : Vec F S2048x128 .f32) (x1 : Vec F S2048x128 .f32) (x2 : Vec F S2048x1 .f32)
    (x3 x4 : Vec F S128x128 .f32) (x5 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_linear_kernel i arg1 harg1 arg2 harg2 arg3 harg3 arg4 harg4 arg5 harg5 arg6 harg6 arg7 harg7) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data of the launch -/

/-- The proof data of this launch on core c.  Arrays: as the launch finds them (V).  After the body at point t:
    each input's staging buffer still holds its block at t, and the output's holds out0_6 of the six input
    blocks.  The invariant is the one of a body that touches nothing but its staging buffers; nothing is owed;
    all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- Its arrays are V's. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by
  dsimp only [dat0]

/-! What the body finds in each input's staging buffer: the window's block at t. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the pipeline hands the body at point t: the invariant, what is owed, and each window's current staging
    buffer at what the proof data says it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it must hand back: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point t: the six input buffers hold the blocks at t, so the body's triple applies with x_w the
    block of window w; the invariant and what is owed are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t)
    (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation for this launch, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  The body half of the second graph layer's launch (grid of 8 blocks of 2048 node rows, 128 → 64 channels).

  At a grid point t the body reads six staged blocks — the aggregated rows of the first layer's result, those
  rows themselves, the stored reciprocals 1 / d, the two 128 × 64 weight matrices and the 64 biases — and overwrites
  the staged output block, whole, with
      (agg ⊙ inv) · Wl + h · Wr + b
  (no activation in this layer).  Nothing else is written, so the output block after the body is a function of the
  six input blocks alone ("out1_6"), and each input block is left as it was.  The three row-blocked inputs move
  with t; the weights and the bias have a constant index map, are fetched once, and keep holding their (only) block
  at every later point.  This file states these facts for ANY contents V of the arrays at the moment the launch
  starts, and proves the pipeline's body obligation from them.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The blocks the body sees -/

/-- The block of window w at grid point t: the rows (and columns) the window's index map selects at t, read
    from the window's array at its contents V when the launch starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block at t at EVERY point t, whether the pipeline copied
    it in at t or not: where it did not, the index map has not moved since the last copy (for the weights and the
    bias: since the first point), and the body never writes an input.  Stated for any proof data with arrays V
    whose body leaves input blocks alone. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
      (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl)
      (fun t => by rw [hafter]; unfold Dat.blockOf iblk1; rw [hA]; try rfl) t d).trans
    (by unfold Dat.fetched Dat.blockOf iblk1; rw [hA]; try rfl)

/-! ## The rectangles the body reads and writes: every access is of a whole staged block -/

abbrev r1_rows : Rect S2048x128 := Rect.unit (s := S2048x128) ![0, 0] S2048x128.size inb_S2048x128_S2048x128_0_0
abbrev r1_inv : Rect S2048x1 := Rect.unit (s := S2048x1) ![0, 0] S2048x1.size inb_S2048x1_S2048x1_0_0
abbrev r1_wt : Rect S128x64 := Rect.unit (s := S128x64) ![0, 0] S128x64.size inb_S128x64_S128x64_0_0
abbrev r1_bias : Rect S64 := Rect.unit (s := S64) ![0] S64.size inb_S64_S64_0
abbrev r1_out : Rect S2048x64 := Rect.unit (s := S2048x64) ![0, 0] S2048x64.size inb_S2048x64_S2048x64_0_0

/-! ## The output block after the body -/

/-- The staged output block after the body, from the six input blocks (x0 aggregate, x1 the first layer's rows,
    x2 reciprocals, x3 and x4 the weights, x5 the bias): its single store, of the layer's value on the whole block.
    The payload takes the blocks in the order the body loads them: aggregate, reciprocals, left weights, node
    rows, right weights, bias. -/
def out1_6 (x0 : Vec F S2048x128 .f32) (x1 : Vec F S2048x128 .f32) (x2 : Vec F S2048x1 .f32)
    (x3 x4 : Vec F S128x64 .f32) (x5 : Vec F S64 .f32) : Vec F S2048x64 .f32 :=
  View.canon [⟨r1_out, k1_pay1 (View.ld x0 r1_rows) (View.ld x2 r1_inv) (View.ld x3 r1_wt) (View.ld x1 r1_rows)
    (View.ld x4 r1_wt) (View.ld x5 r1_bias)⟩]

/-- The single store is of the whole block, so every index of the block lies in it. -/
theorem cover1_6 (p0 : Vec F S2048x64 .f32) (y : S2048x64.Idx) :
    ∃ pc ∈ ([⟨r1_out, p0⟩] : List (View.Piece (Elt F) S2048x64 .f32)), y ∈ pc.1.set :=
  View.cover_of_tiled [⟨r1_out, p0⟩] S2048x64.size (by rfl) y

/-! ## The body, as a triple -/

set_option maxHeartbeats 1000000 in
/-- Run on seven whole staging buffers — the six inputs holding x0 … x5 and the output holding anything — the
    body ends with the inputs unchanged and the output holding out1_6 x0 … x5.  (It also reads the output
    buffer once before the store; the value read is not used.) -/
theorem sound_kernel1 (c : Dev nD) (E : Set ℕ) (i : grid1.Coords)
    (arg1 : Memref sig .tc .vmem S2048x128 .f32) (harg1 : arg1.IsWhole)
    (arg2 : Memref sig .tc .vmem S2048x128 .f32) (harg2 : arg2.IsWhole)
    (arg3 : Memref sig .tc .vmem S2048x1 .f32) (harg3 : arg3.IsWhole)
    (arg4 : Memref sig .tc .vmem S128x64 .f32) (harg4 : arg4.IsWhole)
    (arg5 : Memref sig .tc .vmem S128x64 .f32) (harg5 : arg5.IsWhole)
    (arg6 : Memref sig .tc .vmem S64 .f32) (harg6 : arg6.IsWhole)
    (arg7 : Memref sig .tc .vmem S2048x64 .f32) (harg7 : arg7.IsWhole)
    (x0 : Vec F S2048x128 .f32) (x1 : Vec F S2048x128 .f32) (x2 : Vec F S2048x1 .f32)
    (x3 x4 : Vec F S128x64 .f32) (x5 : Vec F S64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_linear_kernel i arg1 harg1 arg2 harg2 arg3 harg3 arg4 harg4 arg5 harg5 arg6 harg6 arg7 harg7) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data of the launch -/

/-- The proof data of this launch on core c.  Arrays: as the launch finds them (V).  After the body at point t:
    each input's staging buffer still holds its block at t, and the output's holds out1_6 of the six input
    blocks.  The invariant is the one of a body that touches nothing but its staging buffers; nothing is owed;
    all shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- Its arrays are V's. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

/-! What the body finds in each input's staging buffer: the window's block at t. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the pipeline hands the body at point t: the invariant, what is owed, and each window's current staging
    buffer at what the proof data says it holds before the body; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it must hand back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point t: the six input buffers hold the blocks at t, so the body's triple applies with x_w the
    block of window w; the invariant and what is owed are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t)
    (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation for this launch, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
/-
  The edge scores.  For each of the 131072 edges e the program has gathered the two end rows z0[e,·], z1[e,·]
  (64 channels each); the call `cc2__decode_kernel` walks the edges in 32 consecutive blocks of 4096 and, on a
  block, writes
      mul[e,k] = z0[e,k] · z1[e,k]          (window 2)
      sum[e]   = Σ_k mul[e,k]                (window 3).
  This file says what one visit of the body does to the four staging buffers and packages it as the pipeline's
  proof data.  The point of the statement: both stores overwrite their buffer entirely, so what an output
  buffer holds after a visit is a function of the two input blocks of that visit only — nothing of an earlier
  visit survives, and the value does not depend on which of the two alternating buffers is current.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with a side of several thousand recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the edge-score call begins
variable (V : (c : Dev nD) → (b : Ref sig .tc) → Buf (Elt F) ((c : Thread nD τ).loc b))

/-! ## The blocks a visit reads -/

/-- Rows 4096·t … 4096·t+4095 of window `w`'s array (for the 1-dimensional window 3: entries), as the array stands
    when the call begins. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The two stores -/

/-- All of a 4096×64 buffer, as a rectangle at the origin. -/
abbrev all4096x64 : Rect S4096x64 := Rect.unit (s := S4096x64) ![0, 0] S4096x64.size inb_S4096x64_S4096x64_0_0
/-- All of a length-4096 buffer. -/
abbrev all4096 : Rect S4096 := Rect.unit (s := S4096) ![0] S4096.size inb_S4096_S4096_0

/-- The products' buffer after a visit that read `x0`, `x1`: the single store of z0 · z1 over all of it. -/
def out2_2 (x0 x1 : Vec F S4096x64 .f32) : Vec F S4096x64 .f32 :=
  View.canon [⟨all4096x64, k2_pay1 (View.ld x0 all4096x64) (View.ld x1 all4096x64)⟩]

/-- The sums' buffer after the same visit: the single store of Σ_k z0 · z1 over all of it. -/
def out2_3 (x0 x1 : Vec F S4096x64 .f32) : Vec F S4096 .f32 :=
  View.canon [⟨all4096, k2_pay2 (View.ld x0 all4096x64) (View.ld x1 all4096x64)⟩]

/-- Every entry of the products' buffer lies in the stored rectangle (it is the whole buffer). -/
theorem store_mul_covers (p : Vec F S4096x64 .f32) (y : S4096x64.Idx) :
    ∃ pc ∈ ([⟨all4096x64, p⟩] : List (View.Piece (Elt F) S4096x64 .f32)), y ∈ pc.1.set :=
  View.cover_of_tiled [⟨all4096x64, p⟩] S4096x64.size (by rfl) y

/-- Every entry of the sums' buffer lies in the stored rectangle. -/
theorem store_sum_covers (p : Vec F S4096 .f32) (y : S4096.Idx) :
    ∃ pc ∈ ([⟨all4096, p⟩] : List (View.Piece (Elt F) S4096 .f32)), y ∈ pc.1.set :=
  View.cover_of_tiled [⟨all4096, p⟩] S4096.size (by rfl) y

/-! ## One visit, on any four buffers -/

set_option maxHeartbeats 400000 in
/-- Run the body on four whole buffers: `a0`, `a1` reading `x0`, `x1`, and `b0`, `b1` holding anything.  It
    loads `x0` and `x1`, loads `b0` (a value it never uses), stores the products over `b0`, loads `b1` (unused
    again) and stores the sums over `b1`.  So it ends with `a0`, `a1` untouched, `b0` reading `out2_2 x0 x1` and `b1`
    reading `out2_3 x0 x1`; whatever continuation `K` can start from that, the body reaches. -/
theorem decode_visit (c : Dev nD) (E : Set ℕ) (i : grid2.Coords)
    (a0 : Memref sig .tc .vmem S4096x64 .f32) (ha0 : a0.IsWhole) (a1 : Memref sig .tc .vmem S4096x64 .f32) (ha1 : a1.IsWhole)
    (b0 : Memref sig .tc .vmem S4096x64 .f32) (hb0 : b0.IsWhole) (b1 : Memref sig .tc .vmem S4096 .f32) (hb1 : b1.IsWhole)
    (x0 x1 : Vec F S4096x64 .f32) (K : PUnit → sProp 𝕄) :
    iprop(owns (c : Thread nD τ) a0 fullShare x0 ∗ owns (c : Thread nD τ) a1 fullShare x1
        ∗ (∃ y, owns (c : Thread nD τ) b0 fullShare y) ∗ (∃ y, owns (c : Thread nD τ) b1 fullShare y)
        ∗ (iprop(owns (c : Thread nD τ) a0 fullShare x0 ∗ owns (c : Thread nD τ) a1 fullShare x1
            ∗ owns (c : Thread nD τ) b0 fullShare (out2_2 x0 x1) ∗ owns (c : Thread nD τ) b1 fullShare (out2_3 x0 x1)) -∗ K ⟨⟩))
      ⊢ wp frame (wpE (defs₀ (F := F)) Variants.none c none) E (cc2__decode_kernel i a0 ha0 a1 ha1 b0 hb0 b1 hb1) K := by
  -- the printed body is its sequence of four loads and two stores over the named payloads
  simp only [cc2__decode_kernel_eq_skeleton]; unfold cc2__decode_kernel_skel
  -- a buffer "reads x" when its raw contents f satisfy read f = x: name the raw contents
  unfold owns
  iintro ⟨⟨%f0, %e0, Ha0⟩, ⟨%f1, %e1, Ha1⟩, ⟨%y0, %g0, -, Hb0⟩, ⟨%y1, %g1, -, Hb1⟩, HK⟩
  subst e0; subst e1
  -- the loads and stores, one after the other, then the return
  sl_exec
  sl_step
  iapply HK
  -- the inputs' raw contents never changed
  isplitl [Ha0]
  · iexists f0; isplitr
    · ipureintro; rfl
    · iexact Ha0
  isplitl [Ha1]
  · iexists f1; isplitr
    · ipureintro; rfl
    · iexact Ha1
  -- each output's raw contents are the old ones with one covering store written in: they read the stored value
  -- (the raw contents are fixed by the buffer we hold, so that half goes first)
  isplitl [Hb0]
  · iexists _; isplitr
    swap
    · iexact Hb0
    · ipureintro; exact View.read_writes_eq_canon _ _ _ (store_mul_covers _)
  · iexists _; isplitr
    swap
    · iexact Hb1
    · ipureintro; exact View.read_writes_eq_canon _ _ _ (store_sum_covers _)

/-! ## The call's proof data -/

/-- For the pipeline rule: the four arrays as the call finds them; after visit `t` the input buffers still at
    their blocks, the products' buffer at z0-block · z1-block and the sums' buffer at its channel sums; no other
    state is involved (the rule's own invariant), the core owes no DMA, and every array is held outright. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- When visit `t` starts, the z0 buffer holds block `t` of z0.  The block index is `t` itself, so the pipeline
    copies the block in before every visit; the window is an input, never idle, and 4096 divides 131072 so no
    block is cut short. -/
theorem z0_ready (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0]; unfold Dat.blockOf iblk2; rw [A_eq2]; try rfl
  rw [(dat2 V c).before_in_eq_fetched 0 rfl (fun _ => rfl) (fun _ _ _ => rfl) keep t d]
  unfold Dat.fetched Dat.blockOf iblk2; rw [A_eq2]; try rfl

/-- Likewise the z1 buffer holds block `t` of z1. -/
theorem z1_ready (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1]; unfold Dat.blockOf iblk2; rw [A_eq2]; try rfl
  rw [(dat2 V c).before_in_eq_fetched 1 rfl (fun _ => rfl) (fun _ _ _ => rfl) keep t d]
  unfold Dat.fetched Dat.blockOf iblk2; rw [A_eq2]; try rfl

/-! ## The body obligation -/

/-- Visit `t` as the pipeline runs it, on the four current staging buffers: the rule's invariant and the core's
    (empty) debt are not touched, the inputs hold their blocks (`z0_ready`, `z1_ready`), the outputs hold whatever
    the previous use of that buffer left; `decode_visit` does the rest. -/
theorem visit2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t))) := by
  unfold bodyAt2
  simp only [z0_ready, z1_ready]
  -- the invariant and the debt do not depend on the point
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Howe, ⟨%d0, Hz0⟩, ⟨%d1, Hz1⟩, Hmul, Hsum⟩
  iapply (decode_visit c Set.univ _ _ _ _ _ _ _ _ _ (iblk2 V c 0 t) (iblk2 V c 1 t) _)
  isplitl [Hz0]; · iexact Hz0
  isplitl [Hz1]; · iexact Hz1
  isplitl [Hmul]
  · icases Hmul with ⟨%d2, Hmul⟩; iexists _; iexact Hmul
  isplitl [Hsum]
  · icases Hsum with ⟨%d3, Hsum⟩; iexists _; iexact Hsum
  iintro ⟨Hz0, Hz1, Hmul, Hsum⟩
  isplitl [HΦ]; · iexact HΦ
  isplitl [Howe]; · iexact Howe
  isplitl [Hz0]; · iexact Hz0
  isplitl [Hz1]; · iexact Hz1
  isplitl [Hmul]; · iexact Hmul
  iexact Hsum

/-- What the pipeline rule asks of the body, at every visit. -/
theorem body_obligation2 (c : Dev nD) : BodyObligation (dat2 (F := F) V c) (defs₀ (F := F)) Variants.none () Set.univ := fun t => by
  rw [bigSep_W2, bigSep_W2]
  exact visit2 V c t

end Cert.KernelIdeal.Hand

end
-- ==== Proof.KI.Reg3.lean ====
/-
  The dense scores.  z is the 16384×64 matrix of node embeddings; the call `cc3__zzt_kernel` walks a 16×16 grid
  of points (i, j) and at (i, j) computes, for the 1024 rows r of row block i and the 1024 rows s of row block j,
      prob[r,s] = Σ_k z[r,k] · z[s,k]            (window 2, a 1024×1024 tile of the 16384×16384 result)
      mask[r,s] = 1 if prob[r,s] > 0 else 0       (window 3, the same tile as 32-bit integers).
  It reads z twice: window 0 stages row block i (copied in when j = 0 and kept while j runs), window 1 stages ALL
  of z once, at the first point, and the body cuts rows 1024·j … 1024·j+1023 out of that copy itself.

  Two things differ from a plain call.  (1) What the body stores depends on the point, through the offset 1024·j
  of the slice, so the functions giving an output buffer's contents take the grid coordinates.  (2) Windows 0 and 1
  read one and the same array.  Neither writes it, so each can hold it at half the full share: window 0 the left
  half, window 1 the right half.  The last section splits the array's full share into those halves when the call
  begins and joins them again when it ends.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with a side of several thousand recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the dense-score call begins
variable (V : (c : Dev nD) → (b : Ref sig .tc) → Buf (Elt F) ((c : Thread nD τ).loc b))

/-! ## The blocks a visit reads -/

/-- Window `w`'s block at point `t` of its array as the call finds it: for window 0 rows 1024·i … of z, for
    window 1 all of z. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The accesses -/

/-- All of a 1024×64 buffer. -/
abbrev all1024x64 : Rect S1024x64 := Rect.unit (s := S1024x64) ![0, 0] S1024x64.size inb_S1024x64_S1024x64_0_0
/-- All of a 1024×1024 buffer. -/
abbrev all1024x1024 : Rect S1024x1024 := Rect.unit (s := S1024x1024) ![0, 0] S1024x1024.size inb_S1024x1024_S1024x1024_0_0
/-- Rows 1024·j … 1024·j+1023 of the staged copy of z, at the point with coordinates `i = (i, j)`. -/
abbrev colRows (i : grid3.Coords) : Rect S16384x64 := Rect.unit (s := S16384x64) (k3_off1 i) S1024x64.size (k3_off1_inb i)

/-- The scores' buffer after the visit at coordinates `i` that found row block `x0` and the copy `x1` of z: the
    single store of (row block) · (rows 1024·j … of z)ᵀ over all of it. -/
def out3_2 (i : grid3.Coords) (x0 : Vec F S1024x64 .f32) (x1 : Vec F S16384x64 .f32) : Vec F S1024x1024 .f32 :=
  View.canon [⟨all1024x1024, k3_pay1 (View.ld x1 (colRows i)) (View.ld x0 all1024x64)⟩]

/-- The mask's buffer after the same visit: the single store of the scores' signs, as 0/1 words. -/
def out3_3 (i : grid3.Coords) (x0 : Vec F S1024x64 .f32) (x1 : Vec F S16384x64 .f32) : Vec F S1024x1024 .i32 :=
  View.canon [⟨all1024x1024, k3_pay2 (View.ld x1 (colRows i)) (View.ld x0 all1024x64)⟩]

/-- Every entry of a 1024×1024 buffer lies in the stored rectangle (it is the whole buffer), whatever the element type. -/
theorem store_tile_covers {e : EltTy} (p : all1024x1024.shape.Idx → Elt F e) (y : S1024x1024.Idx) :
    ∃ pc ∈ ([⟨all1024x1024, p⟩] : List (View.Piece (Elt F) S1024x1024 e)), y ∈ pc.1.set :=
  View.cover_of_tiled [⟨all1024x1024, p⟩] S1024x1024.size (by rfl) y

/-! ## One visit, on any four buffers -/

set_option maxHeartbeats 400000 in
/-- Run the body at coordinates `i` on four whole buffers: `a0` reading the row block `x0`, `a1` reading the copy
    `x1` of z, and `b0`, `b1` holding anything.  It loads the slice `colRows i` of `a1`, loads `a0`, loads `b0`
    (unused) and stores the scores over it, loads `b1` (unused) and stores the mask over it.  The inputs are left
    alone; `b0` ends reading `out3_2 i x0 x1` and `b1` reading `out3_3 i x0 x1`. -/
theorem zzt_visit (c : Dev nD) (E : Set ℕ) (i : grid3.Coords)
    (a0 : Memref sig .tc .vmem S1024x64 .f32) (ha0 : a0.IsWhole) (a1 : Memref sig .tc .vmem S16384x64 .f32) (ha1 : a1.IsWhole)
    (b0 : Memref sig .tc .vmem S1024x1024 .f32) (hb0 : b0.IsWhole) (b1 : Memref sig .tc .vmem S1024x1024 .i32) (hb1 : b1.IsWhole)
    (x0 : Vec F S1024x64 .f32) (x1 : Vec F S16384x64 .f32) (K : PUnit → sProp 𝕄) :
    iprop(owns (c : Thread nD τ) a0 fullShare x0 ∗ owns (c : Thread nD τ) a1 fullShare x1
        ∗ (∃ y, owns (c : Thread nD τ) b0 fullShare y) ∗ (∃ y, owns (c : Thread nD τ) b1 fullShare y)
        ∗ (iprop(owns (c : Thread nD τ) a0 fullShare x0 ∗ owns (c : Thread nD τ) a1 fullShare x1
            ∗ owns (c : Thread nD τ) b0 fullShare (out3_2 i x0 x1) ∗ owns (c : Thread nD τ) b1 fullShare (out3_3 i x0 x1)) -∗ K ⟨⟩))
      ⊢ wp frame (wpE (defs₀ (F := F)) Variants.none c none) E (cc3__zzt_kernel i a0 ha0 a1 ha1 b0 hb0 b1 hb1) K := by
  -- the printed body is its sequence of loads and stores over the named payloads
  simp only [cc3__zzt_kernel_eq_skeleton]; unfold cc3__zzt_kernel_skel
  -- name the buffers' raw contents
  unfold owns
  iintro ⟨⟨%f0, %e0, Ha0⟩, ⟨%f1, %e1, Ha1⟩, ⟨%y0, %g0, -, Hb0⟩, ⟨%y1, %g1, -, Hb1⟩, HK⟩
  subst e0; subst e1
  sl_exec
  sl_step
  iapply HK
  isplitl [Ha0]
  · iexists f0; isplitr
    · ipureintro; rfl
    · iexact Ha0
  isplitl [Ha1]
  · iexists f1; isplitr
    · ipureintro; rfl
    · iexact Ha1
  -- an output's raw contents are the old ones with one covering store written in
  -- (the raw contents are fixed by the buffer we hold, so that half goes first)
  isplitl [Hb0]
  · iexists _; isplitr
    swap
    · iexact Hb0
    · ipureintro; exact View.read_writes_eq_canon _ _ _ (store_tile_covers _)
  · iexists _; isplitr
    swap
    · iexact Hb1
    · ipureintro; exact View.read_writes_eq_canon _ _ _ (store_tile_covers _)

/-! ## The call's proof data -/

/-- For the pipeline rule: the arrays as the call finds them; after visit `t` the two input buffers still at
    their blocks, the scores' buffer and the mask's at `out3_2`, `out3_3` of those blocks at `t`'s coordinates; the
    rule's own invariant; no DMA owed.  The array z is held twice, by window 0 at the left half of the full share
    and by window 1 at the right half; the two result arrays outright. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (grid3.coords t) (iblk3 V c 0 t) (iblk3 V c 1 t)
    | ⟨3, _⟩ => out3_3 (grid3.coords t) (iblk3 V c 0 t) (iblk3 V c 1 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (grid3.coords t) (iblk3 V c 0 t) (iblk3 V c 1 t) := by dsimp only [dat3]
theorem after3_3 (c : Dev nD) (t : Fin cfg3.N) :
    (dat3 V c).after 3 t = out3_3 (grid3.coords t) (iblk3 V c 0 t) (iblk3 V c 1 t) := by dsimp only [dat3]

/-- When the visit at `t = (i, j)` starts, window 0's buffer holds row block i of z.  It was copied in at (i, 0);
    for j > 0 the block index (i, 0) has not moved and the body left the buffer as it found it, so it is still
    there.  1024 divides 16384: no block is cut short. -/
theorem rowblock_ready (c : Dev nD) (t : Fin cfg3.N) (d) : (dat3 V c).before 0 t d = iblk3 V c 0 t := by
  have keep : ∀ s, (cfg3.win 0).cut (cfg3.grid.coords s) ((dat3 V c).after 0 s) = (dat3 V c).blockOf 0 s := fun s => by
    rw [after3_0]; unfold Dat.blockOf iblk3; rw [A_eq3]; try rfl
  rw [(dat3 V c).before_in_eq_fetched 0 rfl (fun _ => rfl) (fun _ _ _ => rfl) keep t d]
  unfold Dat.fetched Dat.blockOf iblk3; rw [A_eq3]; try rfl

/-- Window 1's buffer holds all of z at every visit: copied in once at the first point, its block index is constant
    and the body never writes it. -/
theorem zcopy_ready (c : Dev nD) (t : Fin cfg3.N) (d) : (dat3 V c).before 1 t d = iblk3 V c 1 t := by
  have keep : ∀ s, (cfg3.win 1).cut (cfg3.grid.coords s) ((dat3 V c).after 1 s) = (dat3 V c).blockOf 1 s := fun s => by
    rw [after3_1]; unfold Dat.blockOf iblk3; rw [A_eq3]; try rfl
  rw [(dat3 V c).before_in_eq_fetched 1 rfl (fun _ => rfl) (fun _ _ _ => rfl) keep t d]
  unfold Dat.fetched Dat.blockOf iblk3; rw [A_eq3]; try rfl

/-! ## The body obligation -/

/-- The visit at `t` as the pipeline runs it, on the four current staging buffers.  The staging buffers are the
    core's own and held outright — the half shares concern the array z in main memory, which the body never
    touches. -/
theorem visit3 (c : Dev nD) (t : Fin cfg3.N) :
    iprop((dat3 V c).Φ t.castSucc ∗ (dat3 V c).owesAt () t.castSucc
        ∗ (∃ d, owns (c : Thread nD τ) (st3_0 t) fullShare ((dat3 V c).before 0 t d))
        ∗ (∃ d, owns (c : Thread nD τ) (st3_1 t) fullShare ((dat3 V c).before 1 t d))
        ∗ (∃ d, owns (c : Thread nD τ) (st3_2 t) fullShare ((dat3 V c).before 2 t d))
        ∗ (∃ d, owns (c : Thread nD τ) (st3_3 t) fullShare ((dat3 V c).before 3 t d)))
      ⊢ wp frame (wpE (defs₀ (F := F)) Variants.none c none) Set.univ (bodyAt3 t) (fun _ =>
          iprop((dat3 V c).Φ t.succ ∗ (dat3 V c).owesAt () t.succ
            ∗ owns (c : Thread nD τ) (st3_0 t) fullShare ((dat3 V c).after 0 t)
            ∗ owns (c : Thread nD τ) (st3_1 t) fullShare ((dat3 V c).after 1 t)
            ∗ owns (c : Thread nD τ) (st3_2 t) fullShare ((dat3 V c).after 2 t)
            ∗ owns (c : Thread nD τ) (st3_3 t) fullShare ((dat3 V c).after 3 t))) := by
  unfold bodyAt3
  simp only [rowblock_ready, zcopy_ready]
  -- the invariant and the debt do not depend on the point
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Howe, ⟨%d0, Hzr⟩, ⟨%d1, Hz⟩, Hprob, Hmask⟩
  iapply (zzt_visit c Set.univ _ _ _ _ _ _ _ _ _ (iblk3 V c 0 t) (iblk3 V c 1 t) _)
  isplitl [Hzr]; · iexact Hzr
  isplitl [Hz]; · iexact Hz
  isplitl [Hprob]
  · icases Hprob with ⟨%d2, Hprob⟩; iexists _; iexact Hprob
  isplitl [Hmask]
  · icases Hmask with ⟨%d3, Hmask⟩; iexists _; iexact Hmask
  iintro ⟨Hzr, Hz, Hprob, Hmask⟩
  isplitl [HΦ]; · iexact HΦ
  isplitl [Howe]; · iexact Howe
  isplitl [Hzr]; · iexact Hzr
  isplitl [Hz]; · iexact Hz
  isplitl [Hprob]; · iexact Hprob
  iexact Hmask

/-- What the pipeline rule asks of the body, at every visit. -/
theorem body_obligation3 (c : Dev nD) : BodyObligation (dat3 (F := F) V c) (defs₀ (F := F)) Variants.none () Set.univ := fun t => by
  rw [bigSep_W3, bigSep_W3]
  exact visit3 V c t

end Cert.KernelIdeal.Hand

end
-- ==== Proof.KI.Reg3Arr.lean ====
/-
  The dense-score call reads the embedding matrix z through two windows.  The core enters the call holding every
  array outright; this file deals z's full share out to the two windows — the left half to the row-block window,
  the right half to the whole-matrix window — and collects the halves again when the call is over.  Neither window
  writes z, so both halves come back at the contents they went out with, and joining them restores the full share.
-/
import proofs.«155684_j2405181685928_2_alg».proof.Proof.KI.Reg3
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a point lies in a rectangle with a side of several thousand recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the dense-score call begins
variable (V : (c : Dev nD) → (b : Ref sig .tc) → Buf (Elt F) ((c : Thread nD τ).loc b))

/-! ## The arrays behind the windows -/

/-- The four windows stand on three arrays: z (windows 0 and 1), the scores, the mask. -/
theorem call3_arrays : Finset.univ.image (Pipeline.arrRef spec3) = ([main_v34, main_v54_0, main_v54_1] : List (Ref sig .tc)).toFinset := by decide

/-- Those three buffers, each held whole and outright at contents `W`, one by one. -/
theorem arrBufs3_eq (c : Dev nD) (W : (b : Ref sig .tc) → Buf (Elt F) ((c : Thread nD τ).loc b)) :
    (Pipeline.arrBufs spec3 c W : sProp 𝕄)
      = iprop((((c : Thread nD τ).loc main_v34) ↦{fullShare} W main_v34) ∗ (((c : Thread nD τ).loc main_v54_0) ↦{fullShare} W main_v54_0)
          ∗ (((c : Thread nD τ).loc main_v54_1) ↦{fullShare} W main_v54_1)) :=
  bigSep_eq_bigSepL_of_eq [main_v34, main_v54_0, main_v54_1] call3_arrays (by decide) _

/-- A core's unscoped buffers are those three and the rest. -/
theorem split3 (c : Dev nD) (W : (b : Ref sig .tc) → Buf (Elt F) ((c : Thread nD τ).loc b)) :
    (unscopedBufs c W : sProp 𝕄) = iprop(Pipeline.arrBufs spec3 c W ∗ Pipeline.unscopedRest spec3 c W) :=
  Pipeline.unscopedBufs_split₀ cfgs 3 winFacts₀3.arr_unscoped c W

/-- The share each window holds its array at: the inputs their halves, the outputs everything. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl
theorem share3_3 (c : Dev nD) : (dat3 V c).share 3 = fullShare := rfl

/-- The call's arrays at contents `G`, window by window: z twice, at the two halves; the results outright.  Every
    window's array is a whole buffer, and windows 0 and 1 name the same one. -/
theorem arrays3_eq (c : Dev nD) (G : (w : Fin cfg3.W) → Buf (Elt F) ((cfg3.win w).arr.view.loc (c.tc : Thread nD τ))) :
    (dat3 V c).arrays G
      = iprop((((cfg3.win 0).arr.view.loc (c.tc : Thread nD τ)) ↦{fullShare.left} G 0) ∗ (((cfg3.win 1).arr.view.loc (c.tc : Thread nD τ)) ↦{fullShare.right} G 1)
          ∗ (((cfg3.win 2).arr.view.loc (c.tc : Thread nD τ)) ↦{fullShare} G 2) ∗ (((cfg3.win 3).arr.view.loc (c.tc : Thread nD τ)) ↦{fullShare} G 3)) := by
  unfold Dat.arrays
  rw [bigSep_W3, (arr_whole3 0).set_eq_univ, (arr_whole3 2).set_eq_univ, (arr_whole3 3).set_eq_univ,
    share3_0, share3_1, share3_2, share3_3]

/-! ## Entering the call: z's full share dealt to its two readers -/

set_option maxHeartbeats 400000 in
/-- From the three buffers held outright at `V` to the call's arrays at their entry contents: the scores' and the
    mask's buffers go to their windows as they are; z's full share is cut into its left and right halves. -/
theorem hsplit3 (c : Dev nD) : (Pipeline.arrBufs spec3 c (V c) : sProp 𝕄) ⊢ (dat3 V c).arrays ((dat3 V c).arrAt · 0) := by
  rw [arrBufs3_eq, arrays3_eq]
  iintro ⟨Hz, Hp, Hm⟩
  ihave Hz := (pointsTo_share (PosShare.mem_left_op_right fullShare)).1 $$ Hz
  icases Hz with ⟨HzL, HzR⟩
  isplitl [HzL]; · iexact HzL
  isplitl [HzR]; · iexact HzR
  isplitl [Hp]; · iexact Hp
  iexact Hm

/-- The same beside the buffers the call does not touch. -/
theorem entry3 (c : Dev nD) :
    (unscopedBufs c (V c) : sProp 𝕄) ⊢ iprop((dat3 V c).arrays ((dat3 V c).arrAt · 0) ∗ Pipeline.unscopedRest spec3 c (V c)) := by
  rw [split3]
  exact sep_mono (hsplit3 V c) .rfl

/-! ## Leaving the call: the halves joined again -/

set_option maxHeartbeats 400000 in
/-- The call's arrays at contents `G`, and the untouched rest at `V`, are the core's unscoped buffers at any `V'` that
    has each window's array at that window's `G` and agrees with `V` elsewhere.  Windows 0 and 1 both say what z holds;
    the two halves at the same contents make the full share. -/
theorem exit3_of (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w))
    (hrest : ∀ b, b ∉ Finset.univ.image (Pipeline.arrRef spec3) → V' b = V c b) :
    iprop((dat3 V c).arrays G ∗ Pipeline.unscopedRest spec3 c (V c)) ⊢ (unscopedBufs c V' : sProp 𝕄) := by
  rw [split3, arrBufs3_eq, arrays3_eq, hG 0, hG 1, hG 2, hG 3]
  refine sep_mono ?_ (Entails.of_eq ?_)
  · iintro ⟨HzL, HzR, Hp, Hm⟩
    isplitl [HzL HzR]
    · iapply (pointsTo_share (PosShare.mem_left_op_right fullShare)).2
      isplitl [HzL]; · iexact HzL
      iexact HzR
    isplitl [Hp]; · iexact Hp
    iexact Hm
  · unfold Pipeline.unscopedRest
    exact bigSep_congr fun b hb => by rw [hrest b (Finset.mem_sdiff.mp hb).2]

/-- In particular at the contents the call leaves: z as it was (an input array is never written), the scores and
    the mask as the write-backs of all 256 visits left them. -/
theorem exit3 (c : Dev nD) (V' : (b : Ref sig .tc) → Buf (Elt F) ((c : Thread nD τ).loc b))
    (h2 : V' main_v54_0 = (dat3 V c).arrAt 2 cfg3.N) (h3 : V' main_v54_1 = (dat3 V c).arrAt 3 cfg3.N)
    (hrest : ∀ b, b ≠ main_v54_0 → b ≠ main_v54_1 → V' b = V c b) :
    iprop((dat3 V c).arrays ((dat3 V c).arrAt · cfg3.N) ∗ Pipeline.unscopedRest spec3 c (V c)) ⊢ (unscopedBufs c V' : sProp 𝕄) := by
  have hz : V' main_v34 = V c main_v34 := hrest main_v34 (by decide) (by decide)
  refine exit3_of V c V' _ (fun w => ?_) (fun b hb => hrest b (fun e => hb ?_) (fun e => hb ?_))
  · match w with
    | ⟨0, _⟩ => exact ((dat3 V c).arrAt_in 0 rfl cfg3.N).trans ((A_eq3 V c 0).trans hz.symm)
    | ⟨1, _⟩ => exact ((dat3 V c).arrAt_in 1 rfl cfg3.N).trans ((A_eq3 V c 1).trans hz.symm)
    | ⟨2, _⟩ => exact h2.symm
    | ⟨3, _⟩ => exact h3.symm
  · exact e ▸ Finset.mem_image.mpr ⟨2, Finset.mem_univ _, rfl⟩
  · exact e ▸ Finset.mem_image.mpr ⟨3, Finset.mem_univ _, rfl⟩

end Cert.KernelIdeal.Hand

end
-- ==== Proof.KI.Chain.lean ====
/-
  The host side's irregular steps, named once and never opened: the wrapped source index and the destination
  index of every edge, the sum of the neighbours' feature rows per node, the node degrees clamped below at 1,
  their reciprocals as a column, and the rows of an array gathered at the two endpoints of the labelled edges.
  Both programs apply the same operations here, so the certificate only ever needs these terms to be equal
  as terms.
-/
import proofs.«155684_j2405181685928_2_alg».proof.Proof.Gen.KernelIdeal

noncomputable section

namespace Cert.KernelIdeal.Hand

open Cert.KernelIdeal Cert.KernelIdeal.Gen Idealize.ShloMosaic

variable {F : FTy → Type} [FloatOps F]

/-- Row `w` (0 = sources, 1 = destinations) of the edge list as a vector. -/
def edgeRow0 (ei : IVec S2x524288 32) : IVec S524288 32 :=
  shapeCast S524288 (extractStridedSlice S1x524288 ![0, 0] ei slices_S2x524288_S1x524288_0_0) shapeCasts_S1x524288_S524288
def edgeRow1 (ei : IVec S2x524288 32) : IVec S524288 32 :=
  shapeCast S524288 (extractStridedSlice S1x524288 ![1, 0] ei slices_S2x524288_S1x524288_1_0) shapeCasts_S1x524288_S524288

/-- The source node of each edge, a negative index wrapped by the node count, as an index column. -/
def SrcOf (ei : IVec S2x524288 32) : IVec S524288x1 32 :=
  broadcastInDim S524288x1 ![0] bcast_S524288_S524288x1_0
    (select (cmpi .slt (edgeRow0 ei) (broadcastInDim S524288 ![] bcast_S_S524288 (constantI S_ 32 0#32)))
      (addi (edgeRow0 ei) (broadcastInDim S524288 ![] bcast_S_S524288 (constantI S_ 32 16384#32))) (edgeRow0 ei))

/-- The destination node of each edge, as an index column. -/
def DstOf (ei : IVec S2x524288 32) : IVec S524288x1 32 :=
  broadcastInDim S524288x1 ![0] bcast_S524288_S524288x1_0 (edgeRow1 ei)

/-- Per node, the sum of the feature rows of its in-neighbours. -/
def RawOf (feat : FVec F S16384x128 .f32) (ei : IVec S2x524288 32) : FVec F S16384x128 .f32 :=
  Host.scatterAdd scatter_S16384x128_S524288x1_S524288x128_1_0_0_1
    (broadcastInDim S16384x128 ![] bcast_S_S16384x128 (constant S_ .f32 0x00000000#32)) (DstOf ei)
    (Host.gather gather_S16384x128_S524288x1_S524288x128_1_0_n_n_0_1_1128 feat (SrcOf ei))

/-- Per node, its in-degree clamped below at 1. -/
def DOf (ei : IVec S2x524288 32) : FVec F S16384 .f32 :=
  maximumf
    (Host.scatterAdd scatter_S16384_S524288x1_S524288_n_0_0_1
      (broadcastInDim S16384 ![] bcast_S_S16384 (constant S_ .f32 0x00000000#32)) (DstOf ei)
      (broadcastInDim S524288 ![] bcast_S_S524288 (constant S_ .f32 0x3F800000#32)))
    (broadcastInDim S16384 ![] bcast_S_S16384 (constant S_ .f32 0x3F800000#32))

/-- Per node, 1 over that clamped degree, as a column. -/
def InvOf (ei : IVec S2x524288 32) : FVec F S16384x1 .f32 :=
  broadcastInDim S16384x1 ![0] bcast_S16384_S16384x1_0
    (Host.divf (broadcastInDim S16384 ![] bcast_S_S16384 (constant S_ .f32 0x3F800000#32)) (DOf ei))

/-- Row `w` of the labelled-edge list as a vector. -/
def lblRow0 (eli : IVec S2x131072 32) : IVec S131072 32 :=
  shapeCast S131072 (extractStridedSlice S1x131072 ![0, 0] eli slices_S2x131072_S1x131072_0_0) shapeCasts_S1x131072_S131072
def lblRow1 (eli : IVec S2x131072 32) : IVec S131072 32 :=
  shapeCast S131072 (extractStridedSlice S1x131072 ![1, 0] eli slices_S2x131072_S1x131072_1_0) shapeCasts_S1x131072_S131072

/-- The rows of `z` at the first endpoints of the labelled edges (a negative index wrapped). -/
def Rows0Of (z : FVec F S16384x64 .f32) (eli : IVec S2x131072 32) : FVec F S131072x64 .f32 :=
  Host.gather gather_S16384x64_S131072x1_S131072x64_1_0_n_n_0_1_164 z
    (broadcastInDim S131072x1 ![0] bcast_S131072_S131072x1_0
      (select (cmpi .slt (lblRow0 eli) (broadcastInDim S131072 ![] bcast_S_S131072 (constantI S_ 32 0#32)))
        (addi (lblRow0 eli) (broadcastInDim S131072 ![] bcast_S_S131072 (constantI S_ 32 16384#32))) (lblRow0 eli)))

/-- The rows of `z` at the second endpoints. -/
def Rows1Of (z : FVec F S16384x64 .f32) (eli : IVec S2x131072 32) : FVec F S131072x64 .f32 :=
  Host.gather gather_S16384x64_S131072x1_S131072x64_1_0_n_n_0_1_164 z
    (broadcastInDim S131072x1 ![0] bcast_S131072_S131072x1_0
      (select (cmpi .slt (lblRow1 eli) (broadcastInDim S131072 ![] bcast_S_S131072 (constantI S_ 32 0#32)))
        (addi (lblRow1 eli) (broadcastInDim S131072 ![] bcast_S_S131072 (constantI S_ 32 16384#32))) (lblRow1 eli)))

end Cert.KernelIdeal.Hand

end
-- ==== Proof.KI.Walk.lean ====
/-
  Reading the chain of valuations: each result array, at the end, holds what its region left (the mask: the
  comparison with zero of the sign words the last region left), and each region is entered with its operand arrays
  at the host side's named terms of the arguments and of what the earlier regions left.
-/
import proofs.«155684_j2405181685928_2_alg».proof.Proof.KI.RunCond
import proofs.«155684_j2405181685928_2_alg».proof.Proof.KI.Chain
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-! ## The results, read off the last valuation -/

theorem V8_v23 (c : Dev nD) : V8 m outs c main_v23 = outs 2 main_v23 c :=
  (V8_of m outs c main_v23 (by decide)).trans <| (V7_of m outs c main_v23 (by decide)).trans <| (V6_of m outs c main_v23 (by decide)).trans <|
    (V5_of m outs c main_v23 (by decide)).trans <| (V4_of m outs c main_v23 (by decide)).trans <| (V3_of m outs c main_v23 (by decide)).trans
      (Function.update_self ..)
theorem V8_v34 (c : Dev nD) : V8 m outs c main_v34 = outs 4 main_v34 c :=
  (V8_of m outs c main_v34 (by decide)).trans <| (V7_of m outs c main_v34 (by decide)).trans <| (V6_of m outs c main_v34 (by decide)).trans <|
    (V5_of m outs c main_v34 (by decide)).trans (Function.update_self ..)
theorem V6_v53_0 (c : Dev nD) : V6 m outs c main_v53_0 = outs 6 main_v53_0 c := by
  show Function.update (Function.update (V5 m outs c) main_v53_0 (outs 6 main_v53_0 c)) main_v53_1 (outs 6 main_v53_1 c) main_v53_0 = _
  rw [Function.update_of_ne (StableHlo.devRef_ne_of_ne (by decide) : (Proc.devRef .tc main_v53_0 : DevRef τ sig) ≠ Proc.devRef .tc main_v53_1)]
  exact Function.update_self ..
theorem V6_v53_1 (c : Dev nD) : V6 m outs c main_v53_1 = outs 6 main_v53_1 c := Function.update_self ..
theorem V8_v53_0 (c : Dev nD) : V8 m outs c main_v53_0 = outs 6 main_v53_0 c :=
  (V8_of m outs c main_v53_0 (by decide)).trans <| (V7_of m outs c main_v53_0 (by decide)).trans (V6_v53_0 m outs c)
theorem V8_v53_1 (c : Dev nD) : V8 m outs c main_v53_1 = outs 6 main_v53_1 c :=
  (V8_of m outs c main_v53_1 (by decide)).trans <| (V7_of m outs c main_v53_1 (by decide)).trans (Function.update_self ..)
theorem V7_v54_0 (c : Dev nD) : V7 m outs c main_v54_0 = outs 7 main_v54_0 c := by
  show Function.update (Function.update (V6 m outs c) main_v54_0 (outs 7 main_v54_0 c)) main_v54_1 (outs 7 main_v54_1 c) main_v54_0 = _
  rw [Function.update_of_ne (StableHlo.devRef_ne_of_ne (by decide) : (Proc.devRef .tc main_v54_0 : DevRef τ sig) ≠ Proc.devRef .tc main_v54_1)]
  exact Function.update_self ..
theorem V7_v54_1 (c : Dev nD) : V7 m outs c main_v54_1 = outs 7 main_v54_1 c := Function.update_self ..
theorem V8_v54_0 (c : Dev nD) : V8 m outs c main_v54_0 = outs 7 main_v54_0 c :=
  (V8_of m outs c main_v54_0 (by decide)).trans (V7_v54_0 m outs c)
set_option maxHeartbeats 1000000 in
/-- The mask: where the sign word the last region left is not zero. -/
theorem V8_v57 (c : Dev nD) : V8 m outs c main_v57
    = cmpi .ne (outs 7 main_v54_1 c) (broadcastInDim S16384x16384 ![] bcast_S_S16384x16384 (constantI S_ 32 0#32)) := by
  show StableHlo.after hostOps4 (V7 m outs c) (Proc.devRef .tc main_v57) = _
  after_results
  show cmpi .ne (V7 m outs c (Proc.devRef .tc main_v54_1)) _ = _
  rw [show V7 m outs c (Proc.devRef .tc main_v54_1) = outs 7 main_v54_1 c from V7_v54_1 m outs c]

/-! ## Region 0's operands -/

set_option maxHeartbeats 1000000 in
theorem V1_v22 (c : Dev nD) : V1 m c main_v22 = RawOf (m ((c.tc : Thread nD τ).loc main_arg0)) (m ((c.tc : Thread nD τ).loc main_arg1)) := by
  show StableHlo.after hostOps0 (V0 m c) (Proc.devRef .tc main_v22) = _
  after_results
  rfl
set_option maxHeartbeats 1000000 in
theorem V1_v12 (c : Dev nD) : V1 m c main_v12 = InvOf (m ((c.tc : Thread nD τ).loc main_arg1)) := by
  show StableHlo.after hostOps0 (V0 m c) (Proc.devRef .tc main_v12) = _
  after_results
  rfl
set_option maxHeartbeats 1000000 in
theorem V1_v1 (c : Dev nD) : V1 m c main_v1 = edgeRow0 (m ((c.tc : Thread nD τ).loc main_arg1)) := by
  show StableHlo.after hostOps0 (V0 m c) (Proc.devRef .tc main_v1) = _
  after_results
  rfl
set_option maxHeartbeats 1000000 in
theorem V1_v3 (c : Dev nD) : V1 m c main_v3 = edgeRow1 (m ((c.tc : Thread nD τ).loc main_arg1)) := by
  show StableHlo.after hostOps0 (V0 m c) (Proc.devRef .tc main_v3) = _
  after_results
  rfl
theorem V1_arg (c : Dev nD) (r : Ref sig .tc) (h : r ∉ hostOps0_W) : V1 m c r = m ((c.tc : Thread nD τ).loc r) := V1_of m c r h

/-! ## Region 1's operands -/

theorem V2_v23 (c : Dev nD) : V2 m outs c main_v23 = outs 2 main_v23 c := Function.update_self ..
theorem V3_v23 (c : Dev nD) : V3 m outs c main_v23 = outs 2 main_v23 c :=
  (V3_of m outs c main_v23 (by decide)).trans (V2_v23 m outs c)
theorem V3_v12 (c : Dev nD) : V3 m outs c main_v12 = InvOf (m ((c.tc : Thread nD τ).loc main_arg1)) :=
  (V3_of m outs c main_v12 (by decide)).trans <| (V2_of m outs c main_v12 (by decide)).trans (V1_v12 m c)
theorem V3_arg (c : Dev nD) (r : Ref sig .tc) (h3 : r ∉ hostOps1_W) (h2 : r ∉ ([main_v23] : List (Ref sig .tc))) (h1 : r ∉ hostOps0_W) :
    V3 m outs c r = m ((c.tc : Thread nD τ).loc r) :=
  (V3_of m outs c r h3).trans <| (V2_of m outs c r h2).trans (V1_of m c r h1)
set_option maxHeartbeats 1000000 in
theorem V3_v33 (c : Dev nD) : V3 m outs c main_v33 = RawOf (outs 2 main_v23 c) (m ((c.tc : Thread nD τ).loc main_arg1)) := by
  show StableHlo.after hostOps1 (V2 m outs c) (Proc.devRef .tc main_v33) = _
  after_results
  rw [show V2 m outs c (Proc.devRef .tc main_v23) = outs 2 main_v23 c from V2_v23 m outs c,
    show V2 m outs c (Proc.devRef .tc main_v1) = edgeRow0 (m ((c.tc : Thread nD τ).loc main_arg1)) from (V2_of m outs c main_v1 (by decide)).trans (V1_v1 m c),
    show V2 m outs c (Proc.devRef .tc main_v3) = edgeRow1 (m ((c.tc : Thread nD τ).loc main_arg1)) from (V2_of m outs c main_v3 (by decide)).trans (V1_v3 m c)]
  rfl

/-! ## Region 2's and region 3's operands -/

theorem V4_v34 (c : Dev nD) : V4 m outs c main_v34 = outs 4 main_v34 c := Function.update_self ..
theorem V4_arg2 (c : Dev nD) : V4 m outs c main_arg2 = m ((c.tc : Thread nD τ).loc main_arg2) :=
  (V4_of m outs c main_arg2 (by decide)).trans <| V3_arg m outs c main_arg2 (by decide) (by decide) (by decide)
set_option maxHeartbeats 1000000 in
theorem V5_v45 (c : Dev nD) : V5 m outs c main_v45 = Rows0Of (outs 4 main_v34 c) (m ((c.tc : Thread nD τ).loc main_arg2)) := by
  show StableHlo.after hostOps2 (V4 m outs c) (Proc.devRef .tc main_v45) = _
  after_results
  rw [show V4 m outs c (Proc.devRef .tc main_v34) = outs 4 main_v34 c from V4_v34 m outs c,
    show V4 m outs c (Proc.devRef .tc main_arg2) = m ((c.tc : Thread nD τ).loc main_arg2) from V4_arg2 m outs c]
  rfl
set_option maxHeartbeats 1000000 in
theorem V5_v52 (c : Dev nD) : V5 m outs c main_v52 = Rows1Of (outs 4 main_v34 c) (m ((c.tc : Thread nD τ).loc main_arg2)) := by
  show StableHlo.after hostOps2 (V4 m outs c) (Proc.devRef .tc main_v52) = _
  after_results
  rw [show V4 m outs c (Proc.devRef .tc main_v34) = outs 4 main_v34 c from V4_v34 m outs c,
    show V4 m outs c (Proc.devRef .tc main_arg2) = m ((c.tc : Thread nD τ).loc main_arg2) from V4_arg2 m outs c]
  rfl
theorem V6_v34 (c : Dev nD) : V6 m outs c main_v34 = outs 4 main_v34 c :=
  (V6_of m outs c main_v34 (by decide)).trans <| (V5_of m outs c main_v34 (by decide)).trans (V4_v34 m outs c)

end Cert.KernelIdeal.Hand

end
-- ==== Proof.KI.Run.lean ====
/-
  The whole program's run from its four regions: what each region leaves in its result arrays (the proof data's
  array after the last write-back), the proof data of every region at the contents it is entered from, each
  region's record — its arrays taken out of the core's unscoped buffers on entry and put back, the results at
  what the write-backs leave, on exit — and the instantiated run.

  A region is entered from the valuation the items before it produce; the valuations are the generated chain
  (launch contents; after each host stretch; a region's results replaced by what it leaves), read here at the
  contents `left` below. The last region's first two windows stage one and the same array: each holds half of
  the share of that array.
-/
import proofs.«155684_j2405181685928_2_alg».proof.Proof.KI.RunCond
import proofs.«155684_j2405181685928_2_alg».proof.Proof.KI.Reg0
import proofs.«155684_j2405181685928_2_alg».proof.Proof.KI.Reg1
import proofs.«155684_j2405181685928_2_alg».proof.Proof.KI.Reg2
import proofs.«155684_j2405181685928_2_alg».proof.Proof.KI.Reg3
import proofs.«155684_j2405181685928_2_alg».proof.Proof.KI.Reg3Arr
import proofs.«155684_j2405181685928_2_alg».proof.Proof.KI.Walk
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

variable (m : (ℓ : Loc nD τ sig) → Buf (Elt F) ℓ)

/-! ## What the regions leave, and the contents each is entered from -/

/-- Region 0 is entered from the launch contents after the first host stretch. -/
abbrev X1 : (c : Dev nD) → (b : Ref sig .tc) → Buf (Elt F) ((c : Thread nD τ).loc b) := fun c b => V1 m c b

/-- The first layer's output array as region 0 leaves it. -/
def o23 (c : Dev nD) : Buf (Elt F) ((c : Thread nD τ).loc main_v23) := (dat0 (X1 m) c).arrAt 6 cfg0.N

/-- The contents left, region 0 only. -/
def leftA : Outs (F := F) := fun _ r c => if h : r = main_v23 then h ▸ o23 m c else m ((c : Thread nD τ).loc r)

abbrev X3 : (c : Dev nD) → (b : Ref sig .tc) → Buf (Elt F) ((c : Thread nD τ).loc b) := fun c b => V3 m (leftA m) c b

/-- The second layer's output array as region 1 leaves it. -/
def o34 (c : Dev nD) : Buf (Elt F) ((c : Thread nD τ).loc main_v34) := (dat1 (X3 m) c).arrAt 6 cfg1.N

def leftB : Outs (F := F) := fun J r c => if h : r = main_v34 then h ▸ o34 m c else leftA m J r c

abbrev X5 : (c : Dev nD) → (b : Ref sig .tc) → Buf (Elt F) ((c : Thread nD τ).loc b) := fun c b => V5 m (leftB m) c b

/-- The edge products and their channel sums as region 2 leaves them. -/
def o53_0 (c : Dev nD) : Buf (Elt F) ((c : Thread nD τ).loc main_v53_0) := (dat2 (X5 m) c).arrAt 2 cfg2.N
def o53_1 (c : Dev nD) : Buf (Elt F) ((c : Thread nD τ).loc main_v53_1) := (dat2 (X5 m) c).arrAt 3 cfg2.N

def leftC : Outs (F := F) := fun J r c =>
  if h : r = main_v53_0 then h ▸ o53_0 m c else if h : r = main_v53_1 then h ▸ o53_1 m c else leftB m J r c

abbrev X6 : (c : Dev nD) → (b : Ref sig .tc) → Buf (Elt F) ((c : Thread nD τ).loc b) := fun c b => V6 m (leftC m) c b

/-- The dense scores and their sign words as region 3 leaves them. -/
def o54_0 (c : Dev nD) : Buf (Elt F) ((c : Thread nD τ).loc main_v54_0) := (dat3 (X6 m) c).arrAt 2 cfg3.N
def o54_1 (c : Dev nD) : Buf (Elt F) ((c : Thread nD τ).loc main_v54_1) := (dat3 (X6 m) c).arrAt 3 cfg3.N

/-- The contents every region leaves. -/
def left : Outs (F := F) := fun J r c =>
  if h : r = main_v54_0 then h ▸ o54_0 m c else if h : r = main_v54_1 then h ▸ o54_1 m c else leftC m J r c

/-! ### `left` at each result array -/

theorem leftA_v23 (J : ℕ) (c : Dev nD) : leftA m J main_v23 c = o23 m c := by unfold leftA; rw [dif_pos rfl]
theorem leftB_v23 (J : ℕ) (c : Dev nD) : leftB m J main_v23 c = o23 m c := by
  unfold leftB; rw [dif_neg (by decide)]; exact leftA_v23 m J c
theorem leftB_v34 (J : ℕ) (c : Dev nD) : leftB m J main_v34 c = o34 m c := by unfold leftB; rw [dif_pos rfl]
theorem leftC_v23 (J : ℕ) (c : Dev nD) : leftC m J main_v23 c = o23 m c := by
  unfold leftC; rw [dif_neg (by decide), dif_neg (by decide)]; exact leftB_v23 m J c
theorem leftC_v34 (J : ℕ) (c : Dev nD) : leftC m J main_v34 c = o34 m c := by
  unfold leftC; rw [dif_neg (by decide), dif_neg (by decide)]; exact leftB_v34 m J c
theorem leftC_v53_0 (J : ℕ) (c : Dev nD) : leftC m J main_v53_0 c = o53_0 m c := by unfold leftC; rw [dif_pos rfl]
theorem leftC_v53_1 (J : ℕ) (c : Dev nD) : leftC m J main_v53_1 c = o53_1 m c := by
  unfold leftC; rw [dif_neg (by decide), dif_pos rfl]
theorem left_v23 (J : ℕ) (c : Dev nD) : left m J main_v23 c = o23 m c := by
  unfold left; rw [dif_neg (by decide), dif_neg (by decide)]; exact leftC_v23 m J c
theorem left_v34 (J : ℕ) (c : Dev nD) : left m J main_v34 c = o34 m c := by
  unfold left; rw [dif_neg (by decide), dif_neg (by decide)]; exact leftC_v34 m J c
theorem left_v53_0 (J : ℕ) (c : Dev nD) : left m J main_v53_0 c = o53_0 m c := by
  unfold left; rw [dif_neg (by decide), dif_neg (by decide)]; exact leftC_v53_0 m J c
theorem left_v53_1 (J : ℕ) (c : Dev nD) : left m J main_v53_1 c = o53_1 m c := by
  unfold left; rw [dif_neg (by decide), dif_neg (by decide)]; exact leftC_v53_1 m J c
theorem left_v54_0 (J : ℕ) (c : Dev nD) : left m J main_v54_0 c = o54_0 m c := by unfold left; rw [dif_pos rfl]
theorem left_v54_1 (J : ℕ) (c : Dev nD) : left m J main_v54_1 c = o54_1 m c := by
  unfold left; rw [dif_neg (by decide), dif_pos rfl]

/-! ### The chain's valuations do not see the later regions' contents -/

theorem V3_left (c : Dev nD) : V3 m (left m) c = V3 m (leftA m) c := by
  show StableHlo.after hostOps1 (Function.update (V1 m c) main_v23 (left m 2 main_v23 c))
    = StableHlo.after hostOps1 (Function.update (V1 m c) main_v23 (leftA m 2 main_v23 c))
  rw [left_v23, leftA_v23]
theorem V5_left (c : Dev nD) : V5 m (left m) c = V5 m (leftB m) c := by
  show StableHlo.after hostOps2 (Function.update (StableHlo.after hostOps1 (Function.update (V1 m c) main_v23 (left m 2 main_v23 c))) main_v34 (left m 4 main_v34 c))
    = StableHlo.after hostOps2 (Function.update (StableHlo.after hostOps1 (Function.update (V1 m c) main_v23 (leftB m 2 main_v23 c))) main_v34 (leftB m 4 main_v34 c))
  rw [left_v23, left_v34, leftB_v23, leftB_v34]
theorem V6_left (c : Dev nD) : V6 m (left m) c = V6 m (leftC m) c := by
  show Function.update (Function.update (StableHlo.after hostOps2 (Function.update (StableHlo.after hostOps1 (Function.update (V1 m c) main_v23 (left m 2 main_v23 c))) main_v34 (left m 4 main_v34 c))) main_v53_0 (left m 6 main_v53_0 c)) main_v53_1 (left m 6 main_v53_1 c)
    = Function.update (Function.update (StableHlo.after hostOps2 (Function.update (StableHlo.after hostOps1 (Function.update (V1 m c) main_v23 (leftC m 2 main_v23 c))) main_v34 (leftC m 4 main_v34 c))) main_v53_0 (leftC m 6 main_v53_0 c)) main_v53_1 (leftC m 6 main_v53_1 c)
  rw [left_v23, left_v34, left_v53_0, left_v53_1, leftC_v23, leftC_v34, leftC_v53_0, leftC_v53_1]

/-! ## The proof data family -/

/-- Every region's proof data, each at the contents the region is entered from. -/
def pdats : (p : Fin 4) → (c : Dev nD) → Dat τ (Elt F) Unit ℕ (UR sig nD τ) ℕ (cfgs p) c
  | ⟨0, _⟩ => fun c => dat0 (X1 m) c
  | ⟨1, _⟩ => fun c => dat1 (X3 m) c
  | ⟨2, _⟩ => fun c => dat2 (X5 m) c
  | ⟨3, _⟩ => fun c => dat3 (X6 m) c

abbrev 𝒱ₙ : Variants := Variants.none
/-- No core waits on another: no level is assigned. -/
abbrev Lₙ : GSem nD τ sig → Finset Unit := fun _ => ∅
abbrev lvₙ : GSem nD τ sig → Unit → ℕ := fun _ _ => 0
/-- Beside the buffers every item carries the core's generator register, at some state, and its dues, none. -/
abbrev Rest (c : Dev nD) : sProp 𝕄 := iprop((∃ r, prngReg c r) ∗ ∃ W, owes (c : Thread nD τ) (0 : CellTallies nD τ sig Unit) W)

/-! ## Region 0 -/

/-- A buffer the region's results are not among is, after the region, as the region found it. -/
theorem kept0 (c : Dev nD) (b : Ref sig .tc) (h : b ∉ ([main_v23] : List (Ref sig .tc))) : V2 m (left m) c b = X1 m c b :=
  (V2_of m (left m) c b h)

/-- At the region's exit each of its arrays holds what the exit valuation says: an operand as entered, a result as
    the write-backs leave it. -/
theorem hF0 (c : Dev nD) (w : Fin cfg0.W) : (dat0 (X1 m) c).arrAt w cfg0.N = V2 m (left m) c (Pipeline.arrRef spec0 w) :=
  match w with
  | ⟨0, _⟩ => ((dat0 (X1 m) c).arrAt_in 0 rfl _).trans ((A_eq0 (X1 m) c 0).trans (kept0 m c _ (by decide)).symm)
  | ⟨1, _⟩ => ((dat0 (X1 m) c).arrAt_in 1 rfl _).trans ((A_eq0 (X1 m) c 1).trans (kept0 m c _ (by decide)).symm)
  | ⟨2, _⟩ => ((dat0 (X1 m) c).arrAt_in 2 rfl _).trans ((A_eq0 (X1 m) c 2).trans (kept0 m c _ (by decide)).symm)
  | ⟨3, _⟩ => ((dat0 (X1 m) c).arrAt_in 3 rfl _).trans ((A_eq0 (X1 m) c 3).trans (kept0 m c _ (by decide)).symm)
  | ⟨4, _⟩ => ((dat0 (X1 m) c).arrAt_in 4 rfl _).trans ((A_eq0 (X1 m) c 4).trans (kept0 m c _ (by decide)).symm)
  | ⟨5, _⟩ => ((dat0 (X1 m) c).arrAt_in 5 rfl _).trans ((A_eq0 (X1 m) c 5).trans (kept0 m c _ (by decide)).symm)
  | ⟨6, _⟩ => by show o23 m c = _; exact ((V2_v23 m (left m) c).trans (left_v23 m 2 c)).symm

theorem hrest0 (c : Dev nD) : ∀ b, b ∉ Finset.univ.image (Pipeline.arrRef spec0) → V2 m (left m) c b = X1 m c b :=
  fun b hb => kept0 m c b (by
    intro hmem
    exact hb (Finset.mem_image.mpr ⟨6, Finset.mem_univ _, (List.mem_singleton.mp hmem).symm⟩))

set_option backward.isDefEq.respectTransparency.types false in
/-- Region 0 over the thread state "every unscoped buffer at the valuation reached, the generator register, no
    dues": its arrays are split out of the unscoped buffers on entry and joined back, the results replaced, on exit;
    the register passes through the body's invariant; the body owes nothing and has no semaphore of its own. -/
def reg0 : RegionSeg (pcfgs (F := F)) adm (pdats m) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (X1 m) c).loose
  hwaits := Pipeline.hwaits_of_owed_zero _ _ _ _ Lₙ lvₙ 0 fun _ _ => rfl
  pre c := iprop(StableHlo.held (c : Thread nD τ) (Pipeline.ucRefs τ sig) (V1 m c) ∗ Rest c)
  post c := iprop(StableHlo.held (c : Thread nD τ) (Pipeline.ucRefs τ sig) (V2 m (left m) c) ∗ Rest c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (X1 m c) fun _ => rfl
    rw [Pipeline.unscopedBufs_held] at hsplit
    skip
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (X1 m c) (fun b => V2 m (left m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- A buffer the region's results are not among is, after the region, as the region found it. -/
theorem kept1 (c : Dev nD) (b : Ref sig .tc) (h : b ∉ ([main_v34] : List (Ref sig .tc))) : V4 m (left m) c b = X3 m c b :=
  (V4_of m (left m) c b h).trans (congrFun (V3_left m c) (Proc.devRef .tc b))

/-- At the region's exit each of its arrays holds what the exit valuation says: an operand as entered, a result as
    the write-backs leave it. -/
theorem hF1 (c : Dev nD) (w : Fin cfg1.W) : (dat1 (X3 m) c).arrAt w cfg1.N = V4 m (left m) c (Pipeline.arrRef spec1 w) :=
  match w with
  | ⟨0, _⟩ => ((dat1 (X3 m) c).arrAt_in 0 rfl _).trans ((A_eq1 (X3 m) c 0).trans (kept1 m c _ (by decide)).symm)
  | ⟨1, _⟩ => ((dat1 (X3 m) c).arrAt_in 1 rfl _).trans ((A_eq1 (X3 m) c 1).trans (kept1 m c _ (by decide)).symm)
  | ⟨2, _⟩ => ((dat1 (X3 m) c).arrAt_in 2 rfl _).trans ((A_eq1 (X3 m) c 2).trans (kept1 m c _ (by decide)).symm)
  | ⟨3, _⟩ => ((dat1 (X3 m) c).arrAt_in 3 rfl _).trans ((A_eq1 (X3 m) c 3).trans (kept1 m c _ (by decide)).symm)
  | ⟨4, _⟩ => ((dat1 (X3 m) c).arrAt_in 4 rfl _).trans ((A_eq1 (X3 m) c 4).trans (kept1 m c _ (by decide)).symm)
  | ⟨5, _⟩ => ((dat1 (X3 m) c).arrAt_in 5 rfl _).trans ((A_eq1 (X3 m) c 5).trans (kept1 m c _ (by decide)).symm)
  | ⟨6, _⟩ => by show o34 m c = _; exact ((V4_v34 m (left m) c).trans (left_v34 m 4 c)).symm

theorem hrest1 (c : Dev nD) : ∀ b, b ∉ Finset.univ.image (Pipeline.arrRef spec1) → V4 m (left m) c b = X3 m c b :=
  fun b hb => kept1 m c b (by
    intro hmem
    exact hb (Finset.mem_image.mpr ⟨6, Finset.mem_univ _, (List.mem_singleton.mp hmem).symm⟩))

set_option backward.isDefEq.respectTransparency.types false in
/-- Region 1 over the thread state "every unscoped buffer at the valuation reached, the generator register, no
    dues": its arrays are split out of the unscoped buffers on entry and joined back, the results replaced, on exit;
    the register passes through the body's invariant; the body owes nothing and has no semaphore of its own. -/
def reg1 : RegionSeg (pcfgs (F := F)) adm (pdats m) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (X3 m) c).loose
  hwaits := Pipeline.hwaits_of_owed_zero _ _ _ _ Lₙ lvₙ 1 fun _ _ => rfl
  pre c := iprop(StableHlo.held (c : Thread nD τ) (Pipeline.ucRefs τ sig) (V3 m (left m) c) ∗ Rest c)
  post c := iprop(StableHlo.held (c : Thread nD τ) (Pipeline.ucRefs τ sig) (V4 m (left m) c) ∗ Rest c)
  X c := iprop(∃ r, prngReg c r)
  Y c := iprop(∃ r, prngReg c r)
  Z c := Pipeline.unscopedRest (Ix := Unit) (Name := ℕ) (U := UR sig nD τ) (Lvl := ℕ) spec1 c (X3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (X3 m c) fun _ => rfl
    rw [Pipeline.unscopedBufs_held] at hsplit
    rw [V3_left m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (X3 m c) (fun b => V4 m (left m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- A buffer the region's results are not among is, after the region, as the region found it. -/
theorem kept2 (c : Dev nD) (b : Ref sig .tc) (h : b ∉ ([main_v53_0, main_v53_1] : List (Ref sig .tc))) : V6 m (left m) c b = X5 m c b :=
  (V6_of m (left m) c b h).trans (congrFun (V5_left m c) (Proc.devRef .tc b))

/-- At the region's exit each of its arrays holds what the exit valuation says: an operand as entered, a result as
    the write-backs leave it. -/
theorem hF2 (c : Dev nD) (w : Fin cfg2.W) : (dat2 (X5 m) c).arrAt w cfg2.N = V6 m (left m) c (Pipeline.arrRef spec2 w) :=
  match w with
  | ⟨0, _⟩ => ((dat2 (X5 m) c).arrAt_in 0 rfl _).trans ((A_eq2 (X5 m) c 0).trans (kept2 m c _ (by decide)).symm)
  | ⟨1, _⟩ => ((dat2 (X5 m) c).arrAt_in 1 rfl _).trans ((A_eq2 (X5 m) c 1).trans (kept2 m c _ (by decide)).symm)
  | ⟨2, _⟩ => by show o53_0 m c = _; exact ((V6_v53_0 m (left m) c).trans (left_v53_0 m 6 c)).symm
  | ⟨3, _⟩ => by show o53_1 m c = _; exact ((V6_v53_1 m (left m) c).trans (left_v53_1 m 6 c)).symm

theorem hrest2 (c : Dev nD) : ∀ b, b ∉ Finset.univ.image (Pipeline.arrRef spec2) → V6 m (left m) c b = X5 m c b :=
  fun b hb => kept2 m c b (by
    intro hmem
    rcases List.mem_cons.mp hmem with h | hmem
    · exact hb (Finset.mem_image.mpr ⟨2, Finset.mem_univ _, h.symm⟩)
    · exact hb (Finset.mem_image.mpr ⟨3, Finset.mem_univ _, (List.mem_singleton.mp hmem).symm⟩))

set_option backward.isDefEq.respectTransparency.types false in
/-- Region 2 over the thread state "every unscoped buffer at the valuation reached, the generator register, no
    dues": its arrays are split out of the unscoped buffers on entry and joined back, the results replaced, on exit;
    the register passes through the body's invariant; the body owes nothing and has no semaphore of its own. -/
def reg2 : RegionSeg (pcfgs (F := F)) adm (pdats m) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (X5 m) c).loose
  hwaits := Pipeline.hwaits_of_owed_zero _ _ _ _ Lₙ lvₙ 2 fun _ _ => rfl
  pre c := iprop(StableHlo.held (c : Thread nD τ) (Pipeline.ucRefs τ sig) (V5 m (left m) c) ∗ Rest c)
  post c := iprop(StableHlo.held (c : Thread nD τ) (Pipeline.ucRefs τ sig) (V6 m (left m) c) ∗ Rest c)
  X c := iprop(∃ r, prngReg c r)
  Y c := iprop(∃ r, prngReg c r)
  Z c := Pipeline.unscopedRest (Ix := Unit) (Name := ℕ) (U := UR sig nD τ) (Lvl := ℕ) spec2 c (X5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (X5 m c) fun _ => rfl
    rw [Pipeline.unscopedBufs_held] at hsplit
    rw [V5_left m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (X5 m c) (fun b => V6 m (left m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3: two of its windows stage one array -/

theorem kept3 (c : Dev nD) (b : Ref sig .tc) (h : b ∉ ([main_v54_0, main_v54_1] : List (Ref sig .tc))) : V7 m (left m) c b = X6 m c b :=
  (V7_of m (left m) c b h).trans (congrFun (V6_left m c) (Proc.devRef .tc b))

set_option backward.isDefEq.respectTransparency.types false in
/-- Region 3 over the same thread state. The row block and the whole of `z` are two windows on ONE array, each holding
    half of it; the two result arrays are replaced by what the write-backs leave. -/
def reg3 : RegionSeg (pcfgs (F := F)) adm (pdats m) () defs₀ 𝒱ₙ Lₙ lvₙ 3 where
  win := winFacts₀3
  block_pos := block_pos3
  stage_whole := stage_whole3
  K := PEmpty
  osem k := k.elim
  ho := Pipeline.OwnSemFacts.none _
  hbody c := (body_obligation3 (X6 m) c).loose
  hwaits := Pipeline.hwaits_of_owed_zero _ _ _ _ Lₙ lvₙ 3 fun _ _ => rfl
  pre c := iprop(StableHlo.held (c : Thread nD τ) (Pipeline.ucRefs τ sig) (V6 m (left m) c) ∗ Rest c)
  post c := iprop(StableHlo.held (c : Thread nD τ) (Pipeline.ucRefs τ sig) (V7 m (left m) c) ∗ Rest c)
  X c := iprop(∃ r, prngReg c r)
  Y c := iprop(∃ r, prngReg c r)
  Z c := Pipeline.unscopedRest (Ix := Unit) (Name := ℕ) (U := UR sig nD τ) (Lvl := ℕ) spec3 c (X6 m c)
  hentry c := by
    rw [Pipeline.ownSems0_none]
    have hsplit := entry3 (X6 m) c
    rw [Pipeline.unscopedBufs_held] at hsplit
    rw [V6_left m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := exit3 (X6 m) c (fun b => V7 m (left m) c b)
      (by show V7 m (left m) c main_v54_0 = o54_0 m c; exact (V7_v54_0 m (left m) c).trans (left_v54_0 m 7 c))
      (by show V7 m (left m) c main_v54_1 = o54_1 m c; exact (V7_v54_1 m (left m) c).trans (left_v54_1 m 7 c))
      (fun b h0 h1 => kept3 m c b (by
        intro hmem
        rcases List.mem_cons.mp hmem with h | hmem
        · exact h0 h
        · exact h1 (List.mem_singleton.mp hmem)))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program terminates, nothing faulting; each result array ends at what the chain of
    valuations holds for it, each argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v23) = V8 m (left m) c main_v23
      ∧ r.2.mem ((c.tc : Thread nD τ).loc main_v34) = V8 m (left m) c main_v34
      ∧ r.2.mem ((c.tc : Thread nD τ).loc main_v53_0) = V8 m (left m) c main_v53_0
      ∧ r.2.mem ((c.tc : Thread nD τ).loc main_v53_1) = V8 m (left m) c main_v53_1
      ∧ r.2.mem ((c.tc : Thread nD τ).loc main_v54_0) = V8 m (left m) c main_v54_0
      ∧ r.2.mem ((c.tc : Thread nD τ).loc main_v57) = V8 m (left m) c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m emb₁ () 𝒱ₙ Lₙ lvₙ (fun _ _ => rfl) ρ (left m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rest)
    (Pipeline.initEach Lₙ lvₙ fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)
    (reg2 m) (fun _ => .rfl) (fun _ => .rfl) (reg3 m) (fun _ => .rfl) (fun _ => .rfl)

end Cert.KernelIdeal.Hand

end
-- ==== Proof.Spec.lean ====
/-
  The mathematics of the two programs' results, index by index on the extended reals, over literal extents and
  free of either program.

  One graph layer, at node r and output channel j, is
      act ( Σ_k (agg[r,k] / d[r]) · Wl[k,j]  +  b[j]  +  Σ_k x[r,k] · Wr[k,j] )
  where agg is the sum of the neighbours' feature rows, d[r] = max(deg[r], 1) and act is max(·, 0) or the
  identity.  The kernel multiplies agg[r,k] by a precomputed 1 / d[r] and adds the bias last; since d[r] ≠ 0,
  x · (1 / d) = x / d on every extended real (the quotient by a non-zero d IS the product with d⁻¹), and the two
  orders of the three summands agree because + is commutative and associative there: `sageK_eq_sageR`.

  The edge scores are products of two gathered rows of z and their sums over the 64 channels; the dense scores are
  the Gram entries Σ_k z[i,k] · z[j,k], and the mask their comparison with zero.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The float word 0.0 as an extended real (kept as the word: both programs spell it so). -/
abbrev zw : EReal := Ideal.ofBits .f32 0x00000000#32

/-- The layer's activation: max(v, 0) for the first layer, the identity for the second. -/
def act (relu : Bool) (v : EReal) : EReal := if relu then max v zw else v

/-- One layer in the kernel's arrangement: the aggregate scaled by the stored reciprocal `inv[r,0]`, the two
    products added first, the bias last. -/
def sageK (relu : Bool) {C : ℕ} (raw x : (⟨2, ![16384, 128]⟩ : Shape).Idx → EReal)
    (inv : (⟨2, ![16384, 1]⟩ : Shape).Idx → EReal) (wl wr : (⟨2, ![128, C]⟩ : Shape).Idx → EReal)
    (b : (⟨1, ![C]⟩ : Shape).Idx → EReal) (r : Fin 16384) (j : Fin C) : EReal :=
  act relu (((∑ k : Fin 128, (raw (ix2 r k) * inv (ix2 r (0 : Fin 1))) * wl (ix2 k j))
      + ∑ k : Fin 128, x (ix2 r k) * wr (ix2 k j)) + b (ix1 j))

/-- One layer in the reference's arrangement: the aggregate divided by `d[r]`, the bias added to the first
    product, the second product last. -/
def sageR (relu : Bool) {C : ℕ} (raw x : (⟨2, ![16384, 128]⟩ : Shape).Idx → EReal)
    (d : (⟨1, ![16384]⟩ : Shape).Idx → EReal) (wl wr : (⟨2, ![128, C]⟩ : Shape).Idx → EReal)
    (b : (⟨1, ![C]⟩ : Shape).Idx → EReal) (r : Fin 16384) (j : Fin C) : EReal :=
  act relu (((∑ k : Fin 128, Ideal.div (raw (ix2 r k)) (d (ix1 r)) * wl (ix2 k j)) + b (ix1 j))
      + ∑ k : Fin 128, x (ix2 r k) * wr (ix2 k j))

/-- On the extended reals the product with the quotient 1 / d is the quotient by d, for every d ≠ 0 (the
    infinities included: their inverse is 0 on both sides). -/
theorem mul_div_one (x d : EReal) (hd : d ≠ 0) : x * Ideal.div 1 d = Ideal.div x d := by
  unfold Ideal.div
  rw [if_neg hd, if_neg hd, one_mul]

/-- The two arrangements of a layer agree when the stored reciprocal is 1 / d[r] and d[r] ≠ 0. -/
theorem sageK_eq_sageR (relu : Bool) {C : ℕ} (raw x : (⟨2, ![16384, 128]⟩ : Shape).Idx → EReal)
    (inv : (⟨2, ![16384, 1]⟩ : Shape).Idx → EReal) (d : (⟨1, ![16384]⟩ : Shape).Idx → EReal)
    (wl wr : (⟨2, ![128, C]⟩ : Shape).Idx → EReal) (b : (⟨1, ![C]⟩ : Shape).Idx → EReal)
    (hinv : ∀ r : Fin 16384, inv (ix2 r (0 : Fin 1)) = Ideal.div 1 (d (ix1 r)))
    (hd : ∀ r : Fin 16384, d (ix1 r) ≠ 0) (r : Fin 16384) (j : Fin C) :
    sageK relu raw x inv wl wr b r j = sageR relu raw x d wl wr b r j := by
  unfold sageK sageR
  congr 1
  have h1 : (∑ k : Fin 128, (raw (ix2 r k) * inv (ix2 r (0 : Fin 1))) * wl (ix2 k j))
      = ∑ k : Fin 128, Ideal.div (raw (ix2 r k)) (d (ix1 r)) * wl (ix2 k j) :=
    Finset.sum_congr rfl fun k _ => by rw [hinv r, mul_div_one _ _ (hd r)]
  rw [h1, add_assoc, add_assoc, add_comm (b (ix1 j))]

/-- A maximum with the real 1 is never 0 (it is at least 1). -/
theorem max_one_ne_zero (v : EReal) : max v ((1 : ℝ) : EReal) ≠ 0 := by
  have h : (0 : EReal) < max v ((1 : ℝ) : EReal) :=
    lt_of_lt_of_le (by exact_mod_cast (zero_lt_one : (0 : ℝ) < 1)) (le_max_right _ _)
  exact ne_of_gt h

/-- The sum of an edge's 64 channel products. -/
def rowSum (f : (⟨2, ![131072, 64]⟩ : Shape).Idx → EReal) (e : Fin 131072) : EReal :=
  ∑ k : Fin 64, f (ix2 e k)

/-- A dense score: the inner product of rows i and j of z. -/
def gram (z : (⟨2, ![16384, 64]⟩ : Shape).Idx → EReal) (i j : Fin 16384) : EReal :=
  ∑ k : Fin 64, z (ix2 i k) * z (ix2 j k)

/-- The mask bit of a score: is it greater than 0. -/
def pos (v : EReal) : BitVec 1 := Ideal.cmp .ogt v zw

end Cert.Spec

end
-- ==== Proof.KI.Pay0.lean ====
/-
  The first layer's stored block read at one element: the two matrix products summed over the 128 input channels, the
  aggregate scaled by the row's stored reciprocal before its product, the bias added last, the maximum with 0.0.
-/
import proofs.«155684_j2405181685928_2_alg».proof.Proof.Gen.KernelIdeal.Skeleton
import proofs.«155684_j2405181685928_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` cast to the row `[1, b]` reads, at `(0, c)`, its entry `c`. -/
theorem shapeCast_b_1b_apply {α : Type} {b : ℕ} (v : (⟨1, ![b]⟩ : Shape).Idx → α)
    (h : (⟨1, ![b]⟩ : Shape).ShapeCasts ⟨2, ![1, b]⟩) (c : Fin b) :
    shapeCast ⟨2, ![1, b]⟩ v h (ix2 (0 : Fin 1) c) = v (ix1 c) := by
  refine shapeCast_apply v h (ix2 (0 : Fin 1) c) (ix1 c) ?_
  rw [Shape.rowMajor_val_one, Shape.rowMajor_val_two]
  show c.val = 0 * b + c.val
  omega

theorem dot0_lhs_0 (i : S2048x128.Idx) (k : dot_S2048x128_S128x128_S2048x128_1_0_0_1_n_n.contr.Idx) :
    (dot_S2048x128_S128x128_S2048x128_1_0_0_1_n_n.lhsIdx i k 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem dot0_lhs_1 (i : S2048x128.Idx) (k : dot_S2048x128_S128x128_S2048x128_1_0_0_1_n_n.contr.Idx) :
    (dot_S2048x128_S128x128_S2048x128_1_0_0_1_n_n.lhsIdx i k 1).val = (k ⟨0, by decide⟩).val :=
  dot_S2048x128_S128x128_S2048x128_1_0_0_1_n_n.lhsIdx_val_of_single rfl i k
theorem dot0_rhs_0 (i : S2048x128.Idx) (k : dot_S2048x128_S128x128_S2048x128_1_0_0_1_n_n.contr.Idx) :
    (dot_S2048x128_S128x128_S2048x128_1_0_0_1_n_n.rhsIdx i k 0).val = (k ⟨0, by decide⟩).val :=
  dot_S2048x128_S128x128_S2048x128_1_0_0_1_n_n.rhsIdx_val_of_single rfl i k
theorem dot0_rhs_1 (i : S2048x128.Idx) (k : dot_S2048x128_S128x128_S2048x128_1_0_0_1_n_n.contr.Idx) :
    (dot_S2048x128_S128x128_S2048x128_1_0_0_1_n_n.rhsIdx i k 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem dot0_matmul_apply (lhs : FVec Ideal S2048x128 .f32) (rhs : FVec Ideal S128x128 .f32) (p : Fin 2048) (q : Fin 128) :
    matmul dot_S2048x128_S128x128_S2048x128_1_0_0_1_n_n none lhs rhs (constant (F := Ideal) S2048x128 .f32 0x00000000#32) (ix2 p q)
      = ∑ k : Fin 128, lhs (ix2 p k) * rhs (ix2 k q) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact dot0_lhs_0 _ _
    | ⟨1, _⟩ => exact (dot0_lhs_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (dot0_rhs_0 _ _).trans hk
    | ⟨1, _⟩ => exact dot0_rhs_1 _ _)
  rw [el, er]

/-- The first layer's stored block at row `p`, channel `q`. -/
theorem pay0_apply (v0 v8 : Vec Ideal S2048x128 .f32) (v2 : Vec Ideal S2048x1 .f32) (v6 v9 : Vec Ideal S128x128 .f32)
    (v12 : Vec Ideal S128 .f32) (p : Fin 2048) (q : Fin 128) :
    k0_pay1 v0 v2 v6 v8 v9 v12 (ix2 p q)
      = max (((∑ k : Fin 128, (v0 (ix2 p k) * v2 (ix2 p (0 : Fin 1))) * v6 (ix2 k q))
          + ∑ k : Fin 128, v8 (ix2 p k) * v9 (ix2 k q)) + v12 (ix1 q)) Cert.Spec.zw := by
  unfold k0_pay1
  rw [shapeCast_self, shapeCast_self]
  refine (maximumf_apply _ _ _).trans ?_
  refine congrArg₂ max ?_ rfl
  refine (addf_apply _ _ _).trans ?_
  refine congrArg₂ (· + ·) ?_ ((broadcastTo_1b_ab_apply _ _ p q).trans (shapeCast_b_1b_apply _ _ q))
  refine (addf_apply _ _ _).trans ?_
  refine congrArg₂ (· + ·) ((dot0_matmul_apply _ _ p q).trans ?_) (dot0_matmul_apply _ _ p q)
  refine Finset.sum_congr rfl fun k _ => ?_
  refine congrArg (· * v6 (ix2 k q)) ?_
  refine (mulf_apply _ _ _).trans ?_
  exact congrArg (v0 (ix2 p k) * ·) (broadcastTo_a1_ab_apply _ _ p k)

end Cert.KernelIdeal.Hand

end
-- ==== Proof.KI.Val0.lean ====
/-
  The first layer's output array after its launch, as one function of the arrays the launch finds: every grid point writes
  back the block of that function its index map names (the payload read at an element, each input block read at the
  rows the point's index map selects), and the eight blocks of 2048 rows tile the array.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import proofs.«155684_j2405181685928_2_alg».proof.Proof.Spec
import proofs.«155684_j2405181685928_2_alg».proof.Proof.KI.Pay0
import proofs.«155684_j2405181685928_2_alg».proof.Proof.KI.Reg0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The index maps over the grid: the three row-blocked inputs and the output are at block row `t`, the weights and the
    bias at their only block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of block `t` is row `2048 t + p` of the array. -/
def row0 (t : Fin cfg0.N) (p : Fin 2048) : Fin 16384 :=
  ⟨t.val * 2048 + p.val, by have h : t.val < 8 := lt_of_lt_of_eq t.isLt N_0; have := p.isLt; omega⟩

theorem emb0_0 (t : Fin cfg0.N) (p : Fin 2048) (k : Fin 128) :
    ((cfg0.win 0).blk t).view.emb (ix2 p k) = ix2 (row0 t p) k := by
  obtain ⟨e0, e1, e2, e3, e4, e5, e6, e7, e8, e9, e10, e11, e12⟩ := idx0 t
  funext a; apply Fin.ext
  match a with
  | ⟨0, _⟩ => show win0_0.index t (0 : Fin 2) * 2048 + 1 * p.val = t.val * 2048 + p.val; omega
  | ⟨1, _⟩ => show win0_0.index t (1 : Fin 2) * 128 + 1 * k.val = k.val; omega

theorem emb0_1 (t : Fin cfg0.N) (p : Fin 2048) (k : Fin 128) :
    ((cfg0.win 1).blk t).view.emb (ix2 p k) = ix2 (row0 t p) k := by
  obtain ⟨e0, e1, e2, e3, e4, e5, e6, e7, e8, e9, e10, e11, e12⟩ := idx0 t
  funext a; apply Fin.ext
  match a with
  | ⟨0, _⟩ => show win0_1.index t (0 : Fin 2) * 2048 + 1 * p.val = t.val * 2048 + p.val; omega
  | ⟨1, _⟩ => show win0_1.index t (1 : Fin 2) * 128 + 1 * k.val = k.val; omega

theorem emb0_2 (t : Fin cfg0.N) (p : Fin 2048) (k : Fin 1) :
    ((cfg0.win 2).blk t).view.emb (ix2 p k) = ix2 (row0 t p) k := by
  obtain ⟨e0, e1, e2, e3, e4, e5, e6, e7, e8, e9, e10, e11, e12⟩ := idx0 t
  funext a; apply Fin.ext
  match a with
  | ⟨0, _⟩ => show win0_2.index t (0 : Fin 2) * 2048 + 1 * p.val = t.val * 2048 + p.val; omega
  | ⟨1, _⟩ => show win0_2.index t (1 : Fin 2) * 1 + 1 * k.val = k.val; omega

theorem emb0_3 (t : Fin cfg0.N) (k : Fin 128) (q : Fin 128) :
    ((cfg0.win 3).blk t).view.emb (ix2 k q) = ix2 k q := by
  obtain ⟨e0, e1, e2, e3, e4, e5, e6, e7, e8, e9, e10, e11, e12⟩ := idx0 t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem emb0_4 (t : Fin cfg0.N) (k : Fin 128) (q : Fin 128) :
    ((cfg0.win 4).blk t).view.emb (ix2 k q) = ix2 k q := by
  obtain ⟨e0, e1, e2, e3, e4, e5, e6, e7, e8, e9, e10, e11, e12⟩ := idx0 t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

theorem emb0_5 (t : Fin cfg0.N) (q : Fin 128) :
    ((cfg0.win 5).blk t).view.emb (ix1 q) = ix1 q := by
  obtain ⟨e0, e1, e2, e3, e4, e5, e6, e7, e8, e9, e10, e11, e12⟩ := idx0 t
  funext a; apply Fin.ext
  match a with
  | ⟨0, _⟩ => show win0_5.index t (0 : Fin 1) * 128 + 1 * q.val = q.val; omega

theorem emb0_6 (t : Fin cfg0.N) (p : Fin 2048) (k : Fin 128) :
    ((cfg0.win 6).blk t).view.emb (ix2 p k) = ix2 (row0 t p) k := by
  obtain ⟨e0, e1, e2, e3, e4, e5, e6, e7, e8, e9, e10, e11, e12⟩ := idx0 t
  funext a; apply Fin.ext
  match a with
  | ⟨0, _⟩ => show win0_6.index t (0 : Fin 2) * 2048 + 1 * p.val = t.val * 2048 + p.val; omega
  | ⟨1, _⟩ => show win0_6.index t (1 : Fin 2) * 128 + 1 * k.val = k.val; omega

theorem iblk0_0_apply (c : Dev nD) (t : Fin cfg0.N) (p : Fin 2048) (k : Fin 128) :
    iblk0 V c 0 t (ix2 p k) = V c main_v22 (ix2 (row0 t p) k) :=
  congrArg (V c main_v22) (emb0_0 t p k)

theorem iblk0_1_apply (c : Dev nD) (t : Fin cfg0.N) (p : Fin 2048) (k : Fin 128) :
    iblk0 V c 1 t (ix2 p k) = V c main_arg0 (ix2 (row0 t p) k) :=
  congrArg (V c main_arg0) (emb0_1 t p k)

theorem iblk0_2_apply (c : Dev nD) (t : Fin cfg0.N) (p : Fin 2048) (k : Fin 1) :
    iblk0 V c 2 t (ix2 p k) = V c main_v12 (ix2 (row0 t p) k) :=
  congrArg (V c main_v12) (emb0_2 t p k)

theorem iblk0_3_apply (c : Dev nD) (t : Fin cfg0.N) (k : Fin 128) (q : Fin 128) :
    iblk0 V c 3 t (ix2 k q) = V c main_arg3 (ix2 k q) :=
  congrArg (V c main_arg3) (emb0_3 t k q)

theorem iblk0_4_apply (c : Dev nD) (t : Fin cfg0.N) (k : Fin 128) (q : Fin 128) :
    iblk0 V c 4 t (ix2 k q) = V c main_arg5 (ix2 k q) :=
  congrArg (V c main_arg5) (emb0_4 t k q)

theorem iblk0_5_apply (c : Dev nD) (t : Fin cfg0.N) (q : Fin 128) :
    iblk0 V c 5 t (ix1 q) = V c main_arg4 (ix1 q) :=
  congrArg (V c main_arg4) (emb0_5 t q)

/-- The layer as one function of the arrays the launch finds, index by index. -/
abbrev G0 (c : Dev nD) : S16384x128.Idx → EReal := fun i =>
  Cert.Spec.sageK true (V c main_v22) (V c main_arg0) (V c main_v12) (V c main_arg3) (V c main_arg5) (V c main_arg4) (i 0) (i 1)

/-- What point `t` writes back is block `t` of `G0`. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 (F := Ideal) V c).after 6 t) = _
  rw [after0_6]
  unfold out0_6
  rw [View.canon_unit_zero hz2]
  simp only [View.ld_unit_zero (S := S2048x128) hz2, View.ld_unit_zero (S := S2048x1) hz2, View.ld_unit_zero (S := S128x128) hz2, View.ld_unit_zero (S := S128) hz1]
  refine funext fun (y : S2048x128.Idx) => ?_
  obtain ⟨p, q, rfl⟩ : ∃ (p : Fin 2048) (q : Fin 128), y = ix2 p q := ⟨y 0, y 1, eq_ix2 y⟩
  show k0_pay1 (iblk0 V c 0 t) (iblk0 V c 2 t) (iblk0 V c 3 t) (iblk0 V c 1 t) (iblk0 V c 4 t) (iblk0 V c 5 t) (ix2 p q)
      = G0 V c (((cfg0.win 6).blk t).view.emb (ix2 p q))
  rw [emb0_6]
  refine (pay0_apply _ _ _ _ _ _ p q).trans ?_
  simp only [iblk0_0_apply, iblk0_1_apply, iblk0_2_apply, iblk0_3_apply, iblk0_4_apply, iblk0_5_apply]
  rfl

/-- An index of the array is in point `t`'s block iff each coordinate is in the block's range on its axis. -/
theorem mem_blk0 (t : Fin cfg0.N) (i : S16384x128.Idx) :
    i ∈ ((cfg0.win 6).blk t).view.set ↔ ∀ a : Fin 2, win0_6.index t a * S2048x128.size a ≤ (i a).val
      ∧ (i a).val < win0_6.index t a * S2048x128.size a + S2048x128.size a := by
  show i ∈ ((View.whole main_v23).slice (win0_6.rect t)).set ↔ _
  rw [View.set_slice_whole, Rect.mem_set_unit]
  exact Iff.rfl

/-- Row `r` of the array is in the block of point `r / 2048`. -/
theorem cover0 (i : S16384x128.Idx) :
    ∃ t : Fin cfg0.N, (cfg0.win 6).flush t = true ∧ i ∈ ((cfg0.win 6).blk t).view.set := by
  have hi0 : (i 0).val < 16384 := (i 0).isLt
  have hi1 : (i 1).val < 128 := (i 1).isLt
  have ht : (i 0).val / 2048 < cfg0.N := by rw [show cfg0.N = 8 from N_0]; omega
  obtain ⟨-, -, -, -, -, -, -, -, -, -, -, e11, e12⟩ := idx0 ⟨(i 0).val / 2048, ht⟩
  refine ⟨⟨(i 0).val / 2048, ht⟩, flush0_6 _, ?_⟩
  rw [mem_blk0]
  intro a
  match a with
  | ⟨0, _⟩ =>
    show win0_6.index ⟨(i 0).val / 2048, ht⟩ (0 : Fin 2) * 2048 ≤ (i 0).val
      ∧ (i 0).val < win0_6.index ⟨(i 0).val / 2048, ht⟩ (0 : Fin 2) * 2048 + 2048
    rw [e11]; show (i 0).val / 2048 * 2048 ≤ (i 0).val ∧ (i 0).val < (i 0).val / 2048 * 2048 + 2048; omega
  | ⟨1, _⟩ =>
    show win0_6.index ⟨(i 0).val / 2048, ht⟩ (1 : Fin 2) * 128 ≤ (i 1).val
      ∧ (i 1).val < win0_6.index ⟨(i 0).val / 2048, ht⟩ (1 : Fin 2) * 128 + 128
    rw [e12]; omega

/-- The output array after the launch is `G0` of the arrays the launch found. -/
theorem final0_arr (c : Dev nD) : (dat0 (F := Ideal) V c).arrAt 6 cfg0.N = G0 V c :=
  (dat0 (F := Ideal) V c).arrAt_eq_of_cover 6 (G0 V c) (fun t _ => flushed0_eq V c t) cover0

/-- The output array after the launch, index by index: the layer in the kernel's arrangement. -/
theorem final0 (c : Dev nD) (r : Fin 16384) (j : Fin 128) :
    (dat0 (F := Ideal) V c).arrAt 6 cfg0.N (ix2 r j)
      = Cert.Spec.sageK true (V c main_v22) (V c main_arg0) (V c main_v12) (V c main_arg3) (V c main_arg5) (V c main_arg4) r j :=
  congrFun (final0_arr V c) (ix2 r j)

end Cert.KernelIdeal.Hand

end
-- ==== Proof.KI.Pay1.lean ====
/-
  The second layer's stored block read at one element: as the first layer's, into 64 channels and without the maximum.
-/
import proofs.«155684_j2405181685928_2_alg».proof.Proof.Gen.KernelIdeal.Skeleton
import proofs.«155684_j2405181685928_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«155684_j2405181685928_2_alg».proof.Proof.KI.Pay0

noncomputable section

namespace Cert.KernelIdeal.Hand

open Cert.KernelIdeal Cert.KernelIdeal.Gen Idealize.ShloMosaic Idealize.ShloMosaic.ValueIdx
open scoped BigOperators

theorem dot1_lhs_0 (i : S2048x64.Idx) (k : dot_S2048x128_S128x64_S2048x64_1_0_0_1_n_n.contr.Idx) :
    (dot_S2048x128_S128x64_S2048x64_1_0_0_1_n_n.lhsIdx i k 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem dot1_lhs_1 (i : S2048x64.Idx) (k : dot_S2048x128_S128x64_S2048x64_1_0_0_1_n_n.contr.Idx) :
    (dot_S2048x128_S128x64_S2048x64_1_0_0_1_n_n.lhsIdx i k 1).val = (k ⟨0, by decide⟩).val :=
  dot_S2048x128_S128x64_S2048x64_1_0_0_1_n_n.lhsIdx_val_of_single rfl i k
theorem dot1_rhs_0 (i : S2048x64.Idx) (k : dot_S2048x128_S128x64_S2048x64_1_0_0_1_n_n.contr.Idx) :
    (dot_S2048x128_S128x64_S2048x64_1_0_0_1_n_n.rhsIdx i k 0).val = (k ⟨0, by decide⟩).val :=
  dot_S2048x128_S128x64_S2048x64_1_0_0_1_n_n.rhsIdx_val_of_single rfl i k
theorem dot1_rhs_1 (i : S2048x64.Idx) (k : dot_S2048x128_S128x64_S2048x64_1_0_0_1_n_n.contr.Idx) :
    (dot_S2048x128_S128x64_S2048x64_1_0_0_1_n_n.rhsIdx i k 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

theorem dot1_matmul_apply (lhs : FVec Ideal S2048x128 .f32) (rhs : FVec Ideal S128x64 .f32) (p : Fin 2048) (q : Fin 64) :
    matmul dot_S2048x128_S128x64_S2048x64_1_0_0_1_n_n none lhs rhs (constant (F := Ideal) S2048x64 .f32 0x00000000#32) (ix2 p q)
      = ∑ k : Fin 128, lhs (ix2 p k) * rhs (ix2 k q) := by
  simp only [matmul]
  rw [Ideal.matmul_constant_zero_apply, ← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 p q) ((contrEquiv1 dot_S2048x128_S128x64_S2048x64_1_0_0_1_n_n 128 rfl rfl).symm k) = ix2 p k := funext fun a => Fin.ext (by
    match a with
    | ⟨0, _⟩ => exact dot1_lhs_0 _ _
    | ⟨1, _⟩ => exact (dot1_lhs_1 _ _).trans hk)
  have er : dot_S2048x128_S128x64_S2048x64_1_0_0_1_n_n.rhsIdx (ix2 p q) ((contrEquiv1 dot_S2048x128_S128x64_S2048x64_1_0_0_1_n_n 128 rfl rfl).symm k) = ix2 k q := funext fun a => Fin.ext (by
    match a with
    | ⟨0, _⟩ => exact (dot1_rhs_0 _ _).trans hk
    | ⟨1, _⟩ => exact dot1_rhs_1 _ _)
  rw [el, er]

/-- The second layer's stored block at row `p`, channel `q`. -/
theorem pay1_apply (v0 v8 : Vec Ideal S2048x128 .f32) (v2 : Vec Ideal S2048x1 .f32) (v6 v10 : Vec Ideal S128x64 .f32)
    (v13 : Vec Ideal S64 .f32) (p : Fin 2048) (q : Fin 64) :
    k1_pay1 v0 v2 v6 v8 v10 v13 (ix2 p q)
      = ((∑ k : Fin 128, (v0 (ix2 p k) * v2 (ix2 p (0 : Fin 1))) * v6 (ix2 k q))
          + ∑ k : Fin 128, v8 (ix2 p k) * v10 (ix2 k q)) + v13 (ix1 q) := by
  unfold k1_pay1
  rw [shapeCast_self, shapeCast_self, shapeCast_self]
  refine (addf_apply _ _ _).trans ?_
  refine congrArg₂ (· + ·) ?_ ((broadcastTo_1b_ab_apply _ _ p q).trans (shapeCast_b_1b_apply _ _ q))
  refine (addf_apply _ _ _).trans ?_
  refine congrArg₂ (· + ·) ((dot1_matmul_apply _ _ p q).trans ?_) (dot1_matmul_apply _ _ p q)
  refine Finset.sum_congr rfl fun k _ => ?_
  refine congrArg (· * v6 (ix2 k q)) ?_
  refine (mulf_apply _ _ _).trans ?_
  exact congrArg (v0 (ix2 p k) * ·) (broadcastTo_a1_ab_apply _ _ p k)

end Cert.KernelIdeal.Hand

end
-- ==== Proof.KI.Val1.lean ====
/-
  The second layer's output array after its launch, as one function of the arrays the launch finds: every grid point writes
  back the block of that function its index map names (the payload read at an element, each input block read at the
  rows the point's index map selects), and the eight blocks of 2048 rows tile the array.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import proofs.«155684_j2405181685928_2_alg».proof.Proof.Spec
import proofs.«155684_j2405181685928_2_alg».proof.Proof.KI.Pay1
import proofs.«155684_j2405181685928_2_alg».proof.Proof.KI.Reg1
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The index maps over the grid: the three row-blocked inputs and the output are at block row `t`, the weights and the
    bias at their only block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of block `t` is row `2048 t + p` of the array. -/
def row1 (t : Fin cfg1.N) (p : Fin 2048) : Fin 16384 :=
  ⟨t.val * 2048 + p.val, by have h : t.val < 8 := lt_of_lt_of_eq t.isLt N_1; have := p.isLt; omega⟩

theorem emb1_0 (t : Fin cfg1.N) (p : Fin 2048) (k : Fin 128) :
    ((cfg1.win 0).blk t).view.emb (ix2 p k) = ix2 (row1 t p) k := by
  obtain ⟨e0, e1, e2, e3, e4, e5, e6, e7, e8, e9, e10, e11, e12⟩ := idx1 t
  funext a; apply Fin.ext
  match a with
  | ⟨0, _⟩ => show win1_0.index t (0 : Fin 2) * 2048 + 1 * p.val = t.val * 2048 + p.val; omega
  | ⟨1, _⟩ => show win1_0.index t (1 : Fin 2) * 128 + 1 * k.val = k.val; omega

theorem emb1_1 (t : Fin cfg1.N) (p : Fin 2048) (k : Fin 128) :
    ((cfg1.win 1).blk t).view.emb (ix2 p k) = ix2 (row1 t p) k := by
  obtain ⟨e0, e1, e2, e3, e4, e5, e6, e7, e8, e9, e10, e11, e12⟩ := idx1 t
  funext a; apply Fin.ext
  match a with
  | ⟨0, _⟩ => show win1_1.index t (0 : Fin 2) * 2048 + 1 * p.val = t.val * 2048 + p.val; omega
  | ⟨1, _⟩ => show win1_1.index t (1 : Fin 2) * 128 + 1 * k.val = k.val; omega

theorem emb1_2 (t : Fin cfg1.N) (p : Fin 2048) (k : Fin 1) :
    ((cfg1.win 2).blk t).view.emb (ix2 p k) = ix2 (row1 t p) k := by
  obtain ⟨e0, e1, e2, e3, e4, e5, e6, e7, e8, e9, e10, e11, e12⟩ := idx1 t
  funext a; apply Fin.ext
  match a with
  | ⟨0, _⟩ => show win1_2.index t (0 : Fin 2) * 2048 + 1 * p.val = t.val * 2048 + p.val; omega
  | ⟨1, _⟩ => show win1_2.index t (1 : Fin 2) * 1 + 1 * k.val = k.val; omega

theorem emb1_3 (t : Fin cfg1.N) (k : Fin 128) (q : Fin 64) :
    ((cfg1.win 3).blk t).view.emb (ix2 k q) = ix2 k q := by
  obtain ⟨e0, e1, e2, e3, e4, e5, e6, e7, e8, e9, e10, e11, e12⟩ := idx1 t
  funext a; apply Fin.ext
  match a with
  | ⟨0, _⟩ => show win1_3.index t (0 : Fin 2) * 128 + 1 * k.val = k.val; omega
  | ⟨1, _⟩ => show win1_3.index t (1 : Fin 2) * 64 + 1 * q.val = q.val; omega

theorem emb1_4 (t : Fin cfg1.N) (k : Fin 128) (q : Fin 64) :
    ((cfg1.win 4).blk t).view.emb (ix2 k q) = ix2 k q := by
  obtain ⟨e0, e1, e2, e3, e4, e5, e6, e7, e8, e9, e10, e11, e12⟩ := idx1 t
  funext a; apply Fin.ext
  match a with
  | ⟨0, _⟩ => show win1_4.index t (0 : Fin 2) * 128 + 1 * k.val = k.val; omega
  | ⟨1, _⟩ => show win1_4.index t (1 : Fin 2) * 64 + 1 * q.val = q.val; omega

theorem emb1_5 (t : Fin cfg1.N) (q : Fin 64) :
    ((cfg1.win 5).blk t).view.emb (ix1 q) = ix1 q := by
  obtain ⟨e0, e1, e2, e3, e4, e5, e6, e7, e8, e9, e10, e11, e12⟩ := idx1 t
  funext a; apply Fin.ext
  match a with
  | ⟨0, _⟩ => show win1_5.index t (0 : Fin 1) * 64 + 1 * q.val = q.val; omega

theorem emb1_6 (t : Fin cfg1.N) (p : Fin 2048) (k : Fin 64) :
    ((cfg1.win 6).blk t).view.emb (ix2 p k) = ix2 (row1 t p) k := by
  obtain ⟨e0, e1, e2, e3, e4, e5, e6, e7, e8, e9, e10, e11, e12⟩ := idx1 t
  funext a; apply Fin.ext
  match a with
  | ⟨0, _⟩ => show win1_6.index t (0 : Fin 2) * 2048 + 1 * p.val = t.val * 2048 + p.val; omega
  | ⟨1, _⟩ => show win1_6.index t (1 : Fin 2) * 64 + 1 * k.val = k.val; omega

theorem iblk1_0_apply (c : Dev nD) (t : Fin cfg1.N) (p : Fin 2048) (k : Fin 128) :
    iblk1 V c 0 t (ix2 p k) = V c main_v33 (ix2 (row1 t p) k) :=
  congrArg (V c main_v33) (emb1_0 t p k)

theorem iblk1_1_apply (c : Dev nD) (t : Fin cfg1.N) (p : Fin 2048) (k : Fin 128) :
    iblk1 V c 1 t (ix2 p k) = V c main_v23 (ix2 (row1 t p) k) :=
  congrArg (V c main_v23) (emb1_1 t p k)

theorem iblk1_2_apply (c : Dev nD) (t : Fin cfg1.N) (p : Fin 2048) (k : Fin 1) :
    iblk1 V c 2 t (ix2 p k) = V c main_v12 (ix2 (row1 t p) k) :=
  congrArg (V c main_v12) (emb1_2 t p k)

theorem iblk1_3_apply (c : Dev nD) (t : Fin cfg1.N) (k : Fin 128) (q : Fin 64) :
    iblk1 V c 3 t (ix2 k q) = V c main_arg6 (ix2 k q) :=
  congrArg (V c main_arg6) (emb1_3 t k q)

theorem iblk1_4_apply (c : Dev nD) (t : Fin cfg1.N) (k : Fin 128) (q : Fin 64) :
    iblk1 V c 4 t (ix2 k q) = V c main_arg8 (ix2 k q) :=
  congrArg (V c main_arg8) (emb1_4 t k q)

theorem iblk1_5_apply (c : Dev nD) (t : Fin cfg1.N) (q : Fin 64) :
    iblk1 V c 5 t (ix1 q) = V c main_arg7 (ix1 q) :=
  congrArg (V c main_arg7) (emb1_5 t q)

/-- The layer as one function of the arrays the launch finds, index by index. -/
abbrev G1 (c : Dev nD) : S16384x64.Idx → EReal := fun i =>
  Cert.Spec.sageK false (V c main_v33) (V c main_v23) (V c main_v12) (V c main_arg6) (V c main_arg8) (V c main_arg7) (i 0) (i 1)

/-- What point `t` writes back is block `t` of `G1`. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz2]
  simp only [View.ld_unit_zero (S := S2048x128) hz2, View.ld_unit_zero (S := S2048x1) hz2, View.ld_unit_zero (S := S128x64) hz2, View.ld_unit_zero (S := S64) hz1]
  refine funext fun (y : S2048x64.Idx) => ?_
  obtain ⟨p, q, rfl⟩ : ∃ (p : Fin 2048) (q : Fin 64), y = ix2 p q := ⟨y 0, y 1, eq_ix2 y⟩
  show k1_pay1 (iblk1 V c 0 t) (iblk1 V c 2 t) (iblk1 V c 3 t) (iblk1 V c 1 t) (iblk1 V c 4 t) (iblk1 V c 5 t) (ix2 p q)
      = G1 V c (((cfg1.win 6).blk t).view.emb (ix2 p q))
  rw [emb1_6]
  refine (pay1_apply _ _ _ _ _ _ p q).trans ?_
  simp only [iblk1_0_apply, iblk1_1_apply, iblk1_2_apply, iblk1_3_apply, iblk1_4_apply, iblk1_5_apply]
  rfl

/-- An index of the array is in point `t`'s block iff each coordinate is in the block's range on its axis. -/
theorem mem_blk1 (t : Fin cfg1.N) (i : S16384x64.Idx) :
    i ∈ ((cfg1.win 6).blk t).view.set ↔ ∀ a : Fin 2, win1_6.index t a * S2048x64.size a ≤ (i a).val
      ∧ (i a).val < win1_6.index t a * S2048x64.size a + S2048x64.size a := by
  show i ∈ ((View.whole main_v34).slice (win1_6.rect t)).set ↔ _
  rw [View.set_slice_whole, Rect.mem_set_unit]
  exact Iff.rfl

/-- Row `r` of the array is in the block of point `r / 2048`. -/
theorem cover1 (i : S16384x64.Idx) :
    ∃ t : Fin cfg1.N, (cfg1.win 6).flush t = true ∧ i ∈ ((cfg1.win 6).blk t).view.set := by
  have hi0 : (i 0).val < 16384 := (i 0).isLt
  have hi1 : (i 1).val < 64 := (i 1).isLt
  have ht : (i 0).val / 2048 < cfg1.N := by rw [show cfg1.N = 8 from N_1]; omega
  obtain ⟨-, -, -, -, -, -, -, -, -, -, -, e11, e12⟩ := idx1 ⟨(i 0).val / 2048, ht⟩
  refine ⟨⟨(i 0).val / 2048, ht⟩, flush1_6 _, ?_⟩
  rw [mem_blk1]
  intro a
  match a with
  | ⟨0, _⟩ =>
    show win1_6.index ⟨(i 0).val / 2048, ht⟩ (0 : Fin 2) * 2048 ≤ (i 0).val
      ∧ (i 0).val < win1_6.index ⟨(i 0).val / 2048, ht⟩ (0 : Fin 2) * 2048 + 2048
    rw [e11]; show (i 0).val / 2048 * 2048 ≤ (i 0).val ∧ (i 0).val < (i 0).val / 2048 * 2048 + 2048; omega
  | ⟨1, _⟩ =>
    show win1_6.index ⟨(i 0).val / 2048, ht⟩ (1 : Fin 2) * 64 ≤ (i 1).val
      ∧ (i 1).val < win1_6.index ⟨(i 0).val / 2048, ht⟩ (1 : Fin 2) * 64 + 64
    rw [e12]; omega

/-- The output array after the launch is `G1` of the arrays the launch found. -/
theorem final1_arr (c : Dev nD) : (dat1 (F := Ideal) V c).arrAt 6 cfg1.N = G1 V c :=
  (dat1 (F := Ideal) V c).arrAt_eq_of_cover 6 (G1 V c) (fun t _ => flushed1_eq V c t) cover1

/-- The output array after the launch, index by index: the layer in the kernel's arrangement. -/
theorem final1 (c : Dev nD) (r : Fin 16384) (j : Fin 64) :
    (dat1 (F := Ideal) V c).arrAt 6 cfg1.N (ix2 r j)
      = Cert.Spec.sageK false (V c main_v33) (V c main_v23) (V c main_v12) (V c main_arg6) (V c main_arg8) (V c main_arg7) r j :=
  congrFun (final1_arr V c) (ix2 r j)

end Cert.KernelIdeal.Hand

end
-- ==== Proof.KI.Pay2.lean ====
/-
  The edge kernel's two stored blocks read at one element: the product of the two gathered rows channel by channel, and the
  sum of an edge's 64 channel products.
-/
import proofs.«155684_j2405181685928_2_alg».proof.Proof.Gen.KernelIdeal.Skeleton
import proofs.«155684_j2405181685928_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- The stored products at edge `p`, channel `q`. -/
theorem pay2_1_apply (v0 v2 : Vec Ideal S4096x64 .f32) (p : Fin 4096) (q : Fin 64) :
    k2_pay1 v0 v2 (ix2 p q) = v0 (ix2 p q) * v2 (ix2 p q) := by
  unfold k2_pay1
  rw [shapeCast_self, shapeCast_self]
  exact mulf_apply _ _ _

/-- The lane sum over the second axis of a `[4096, 64]` block, at row `p`. -/
theorem laneSum_apply (src : FVec Ideal S4096x64 .f32) (hφ : FKind.Formats .f32)
    (hacc : (0x00000000#32 : BitVec 32) = 0x00000000#32) (p : Fin 4096) :
    multiReduction .add [1] S4096 src 0x00000000#32 reduces_S4096x64_S4096 hφ hacc (ix1 p)
      = ∑ k : Fin 64, src (ix2 p k) := by
  refine (Ideal.multiReduction_add_single src 0x00000000#32 reduces_S4096x64_S4096 hφ hacc (ix1 p)).trans ?_
  refine Finset.sum_congr rfl fun k _ => ?_
  refine congrArg src (funext fun a => Fin.ext ?_)
  match a with
  | ⟨0, _⟩ => rfl
  | ⟨1, _⟩ => rfl

/-- The stored sums at edge `p`. -/
theorem pay2_2_apply (v0 v2 : Vec Ideal S4096x64 .f32) (p : Fin 4096) :
    k2_pay2 v0 v2 (ix1 p) = ∑ k : Fin 64, v0 (ix2 p k) * v2 (ix2 p k) := by
  unfold k2_pay2
  refine (laneSum_apply (k2_pay1 v0 v2) (.inl rfl) rfl p).trans ?_
  exact Finset.sum_congr rfl fun k _ => pay2_1_apply v0 v2 p k

end Cert.KernelIdeal.Hand

end
-- ==== Proof.KI.Val2.lean ====
/-
  The edge kernel's two output arrays after its launch, as functions of the two gathered arrays the launch finds: every grid
  point writes back the blocks of those functions its index maps name, and the 32 blocks of 4096 edges tile each array.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import proofs.«155684_j2405181685928_2_alg».proof.Proof.Spec
import proofs.«155684_j2405181685928_2_alg».proof.Proof.KI.Pay2
import proofs.«155684_j2405181685928_2_alg».proof.Proof.KI.Reg2
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The index maps over the grid: all four windows are at block row `t`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = t.val :=
  (by decide +kernel : ∀ t : Fin grid2.N, _)

/-- Edge `p` of block `t` is edge `4096 t + p` of the array. -/
def row2 (t : Fin cfg2.N) (p : Fin 4096) : Fin 131072 :=
  ⟨t.val * 4096 + p.val, by have h : t.val < 32 := lt_of_lt_of_eq t.isLt N_2; have := p.isLt; omega⟩

theorem emb2_0 (t : Fin cfg2.N) (p : Fin 4096) (k : Fin 64) :
    ((cfg2.win 0).blk t).view.emb (ix2 p k) = ix2 (row2 t p) k := by
  obtain ⟨e0, e1, e2, e3, e4, e5, e6⟩ := idx2 t
  funext a; apply Fin.ext
  match a with
  | ⟨0, _⟩ => show win2_0.index t (0 : Fin 2) * 4096 + 1 * p.val = t.val * 4096 + p.val; omega
  | ⟨1, _⟩ => show win2_0.index t (1 : Fin 2) * 64 + 1 * k.val = k.val; omega

theorem emb2_1 (t : Fin cfg2.N) (p : Fin 4096) (k : Fin 64) :
    ((cfg2.win 1).blk t).view.emb (ix2 p k) = ix2 (row2 t p) k := by
  obtain ⟨e0, e1, e2, e3, e4, e5, e6⟩ := idx2 t
  funext a; apply Fin.ext
  match a with
  | ⟨0, _⟩ => show win2_1.index t (0 : Fin 2) * 4096 + 1 * p.val = t.val * 4096 + p.val; omega
  | ⟨1, _⟩ => show win2_1.index t (1 : Fin 2) * 64 + 1 * k.val = k.val; omega

theorem emb2_2 (t : Fin cfg2.N) (p : Fin 4096) (k : Fin 64) :
    ((cfg2.win 2).blk t).view.emb (ix2 p k) = ix2 (row2 t p) k := by
  obtain ⟨e0, e1, e2, e3, e4, e5, e6⟩ := idx2 t
  funext a; apply Fin.ext
  match a with
  | ⟨0, _⟩ => show win2_2.index t (0 : Fin 2) * 4096 + 1 * p.val = t.val * 4096 + p.val; omega
  | ⟨1, _⟩ => show win2_2.index t (1 : Fin 2) * 64 + 1 * k.val = k.val; omega

theorem emb2_3 (t : Fin cfg2.N) (p : Fin 4096) :
    ((cfg2.win 3).blk t).view.emb (ix1 p) = ix1 (row2 t p) := by
  obtain ⟨e0, e1, e2, e3, e4, e5, e6⟩ := idx2 t
  funext a; apply Fin.ext
  match a with
  | ⟨0, _⟩ => show win2_3.index t (0 : Fin 1) * 4096 + 1 * p.val = t.val * 4096 + p.val; omega

theorem iblk2_0_apply (c : Dev nD) (t : Fin cfg2.N) (p : Fin 4096) (k : Fin 64) :
    iblk2 V c 0 t (ix2 p k) = V c main_v45 (ix2 (row2 t p) k) :=
  congrArg (V c main_v45) (emb2_0 t p k)

theorem iblk2_1_apply (c : Dev nD) (t : Fin cfg2.N) (p : Fin 4096) (k : Fin 64) :
    iblk2 V c 1 t (ix2 p k) = V c main_v52 (ix2 (row2 t p) k) :=
  congrArg (V c main_v52) (emb2_1 t p k)

/-- The two gathered arrays the launch finds, as functions to the extended reals. -/
abbrev zsrc (c : Dev nD) : S131072x64.Idx → EReal := V c main_v45
abbrev zdst (c : Dev nD) : S131072x64.Idx → EReal := V c main_v52

/-- The products as one function of the two gathered arrays, index by index. -/
abbrev Gmul (c : Dev nD) : S131072x64.Idx → EReal := fun i => zsrc V c i * zdst V c i

/-- The sums as one function of the two gathered arrays, index by index. -/
abbrev Gsum (c : Dev nD) : S131072.Idx → EReal := fun i =>
  Cert.Spec.rowSum (fun i => zsrc V c i * zdst V c i) (i 0)

/-- What point `t` writes back to the products is block `t` of `Gmul`. -/
theorem flushed2_2_eq (c : Dev nD) (t : Fin cfg2.N) :
    (dat2 (F := Ideal) V c).flushed 2 t = ((cfg2.win 2).blk t).view.read (Elt Ideal) (Gmul V c) := by
  show (cfg2.win 2).cut (grid2.coords t) ((dat2 (F := Ideal) V c).after 2 t) = _
  rw [after2_2]
  unfold out2_2
  rw [View.canon_unit_zero hz2]
  simp only [View.ld_unit_zero (S := S4096x64) hz2]
  refine funext fun (y : S4096x64.Idx) => ?_
  obtain ⟨p, q, rfl⟩ : ∃ (p : Fin 4096) (q : Fin 64), y = ix2 p q := ⟨y 0, y 1, eq_ix2 y⟩
  show k2_pay1 (iblk2 V c 0 t) (iblk2 V c 1 t) (ix2 p q) = Gmul V c (((cfg2.win 2).blk t).view.emb (ix2 p q))
  rw [emb2_2]
  refine (pay2_1_apply _ _ p q).trans ?_
  rw [iblk2_0_apply, iblk2_1_apply]

/-- What point `t` writes back to the sums is block `t` of `Gsum`. -/
theorem flushed2_3_eq (c : Dev nD) (t : Fin cfg2.N) :
    (dat2 (F := Ideal) V c).flushed 3 t = ((cfg2.win 3).blk t).view.read (Elt Ideal) (Gsum V c) := by
  show (cfg2.win 3).cut (grid2.coords t) ((dat2 (F := Ideal) V c).after 3 t) = _
  rw [after2_3]
  unfold out2_3
  rw [View.canon_unit_zero hz1]
  simp only [View.ld_unit_zero (S := S4096x64) hz2]
  refine funext fun (y : S4096.Idx) => ?_
  obtain ⟨p, rfl⟩ : ∃ (p : Fin 4096), y = ix1 p := ⟨y 0, eq_ix1 y⟩
  show k2_pay2 (iblk2 V c 0 t) (iblk2 V c 1 t) (ix1 p) = Gsum V c (((cfg2.win 3).blk t).view.emb (ix1 p))
  rw [emb2_3]
  refine (pay2_2_apply _ _ p).trans ?_
  simp only [iblk2_0_apply, iblk2_1_apply]
  rfl

theorem mem_blk2_2 (t : Fin cfg2.N) (i : S131072x64.Idx) :
    i ∈ ((cfg2.win 2).blk t).view.set ↔ ∀ a : Fin 2, win2_2.index t a * S4096x64.size a ≤ (i a).val
      ∧ (i a).val < win2_2.index t a * S4096x64.size a + S4096x64.size a := by
  show i ∈ ((View.whole main_v53_0).slice (win2_2.rect t)).set ↔ _
  rw [View.set_slice_whole, Rect.mem_set_unit]
  exact Iff.rfl

theorem mem_blk2_3 (t : Fin cfg2.N) (i : S131072.Idx) :
    i ∈ ((cfg2.win 3).blk t).view.set ↔ ∀ a : Fin 1, win2_3.index t a * S4096.size a ≤ (i a).val
      ∧ (i a).val < win2_3.index t a * S4096.size a + S4096.size a := by
  show i ∈ ((View.whole main_v53_1).slice (win2_3.rect t)).set ↔ _
  rw [View.set_slice_whole, Rect.mem_set_unit]
  exact Iff.rfl

/-- Edge `e` of the products is in the block of point `e / 4096`. -/
theorem cover2_2 (i : S131072x64.Idx) :
    ∃ t : Fin cfg2.N, (cfg2.win 2).flush t = true ∧ i ∈ ((cfg2.win 2).blk t).view.set := by
  have hi0 : (i 0).val < 131072 := (i 0).isLt
  have hi1 : (i 1).val < 64 := (i 1).isLt
  have ht : (i 0).val / 4096 < cfg2.N := by rw [show cfg2.N = 32 from N_2]; omega
  obtain ⟨-, -, -, -, e4, e5, -⟩ := idx2 ⟨(i 0).val / 4096, ht⟩
  refine ⟨⟨(i 0).val / 4096, ht⟩, flush2_2 _, ?_⟩
  rw [mem_blk2_2]
  intro a
  match a with
  | ⟨0, _⟩ =>
    show win2_2.index ⟨(i 0).val / 4096, ht⟩ (0 : Fin 2) * 4096 ≤ (i 0).val
      ∧ (i 0).val < win2_2.index ⟨(i 0).val / 4096, ht⟩ (0 : Fin 2) * 4096 + 4096
    rw [e4]; show (i 0).val / 4096 * 4096 ≤ (i 0).val ∧ (i 0).val < (i 0).val / 4096 * 4096 + 4096; omega
  | ⟨1, _⟩ =>
    show win2_2.index ⟨(i 0).val / 4096, ht⟩ (1 : Fin 2) * 64 ≤ (i 1).val
      ∧ (i 1).val < win2_2.index ⟨(i 0).val / 4096, ht⟩ (1 : Fin 2) * 64 + 64
    rw [e5]; omega

/-- Edge `e` of the sums is in the block of point `e / 4096`. -/
theorem cover2_3 (i : S131072.Idx) :
    ∃ t : Fin cfg2.N, (cfg2.win 3).flush t = true ∧ i ∈ ((cfg2.win 3).blk t).view.set := by
  have hi0 : (i 0).val < 131072 := (i 0).isLt
  have ht : (i 0).val / 4096 < cfg2.N := by rw [show cfg2.N = 32 from N_2]; omega
  obtain ⟨-, -, -, -, -, -, e6⟩ := idx2 ⟨(i 0).val / 4096, ht⟩
  refine ⟨⟨(i 0).val / 4096, ht⟩, flush2_3 _, ?_⟩
  rw [mem_blk2_3]
  intro a
  match a with
  | ⟨0, _⟩ =>
    show win2_3.index ⟨(i 0).val / 4096, ht⟩ (0 : Fin 1) * 4096 ≤ (i 0).val
      ∧ (i 0).val < win2_3.index ⟨(i 0).val / 4096, ht⟩ (0 : Fin 1) * 4096 + 4096
    rw [e6]; show (i 0).val / 4096 * 4096 ≤ (i 0).val ∧ (i 0).val < (i 0).val / 4096 * 4096 + 4096; omega

theorem final2_2_arr (c : Dev nD) : (dat2 (F := Ideal) V c).arrAt 2 cfg2.N = Gmul V c :=
  (dat2 (F := Ideal) V c).arrAt_eq_of_cover 2 (Gmul V c) (fun t _ => flushed2_2_eq V c t) cover2_2

theorem final2_3_arr (c : Dev nD) : (dat2 (F := Ideal) V c).arrAt 3 cfg2.N = Gsum V c :=
  (dat2 (F := Ideal) V c).arrAt_eq_of_cover 3 (Gsum V c) (fun t _ => flushed2_3_eq V c t) cover2_3

/-- The products' array after the launch, index by index. -/
theorem final2_2 (c : Dev nD) (e : Fin 131072) (k : Fin 64) :
    (dat2 (F := Ideal) V c).arrAt 2 cfg2.N (ix2 e k) = zsrc V c (ix2 e k) * zdst V c (ix2 e k) :=
  congrFun (final2_2_arr V c) (ix2 e k)

/-- The sums' array after the launch, index by index. -/
theorem final2_3 (c : Dev nD) (e : Fin 131072) :
    (dat2 (F := Ideal) V c).arrAt 3 cfg2.N (ix1 e) = Cert.Spec.rowSum (fun i => zsrc V c i * zdst V c i) e :=
  congrFun (final2_3_arr V c) (ix1 e)

end Cert.KernelIdeal.Hand

end
-- ==== Proof.KI.Pay3.lean ====
/-
  The dense-score kernel's two stored blocks read at one element: the inner product of a row of the row block with a row of
  the slice of z, over the 64 channels, and the score's comparison with 0.0 widened to a 32-bit word.
-/
import proofs.«155684_j2405181685928_2_alg».proof.Proof.Gen.KernelIdeal.Skeleton
import proofs.«155684_j2405181685928_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

theorem dot3_lhs_0 (i : S1024x1024.Idx) (k : dot_S1024x64_S1024x64_S1024x1024_1_1_0_0_n_n.contr.Idx) :
    (dot_S1024x64_S1024x64_S1024x1024_1_1_0_0_n_n.lhsIdx i k 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem dot3_lhs_1 (i : S1024x1024.Idx) (k : dot_S1024x64_S1024x64_S1024x1024_1_1_0_0_n_n.contr.Idx) :
    (dot_S1024x64_S1024x64_S1024x1024_1_1_0_0_n_n.lhsIdx i k 1).val = (k ⟨0, by decide⟩).val :=
  dot_S1024x64_S1024x64_S1024x1024_1_1_0_0_n_n.lhsIdx_val_of_single rfl i k
theorem dot3_rhs_1 (i : S1024x1024.Idx) (k : dot_S1024x64_S1024x64_S1024x1024_1_1_0_0_n_n.contr.Idx) :
    (dot_S1024x64_S1024x64_S1024x1024_1_1_0_0_n_n.rhsIdx i k 1).val = (k ⟨0, by decide⟩).val :=
  dot_S1024x64_S1024x64_S1024x1024_1_1_0_0_n_n.rhsIdx_val_of_single rfl i k
theorem dot3_rhs_0 (i : S1024x1024.Idx) (k : dot_S1024x64_S1024x64_S1024x1024_1_1_0_0_n_n.contr.Idx) :
    (dot_S1024x64_S1024x64_S1024x1024_1_1_0_0_n_n.rhsIdx i k 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl

theorem dot3_matmul_apply (lhs : FVec Ideal S1024x64 .f32) (rhs : FVec Ideal S1024x64 .f32) (p : Fin 1024) (q : Fin 1024) :
    matmul dot_S1024x64_S1024x64_S1024x1024_1_1_0_0_n_n (some .fp32) lhs rhs (constant (F := Ideal) S1024x1024 .f32 0x00000000#32) (ix2 p q)
      = ∑ k : Fin 64, lhs (ix2 p k) * rhs (ix2 q k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact dot3_lhs_0 _ _
    | ⟨1, _⟩ => exact (dot3_lhs_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact dot3_rhs_0 _ _
    | ⟨1, _⟩ => exact (dot3_rhs_1 _ _).trans hk)
  rw [el, er]

/-- The stored scores at `(p, q)`: row `p` of the row block against row `q` of the slice. -/
theorem pay3_1_apply (v3 v5 : Vec Ideal S1024x64 .f32) (p q : Fin 1024) :
    k3_pay1 v3 v5 (ix2 p q) = ∑ k : Fin 64, v5 (ix2 p k) * v3 (ix2 q k) := by
  unfold k3_pay1
  rw [shapeCast_self, shapeCast_self]
  exact dot3_matmul_apply _ _ p q

/-- The stored mask at `(p, q)`: the bit "the score is greater than 0.0", zero-extended to 32 bits. -/
theorem pay3_2_apply (v3 v5 : Vec Ideal S1024x64 .f32) (p q : Fin 1024) :
    k3_pay2 v3 v5 (ix2 p q) = (Cert.Spec.pos (∑ k : Fin 64, v5 (ix2 p k) * v3 (ix2 q k))).setWidth 32 := by
  unfold k3_pay2
  show (Ideal.cmp .ogt (k3_pay1 v3 v5 (ix2 p q)) Cert.Spec.zw).setWidth 32 = _
  rw [pay3_1_apply]
  rfl

end Cert.KernelIdeal.Hand

end
-- ==== Proof.KI.Val3.lean ====
/-
  The dense-score kernel's two output arrays after its launch, as functions of the array z the launch finds: the point
  (i, j) of the 16 × 16 grid writes back tile (i, j) of the Gram matrix of z (rows 1024 i … of z against rows 1024 j …,
  the latter cut out of the staged copy of z at the offset the body computes) and of its comparison with 0, and the 256
  tiles of 1024 × 1024 tile each array.
-/
import proofs.«155684_j2405181685928_2_alg».proof.Proof.Gen.KernelIdeal.Launch
import proofs.«155684_j2405181685928_2_alg».proof.Proof.Gen.KernelIdeal.Skeleton
import proofs.«155684_j2405181685928_2_alg».proof.Proof.Gen.KernelIdeal.Points
import proofs.«155684_j2405181685928_2_alg».proof.Proof.Spec
import proofs.«155684_j2405181685928_2_alg».proof.Proof.KI.Pay3
import proofs.«155684_j2405181685928_2_alg».proof.Proof.KI.Reg3
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

private theorem hz2 : (![0, 0] : Fin 2 → Nat) = fun _ => 0 := funext fun a => by fin_cases a <;> rfl

/-- The index maps and the body's slice offset over the grid: point `t` is tile (t / 16, t % 16); the row block is block
    row t / 16, the copy of z its only block, the slice starts at row 1024 (t % 16). -/
theorem idx3 : ∀ t : Fin cfg3.N, win3_0.index t (0 : Fin 2) = t.val / 16 ∧ win3_0.index t (1 : Fin 2) = 0
    ∧ win3_1.index t (0 : Fin 2) = 0 ∧ win3_1.index t (1 : Fin 2) = 0
    ∧ win3_2.index t (0 : Fin 2) = t.val / 16 ∧ win3_2.index t (1 : Fin 2) = t.val % 16
    ∧ win3_3.index t (0 : Fin 2) = t.val / 16 ∧ win3_3.index t (1 : Fin 2) = t.val % 16
    ∧ k3_off1 (grid3.coords t) (0 : Fin 2) = t.val % 16 * 1024 ∧ k3_off1 (grid3.coords t) (1 : Fin 2) = 0 :=
  (by decide +kernel : ∀ t : Fin grid3.N, _)

/-- Row `p` of tile row `t / 16` is row `1024 (t / 16) + p` of the array. -/
def rowI (t : Fin cfg3.N) (p : Fin 1024) : Fin 16384 :=
  ⟨t.val / 16 * 1024 + p.val, by have h : t.val < 256 := lt_of_lt_of_eq t.isLt N_3; have := p.isLt; omega⟩

/-- Column `q` of tile column `t % 16` is column `1024 (t % 16) + q` of the array. -/
def rowJ (t : Fin cfg3.N) (q : Fin 1024) : Fin 16384 :=
  ⟨t.val % 16 * 1024 + q.val, by have := q.isLt; omega⟩

theorem emb3_0 (t : Fin cfg3.N) (p : Fin 1024) (k : Fin 64) :
    ((cfg3.win 0).blk t).view.emb (ix2 p k) = ix2 (rowI t p) k := by
  obtain ⟨e0, e1, e2, e3, e4, e5, e6, e7, e8, e9⟩ := idx3 t
  funext a; apply Fin.ext
  match a with
  | ⟨0, _⟩ => show win3_0.index t (0 : Fin 2) * 1024 + 1 * p.val = t.val / 16 * 1024 + p.val; omega
  | ⟨1, _⟩ => show win3_0.index t (1 : Fin 2) * 64 + 1 * k.val = k.val; omega

theorem emb3_1 (t : Fin cfg3.N) (r : Fin 16384) (k : Fin 64) :
    ((cfg3.win 1).blk t).view.emb (ix2 r k) = ix2 r k := by
  obtain ⟨e0, e1, e2, e3, e4, e5, e6, e7, e8, e9⟩ := idx3 t
  funext a; apply Fin.ext
  match a with
  | ⟨0, _⟩ => show win3_1.index t (0 : Fin 2) * 16384 + 1 * r.val = r.val; omega
  | ⟨1, _⟩ => show win3_1.index t (1 : Fin 2) * 64 + 1 * k.val = k.val; omega

theorem emb3_2 (t : Fin cfg3.N) (p q : Fin 1024) :
    ((cfg3.win 2).blk t).view.emb (ix2 p q) = ix2 (rowI t p) (rowJ t q) := by
  obtain ⟨e0, e1, e2, e3, e4, e5, e6, e7, e8, e9⟩ := idx3 t
  funext a; apply Fin.ext
  match a with
  | ⟨0, _⟩ => show win3_2.index t (0 : Fin 2) * 1024 + 1 * p.val = t.val / 16 * 1024 + p.val; omega
  | ⟨1, _⟩ => show win3_2.index t (1 : Fin 2) * 1024 + 1 * q.val = t.val % 16 * 1024 + q.val; omega

theorem emb3_3 (t : Fin cfg3.N) (p q : Fin 1024) :
    ((cfg3.win 3).blk t).view.emb (ix2 p q) = ix2 (rowI t p) (rowJ t q) := by
  obtain ⟨e0, e1, e2, e3, e4, e5, e6, e7, e8, e9⟩ := idx3 t
  funext a; apply Fin.ext
  match a with
  | ⟨0, _⟩ => show win3_3.index t (0 : Fin 2) * 1024 + 1 * p.val = t.val / 16 * 1024 + p.val; omega
  | ⟨1, _⟩ => show win3_3.index t (1 : Fin 2) * 1024 + 1 * q.val = t.val % 16 * 1024 + q.val; omega

/-- The body's slice of the staged copy of z at point `t`: row `q` of the slice is row `1024 (t % 16) + q` of z. -/
theorem colRows_emb (t : Fin cfg3.N) (q : Fin 1024) (k : Fin 64) :
    (colRows (grid3.coords t)).emb (ix2 q k) = ix2 (rowJ t q) k := by
  obtain ⟨e0, e1, e2, e3, e4, e5, e6, e7, e8, e9⟩ := idx3 t
  funext a; apply Fin.ext
  match a with
  | ⟨0, _⟩ => show k3_off1 (grid3.coords t) (0 : Fin 2) + 1 * q.val = t.val % 16 * 1024 + q.val; omega
  | ⟨1, _⟩ => show k3_off1 (grid3.coords t) (1 : Fin 2) + 1 * k.val = k.val; omega

theorem iblk3_0_apply (c : Dev nD) (t : Fin cfg3.N) (p : Fin 1024) (k : Fin 64) :
    iblk3 V c 0 t (ix2 p k) = V c main_v34 (ix2 (rowI t p) k) :=
  congrArg (V c main_v34) (emb3_0 t p k)

theorem iblk3_1_apply (c : Dev nD) (t : Fin cfg3.N) (r : Fin 16384) (k : Fin 64) :
    iblk3 V c 1 t (ix2 r k) = V c main_v34 (ix2 r k) :=
  congrArg (V c main_v34) (emb3_1 t r k)

/-- The slice of the staged copy read at (q, k) is z at (1024 (t % 16) + q, k). -/
theorem slice_apply (c : Dev nD) (t : Fin cfg3.N) (q : Fin 1024) (k : Fin 64) :
    View.ld (iblk3 V c 1 t) (colRows (grid3.coords t)) (ix2 q k) = V c main_v34 (ix2 (rowJ t q) k) := by
  show iblk3 V c 1 t ((colRows (grid3.coords t)).emb (ix2 q k)) = _
  rw [colRows_emb, iblk3_1_apply]

/-- The scores as one function of z, index by index. -/
abbrev Ggram (c : Dev nD) : S16384x16384.Idx → EReal := fun i =>
  Cert.Spec.gram (V c main_v34 : S16384x64.Idx → EReal) (i 0) (i 1)

/-- The mask as one function of z, index by index. -/
abbrev Gmask (c : Dev nD) : S16384x16384.Idx → BitVec 32 := fun i =>
  (Cert.Spec.pos (Cert.Spec.gram (V c main_v34 : S16384x64.Idx → EReal) (i 0) (i 1))).setWidth 32

/-- A tile's inner products: if a row block reads z at the tile's rows and a slice reads z at the tile's columns, the sum
    over the 64 channels of their products at (p, q) is the Gram entry of z there. -/
theorem tile_sum (z : S16384x64.Idx → EReal) (t : Fin cfg3.N) (x0 x3 : Vec Ideal S1024x64 .f32)
    (h0 : ∀ (p : Fin 1024) (k : Fin 64), x0 (ix2 p k) = z (ix2 (rowI t p) k))
    (h3 : ∀ (q : Fin 1024) (k : Fin 64), x3 (ix2 q k) = z (ix2 (rowJ t q) k)) (p q : Fin 1024) :
    (∑ k : Fin 64, x0 (ix2 p k) * x3 (ix2 q k)) = Cert.Spec.gram z (rowI t p) (rowJ t q) := by
  unfold Cert.Spec.gram
  exact Finset.sum_congr rfl fun k _ => by rw [h0, h3]

/-- What point `t` writes back to the scores is tile `t` of `Ggram`. -/
theorem flushed3_2_eq (c : Dev nD) (t : Fin cfg3.N) :
    (dat3 (F := Ideal) V c).flushed 2 t = ((cfg3.win 2).blk t).view.read (Elt Ideal) (Ggram V c) := by
  show (cfg3.win 2).cut (grid3.coords t) ((dat3 (F := Ideal) V c).after 2 t) = _
  rw [after3_2]
  unfold out3_2
  rw [View.canon_unit_zero hz2]
  simp only [View.ld_unit_zero (S := S1024x64) hz2]
  refine funext fun (y : S1024x1024.Idx) => ?_
  obtain ⟨p, q, rfl⟩ : ∃ (p : Fin 1024) (q : Fin 1024), y = ix2 p q := ⟨y 0, y 1, eq_ix2 y⟩
  show k3_pay1 (View.ld (iblk3 V c 1 t) (colRows (grid3.coords t))) (iblk3 V c 0 t) (ix2 p q)
      = Ggram V c (((cfg3.win 2).blk t).view.emb (ix2 p q))
  rw [emb3_2]
  refine (pay3_1_apply _ _ p q).trans ?_
  exact tile_sum (V c main_v34) t _ _ (iblk3_0_apply V c t) (slice_apply V c t) p q

/-- What point `t` writes back to the mask is tile `t` of `Gmask`. -/
theorem flushed3_3_eq (c : Dev nD) (t : Fin cfg3.N) :
    (dat3 (F := Ideal) V c).flushed 3 t = ((cfg3.win 3).blk t).view.read (Elt Ideal) (Gmask V c) := by
  show (cfg3.win 3).cut (grid3.coords t) ((dat3 (F := Ideal) V c).after 3 t) = _
  rw [after3_3]
  unfold out3_3
  rw [View.canon_unit_zero hz2]
  simp only [View.ld_unit_zero (S := S1024x64) hz2]
  refine funext fun (y : S1024x1024.Idx) => ?_
  obtain ⟨p, q, rfl⟩ : ∃ (p : Fin 1024) (q : Fin 1024), y = ix2 p q := ⟨y 0, y 1, eq_ix2 y⟩
  show k3_pay2 (View.ld (iblk3 V c 1 t) (colRows (grid3.coords t))) (iblk3 V c 0 t) (ix2 p q)
      = Gmask V c (((cfg3.win 3).blk t).view.emb (ix2 p q))
  rw [emb3_3]
  refine (pay3_2_apply _ _ p q).trans ?_
  rw [tile_sum (V c main_v34) t _ _ (iblk3_0_apply V c t) (slice_apply V c t) p q]

theorem mem_blk3_2 (t : Fin cfg3.N) (i : S16384x16384.Idx) :
    i ∈ ((cfg3.win 2).blk t).view.set ↔ ∀ a : Fin 2, win3_2.index t a * S1024x1024.size a ≤ (i a).val
      ∧ (i a).val < win3_2.index t a * S1024x1024.size a + S1024x1024.size a := by
  show i ∈ ((View.whole main_v54_0).slice (win3_2.rect t)).set ↔ _
  rw [View.set_slice_whole, Rect.mem_set_unit]
  exact Iff.rfl

theorem mem_blk3_3 (t : Fin cfg3.N) (i : S16384x16384.Idx) :
    i ∈ ((cfg3.win 3).blk t).view.set ↔ ∀ a : Fin 2, win3_3.index t a * S1024x1024.size a ≤ (i a).val
      ∧ (i a).val < win3_3.index t a * S1024x1024.size a + S1024x1024.size a := by
  show i ∈ ((View.whole main_v54_1).slice (win3_3.rect t)).set ↔ _
  rw [View.set_slice_whole, Rect.mem_set_unit]
  exact Iff.rfl

/-- Entry (i, j) is in the tile of point 16 (i / 1024) + j / 1024. -/
theorem cover3_2 (i : S16384x16384.Idx) :
    ∃ t : Fin cfg3.N, (cfg3.win 2).flush t = true ∧ i ∈ ((cfg3.win 2).blk t).view.set := by
  have hi0 : (i 0).val < 16384 := (i 0).isLt
  have hi1 : (i 1).val < 16384 := (i 1).isLt
  have ht : 16 * ((i 0).val / 1024) + (i 1).val / 1024 < cfg3.N := by rw [show cfg3.N = 256 from N_3]; omega
  obtain ⟨e0, e1, e2, e3, e4, e5, e6, e7, e8, e9⟩ := idx3 ⟨16 * ((i 0).val / 1024) + (i 1).val / 1024, ht⟩
  refine ⟨⟨16 * ((i 0).val / 1024) + (i 1).val / 1024, ht⟩, flush3_2 _, ?_⟩
  rw [mem_blk3_2]
  intro a
  match a with
  | ⟨0, _⟩ =>
    show win3_2.index ⟨16 * ((i 0).val / 1024) + (i 1).val / 1024, ht⟩ (0 : Fin 2) * 1024 ≤ (i 0).val
      ∧ (i 0).val < win3_2.index ⟨16 * ((i 0).val / 1024) + (i 1).val / 1024, ht⟩ (0 : Fin 2) * 1024 + 1024
    rw [e4]
    show (16 * ((i 0).val / 1024) + (i 1).val / 1024) / 16 * 1024 ≤ (i 0).val
      ∧ (i 0).val < (16 * ((i 0).val / 1024) + (i 1).val / 1024) / 16 * 1024 + 1024
    omega
  | ⟨1, _⟩ =>
    show win3_2.index ⟨16 * ((i 0).val / 1024) + (i 1).val / 1024, ht⟩ (1 : Fin 2) * 1024 ≤ (i 1).val
      ∧ (i 1).val < win3_2.index ⟨16 * ((i 0).val / 1024) + (i 1).val / 1024, ht⟩ (1 : Fin 2) * 1024 + 1024
    rw [e5]
    show (16 * ((i 0).val / 1024) + (i 1).val / 1024) % 16 * 1024 ≤ (i 1).val
      ∧ (i 1).val < (16 * ((i 0).val / 1024) + (i 1).val / 1024) % 16 * 1024 + 1024
    omega

/-- Entry (i, j) is in the tile of point 16 (i / 1024) + j / 1024. -/
theorem cover3_3 (i : S16384x16384.Idx) :
    ∃ t : Fin cfg3.N, (cfg3.win 3).flush t = true ∧ i ∈ ((cfg3.win 3).blk t).view.set := by
  have hi0 : (i 0).val < 16384 := (i 0).isLt
  have hi1 : (i 1).val < 16384 := (i 1).isLt
  have ht : 16 * ((i 0).val / 1024) + (i 1).val / 1024 < cfg3.N := by rw [show cfg3.N = 256 from N_3]; omega
  obtain ⟨e0, e1, e2, e3, e4, e5, e6, e7, e8, e9⟩ := idx3 ⟨16 * ((i 0).val / 1024) + (i 1).val / 1024, ht⟩
  refine ⟨⟨16 * ((i 0).val / 1024) + (i 1).val / 1024, ht⟩, flush3_3 _, ?_⟩
  rw [mem_blk3_3]
  intro a
  match a with
  | ⟨0, _⟩ =>
    show win3_3.index ⟨16 * ((i 0).val / 1024) + (i 1).val / 1024, ht⟩ (0 : Fin 2) * 1024 ≤ (i 0).val
      ∧ (i 0).val < win3_3.index ⟨16 * ((i 0).val / 1024) + (i 1).val / 1024, ht⟩ (0 : Fin 2) * 1024 + 1024
    rw [e6]
    show (16 * ((i 0).val / 1024) + (i 1).val / 1024) / 16 * 1024 ≤ (i 0).val
      ∧ (i 0).val < (16 * ((i 0).val / 1024) + (i 1).val / 1024) / 16 * 1024 + 1024
    omega
  | ⟨1, _⟩ =>
    show win3_3.index ⟨16 * ((i 0).val / 1024) + (i 1).val / 1024, ht⟩ (1 : Fin 2) * 1024 ≤ (i 1).val
      ∧ (i 1).val < win3_3.index ⟨16 * ((i 0).val / 1024) + (i 1).val / 1024, ht⟩ (1 : Fin 2) * 1024 + 1024
    rw [e7]
    show (16 * ((i 0).val / 1024) + (i 1).val / 1024) % 16 * 1024 ≤ (i 1).val
      ∧ (i 1).val < (16 * ((i 0).val / 1024) + (i 1).val / 1024) % 16 * 1024 + 1024
    omega

theorem final3_2_arr (c : Dev nD) : (dat3 (F := Ideal) V c).arrAt 2 cfg3.N = Ggram V c :=
  (dat3 (F := Ideal) V c).arrAt_eq_of_cover 2 (Ggram V c) (fun t _ => flushed3_2_eq V c t) cover3_2

theorem final3_3_arr (c : Dev nD) : (dat3 (F := Ideal) V c).arrAt 3 cfg3.N = Gmask V c :=
  (dat3 (F := Ideal) V c).arrAt_eq_of_cover 3 (Gmask V c) (fun t _ => flushed3_3_eq V c t) cover3_3

/-- The scores' array after the launch, index by index: the Gram matrix of z. -/
theorem final3_2 (c : Dev nD) (i j : Fin 16384) :
    (dat3 (F := Ideal) V c).arrAt 2 cfg3.N (ix2 i j) = Cert.Spec.gram (V c main_v34 : S16384x64.Idx → EReal) i j :=
  congrFun (final3_2_arr V c) (ix2 i j)

/-- The mask's array after the launch, index by index: "the Gram entry is greater than 0" as a 32-bit word. -/
theorem final3_3 (c : Dev nD) (i j : Fin 16384) :
    (dat3 (F := Ideal) V c).arrAt 3 cfg3.N (ix2 i j) = (Cert.Spec.pos (Cert.Spec.gram (V c main_v34 : S16384x64.Idx → EReal) i j)).setWidth 32 :=
  congrFun (final3_3_arr V c) (ix2 i j)

end Cert.KernelIdeal.Hand

end
-- ==== Proof.KI.ChainFacts.lean ====
/-
  Two facts about the host side's degree step, on the extended reals: the clamped in-degree of a node is at least
  1, hence never 0, and the stored column holds exactly 1 over it.  The sum of ones that counts a node's in-edges
  is never opened: whatever it is, its maximum with 1 is at least 1.
-/
import proofs.«155684_j2405181685928_2_alg».proof.Proof.KI.Chain
import proofs.«155684_j2405181685928_2_alg».proof.Proof.Spec
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- The scalar word 1.0 spread over the node vector reads 1 at every node. -/
theorem ones_apply (r : Fin 16384) :
    broadcastInDim S16384 ![] bcast_S_S16384 (constant (F := Ideal) S_ .f32 0x3F800000#32) (ix1 r) = 1 := by
  refine (broadcastInDim_apply ![] bcast_S_S16384 _ (ix1 r) ix0 fun a => a.elim0).trans ?_
  rw [constant_apply]
  exact Ideal.ofBits_one_f32

/-- The maximum of anything with the ones vector is non-zero at every node. -/
theorem max_ones_ne_zero (s : FVec Ideal S16384 .f32) (r : Fin 16384) :
    maximumf s (broadcastInDim S16384 ![] bcast_S_S16384 (constant (F := Ideal) S_ .f32 0x3F800000#32)) (ix1 r) ≠ 0 := by
  rw [maximumf_apply, ones_apply, show (1 : EReal) = ((1 : ℝ) : EReal) from by norm_cast]
  exact Cert.Spec.max_one_ne_zero _

/-- A node's clamped in-degree is never 0. -/
theorem d_ne_zero (ei : IVec S2x524288 32) (r : Fin 16384) : DOf (F := Ideal) ei (ix1 r) ≠ 0 := by
  unfold DOf
  exact max_ones_ne_zero _ r

/-- A vector of n > 1 entries spread along a new unit axis, as a column, reads at (r, 0) its entry r. -/
theorem column_apply {α : Type} {n : ℕ} (hn : n ≠ 1) (x : (⟨1, ![n]⟩ : Shape).Idx → α)
    (h : (⟨1, ![n]⟩ : Shape).BroadcastsInDim ⟨2, ![n, 1]⟩ ![0]) (r : Fin n) :
    broadcastInDim ⟨2, ![n, 1]⟩ ![0] h x (ix2 r (0 : Fin 1)) = x (ix1 r) := by
  refine broadcastInDim_apply ![0] h x (ix2 r (0 : Fin 1)) (ix1 r) fun a => ?_
  match a with
  | ⟨0, _⟩ =>
    show r.val = if n = 1 then 0 else r.val
    rw [if_neg hn]

/-- The stored reciprocal column at node r is 1 over the node's clamped in-degree. -/
theorem inv_eq (ei : IVec S2x524288 32) (r : Fin 16384) :
    InvOf (F := Ideal) ei (ix2 r (0 : Fin 1)) = Ideal.div 1 (DOf (F := Ideal) ei (ix1 r)) := by
  unfold InvOf
  refine (column_apply (by decide) _ bcast_S16384_S16384x1_0 r).trans ?_
  show FloatOps.hostDivf
      (broadcastInDim S16384 ![] bcast_S_S16384 (constant (F := Ideal) S_ .f32 0x3F800000#32) (ix1 r))
      (DOf (F := Ideal) ei (ix1 r)) = _
  rw [Ideal.hostDivf_def, ones_apply]

end Cert.KernelIdeal.Hand

end
-- ==== Proof.MaskBit.lean ====
/-
  The mask's two spellings agree.  One program stores a comparison's bit widened to a 32-bit word and the other
  then asks whether that word differs from 0: widening a single bit with zeros gives the word 0 or the word 1,
  and "differs from 0" gives the bit back.
-/
import Idealize.ShloMosaic.PureOps.Ideal
import Idealize.ShloMosaic.Lib.ValueIdx
import Idealize.ShloMosaic.Lib.ValueLayout

noncomputable section

namespace Cert.MaskBit

open Idealize.ShloMosaic Idealize.ShloMosaic.ValueIdx

/-- A bit, widened to 32 bits and compared "not equal" with the word 0, is the bit. -/
theorem cmpi_ne_setWidth (b : BitVec 1) : IntOp.cmpi .ne (b.setWidth 32) (0#32 : BitVec 32) = b := by
  rcases BitVec.eq_zero_or_eq_one b with h | h <;> subst h <;> decide

/-- The same comparison on whole 16384 × 16384 arrays is taken element by element; against an all-zero array it is the
    comparison of each word with the word 0. -/
theorem cmpi_ne_zero_apply (w z : IVec (⟨2, ![16384, 16384]⟩ : Shape) 32) (hz : ∀ i, z i = 0#32)
    (i : (⟨2, ![16384, 16384]⟩ : Shape).Idx) : cmpi .ne w z i = IntOp.cmpi .ne (w i) (0#32 : BitVec 32) := by
  rw [← hz i]
  rfl

end Cert.MaskBit

end
-- ==== Proof.KI.Values.lean ====
/-
  The kernel program's results, index by index, as the layer, edge-score and dense-score functions of the argument
  arrays and of the host side's named terms: each region's closed form read at the contents the region is entered
  from, the stored reciprocal turned into the quotient (the clamped degree is never zero).
-/
import proofs.«155684_j2405181685928_2_alg».proof.Proof.KI.Run
import proofs.«155684_j2405181685928_2_alg».proof.Proof.KI.Val0
import proofs.«155684_j2405181685928_2_alg».proof.Proof.KI.Val1
import proofs.«155684_j2405181685928_2_alg».proof.Proof.KI.Val2
import proofs.«155684_j2405181685928_2_alg».proof.Proof.KI.Val3
import proofs.«155684_j2405181685928_2_alg».proof.Proof.KI.ChainFacts
import proofs.«155684_j2405181685928_2_alg».proof.Proof.MaskBit

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-- The first layer's output. -/
theorem k_sage1 (r : Fin 16384) (j : Fin 128) :
    o23 m c (ix2 r j) = Cert.Spec.sageR true (RawOf (F := Ideal) (m ((c.tc : Thread nD τ).loc main_arg0)) (m ((c.tc : Thread nD τ).loc main_arg1)))
      (m ((c.tc : Thread nD τ).loc main_arg0)) (DOf (F := Ideal) (m ((c.tc : Thread nD τ).loc main_arg1)))
      (m ((c.tc : Thread nD τ).loc main_arg3)) (m ((c.tc : Thread nD τ).loc main_arg5)) (m ((c.tc : Thread nD τ).loc main_arg4)) r j := by
  have h := final0 (X1 m) c r j
  dsimp only [X1] at h
  rw [V1_v22 m c, V1_v12 m c, V1_arg m c main_arg0 (by decide), V1_arg m c main_arg3 (by decide), V1_arg m c main_arg5 (by decide),
    V1_arg m c main_arg4 (by decide)] at h
  exact h.trans (Cert.Spec.sageK_eq_sageR true _ _ _ (DOf (F := Ideal) (m ((c.tc : Thread nD τ).loc main_arg1))) _ _ _
    (inv_eq _) (d_ne_zero _) r j)

/-- The second layer's output, over the first layer's. -/
theorem k_z (r : Fin 16384) (j : Fin 64) :
    o34 m c (ix2 r j) = Cert.Spec.sageR false (RawOf (F := Ideal) (o23 m c) (m ((c.tc : Thread nD τ).loc main_arg1)))
      (o23 m c) (DOf (F := Ideal) (m ((c.tc : Thread nD τ).loc main_arg1)))
      (m ((c.tc : Thread nD τ).loc main_arg6)) (m ((c.tc : Thread nD τ).loc main_arg8)) (m ((c.tc : Thread nD τ).loc main_arg7)) r j := by
  have h := final1 (X3 m) c r j
  dsimp only [X3] at h
  rw [V3_v33 m (leftA m) c, V3_v23 m (leftA m) c, V3_v12 m (leftA m) c, leftA_v23 m 2 c,
    V3_arg m (leftA m) c main_arg6 (by decide) (by decide) (by decide), V3_arg m (leftA m) c main_arg8 (by decide) (by decide) (by decide),
    V3_arg m (leftA m) c main_arg7 (by decide) (by decide) (by decide)] at h
  exact h.trans (Cert.Spec.sageK_eq_sageR false _ _ _ (DOf (F := Ideal) (m ((c.tc : Thread nD τ).loc main_arg1))) _ _ _
    (inv_eq _) (d_ne_zero _) r j)

/-- An edge's channel products: the two endpoint rows of the second layer's output. -/
theorem k_dmul (e : Fin 131072) (k : Fin 64) :
    o53_0 m c (ix2 e k) = Rows0Of (F := Ideal) (o34 m c) (m ((c.tc : Thread nD τ).loc main_arg2)) (ix2 e k)
      * Rows1Of (F := Ideal) (o34 m c) (m ((c.tc : Thread nD τ).loc main_arg2)) (ix2 e k) := by
  have h := final2_2 (X5 m) c e k
  dsimp only [zsrc, zdst, X5] at h
  rw [V5_v45 m (leftB m) c, V5_v52 m (leftB m) c, leftB_v34 m 4 c] at h
  exact h

/-- An edge's score: the sum of its channel products. -/
theorem k_dsum (e : Fin 131072) :
    o53_1 m c (ix1 e) = Cert.Spec.rowSum (fun i => Rows0Of (F := Ideal) (o34 m c) (m ((c.tc : Thread nD τ).loc main_arg2)) i
      * Rows1Of (F := Ideal) (o34 m c) (m ((c.tc : Thread nD τ).loc main_arg2)) i) e := by
  have h := final2_3 (X5 m) c e
  dsimp only [zsrc, zdst, X5] at h
  rw [V5_v45 m (leftB m) c, V5_v52 m (leftB m) c, leftB_v34 m 4 c] at h
  exact h

/-- A dense score: the inner product of two rows of the second layer's output. -/
theorem k_prob (i j : Fin 16384) : o54_0 m c (ix2 i j) = Cert.Spec.gram (o34 m c) i j := by
  have h := final3_2 (X6 m) c i j
  dsimp only [X6] at h
  rw [V6_v34 m (leftC m) c, leftC_v34 m 4 c] at h
  exact h

/-- The mask: whether that score is positive (the kernel's 0/1 word compared with zero). -/
theorem k_mask (i j : Fin 16384) : V8 m (left m) c main_v57 (ix2 i j) = Cert.Spec.pos (Cert.Spec.gram (o34 m c) i j) := by
  have h := final3_3 (X6 m) c i j
  dsimp only [X6] at h
  rw [V6_v34 m (leftC m) c, leftC_v34 m 4 c] at h
  rw [V8_v57 m (left m) c, left_v54_1 m 7 c]
  show IntOp.cmpi .ne (o54_1 m c (ix2 i j)) (0#32) = _
  rw [show o54_1 m c (ix2 i j) = (Cert.Spec.pos (Cert.Spec.gram (o34 m c) i j)).setWidth 32 from h]
  exact Cert.MaskBit.cmpi_ne_setWidth _

end Cert.KernelIdeal.Hand

end
-- ==== Proof.RefRun.lean ====
/-
  The reference program's run, read back: its six results as the host operations' composed terms of the
  argument arrays (the generated run and its read-at-an-index lemmas are imported here).
-/
import proofs.«155684_j2405181685928_2_alg».proof.Proof.Gen.ReferenceIdeal.Run
import proofs.«155684_j2405181685928_2_alg».proof.Proof.Gen.ReferenceIdeal.Read
-- ==== Proof.Ref.Chain.lean ====
/-
  The host side's irregular steps, named once and never opened: the wrapped source index and the destination
  index of every edge, the sum of the neighbours' feature rows per node, the node degrees clamped below at 1,
  their reciprocals as a column, and the rows of an array gathered at the two endpoints of the labelled edges.
  Both programs apply the same operations here, so the certificate only ever needs these terms to be equal
  as terms.
-/
import proofs.«155684_j2405181685928_2_alg».proof.Proof.Gen.ReferenceIdeal

noncomputable section

namespace Cert.ReferenceIdeal.Hand

open Cert.ReferenceIdeal Cert.ReferenceIdeal.Gen Idealize.ShloMosaic

variable {F : FTy → Type} [FloatOps F]

/-- Row `w` (0 = sources, 1 = destinations) of the edge list as a vector. -/
def edgeRow0 (ei : IVec S2x524288 32) : IVec S524288 32 :=
  shapeCast S524288 (extractStridedSlice S1x524288 ![0, 0] ei slices_S2x524288_S1x524288_0_0) shapeCasts_S1x524288_S524288
def edgeRow1 (ei : IVec S2x524288 32) : IVec S524288 32 :=
  shapeCast S524288 (extractStridedSlice S1x524288 ![1, 0] ei slices_S2x524288_S1x524288_1_0) shapeCasts_S1x524288_S524288

/-- The source node of each edge, a negative index wrapped by the node count, as an index column. -/
def SrcOf (ei : IVec S2x524288 32) : IVec S524288x1 32 :=
  broadcastInDim S524288x1 ![0] bcast_S524288_S524288x1_0
    (select (cmpi .slt (edgeRow0 ei) (broadcastInDim S524288 ![] bcast_S_S524288 (constantI S_ 32 0#32)))
      (addi (edgeRow0 ei) (broadcastInDim S524288 ![] bcast_S_S524288 (constantI S_ 32 16384#32))) (edgeRow0 ei))

/-- The destination node of each edge, as an index column. -/
def DstOf (ei : IVec S2x524288 32) : IVec S524288x1 32 :=
  broadcastInDim S524288x1 ![0] bcast_S524288_S524288x1_0 (edgeRow1 ei)

/-- Per node, the sum of the feature rows of its in-neighbours. -/
def RawOf (feat : FVec F S16384x128 .f32) (ei : IVec S2x524288 32) : FVec F S16384x128 .f32 :=
  Host.scatterAdd scatter_S16384x128_S524288x1_S524288x128_1_0_0_1
    (broadcastInDim S16384x128 ![] bcast_S_S16384x128 (constant S_ .f32 0x00000000#32)) (DstOf ei)
    (Host.gather gather_S16384x128_S524288x1_S524288x128_1_0_n_n_0_1_1128 feat (SrcOf ei))

/-- Per node, its in-degree clamped below at 1. -/
def DOf (ei : IVec S2x524288 32) : FVec F S16384 .f32 :=
  maximumf
    (Host.scatterAdd scatter_S16384_S524288x1_S524288_n_0_0_1
      (broadcastInDim S16384 ![] bcast_S_S16384 (constant S_ .f32 0x00000000#32)) (DstOf ei)
      (broadcastInDim S524288 ![] bcast_S_S524288 (constant S_ .f32 0x3F800000#32)))
    (broadcastInDim S16384 ![] bcast_S_S16384 (constant S_ .f32 0x3F800000#32))

/-- Per node, 1 over that clamped degree, as a column. -/
def InvOf (ei : IVec S2x524288 32) : FVec F S16384x1 .f32 :=
  broadcastInDim S16384x1 ![0] bcast_S16384_S16384x1_0
    (Host.divf (broadcastInDim S16384 ![] bcast_S_S16384 (constant S_ .f32 0x3F800000#32)) (DOf ei))

/-- Row `w` of the labelled-edge list as a vector. -/
def lblRow0 (eli : IVec S2x131072 32) : IVec S131072 32 :=
  shapeCast S131072 (extractStridedSlice S1x131072 ![0, 0] eli slices_S2x131072_S1x131072_0_0) shapeCasts_S1x131072_S131072
def lblRow1 (eli : IVec S2x131072 32) : IVec S131072 32 :=
  shapeCast S131072 (extractStridedSlice S1x131072 ![1, 0] eli slices_S2x131072_S1x131072_1_0) shapeCasts_S1x131072_S131072

/-- The rows of `z` at the first endpoints of the labelled edges (a negative index wrapped). -/
def Rows0Of (z : FVec F S16384x64 .f32) (eli : IVec S2x131072 32) : FVec F S131072x64 .f32 :=
  Host.gather gather_S16384x64_S131072x1_S131072x64_1_0_n_n_0_1_164 z
    (broadcastInDim S131072x1 ![0] bcast_S131072_S131072x1_0
      (select (cmpi .slt (lblRow0 eli) (broadcastInDim S131072 ![] bcast_S_S131072 (constantI S_ 32 0#32)))
        (addi (lblRow0 eli) (broadcastInDim S131072 ![] bcast_S_S131072 (constantI S_ 32 16384#32))) (lblRow0 eli)))

/-- The rows of `z` at the second endpoints. -/
def Rows1Of (z : FVec F S16384x64 .f32) (eli : IVec S2x131072 32) : FVec F S131072x64 .f32 :=
  Host.gather gather_S16384x64_S131072x1_S131072x64_1_0_n_n_0_1_164 z
    (broadcastInDim S131072x1 ![0] bcast_S131072_S131072x1_0
      (select (cmpi .slt (lblRow1 eli) (broadcastInDim S131072 ![] bcast_S_S131072 (constantI S_ 32 0#32)))
        (addi (lblRow1 eli) (broadcastInDim S131072 ![] bcast_S_S131072 (constantI S_ 32 16384#32))) (lblRow1 eli)))

end Cert.ReferenceIdeal.Hand

end
-- ==== Proof.Ref.Stages.lean ====
/-
  The irregular stages of the reference (the gathers along the edge lists, the sums scattered to the destination
  nodes, the clamped degrees) are the named terms of the host chain: each stage of the reference is that term of its
  operands, as a term. Nothing here opens a gather, a scatter or the index arithmetic.
-/
import proofs.«155684_j2405181685928_2_alg».proof.Proof.RefRun
import proofs.«155684_j2405181685928_2_alg».proof.Proof.Ref.Chain

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable {F : FTy → Type} [FloatOps F]

/-- The first layer's aggregation stage is the neighbours' row sum of the features. -/
theorem stage_raw1 (x0 : FVec F S16384x128 .f32) (x1 : IVec S2x524288 32) :
    val_main_v13 (F := F) x0 x1 = RawOf x0 x1 := rfl

/-- The first layer's degree stage is the clamped in-degree. -/
theorem stage_deg1 (x1 : IVec S2x524288 32) : val_main_v19 (F := F) x1 = DOf x1 := rfl

/-- The second layer's aggregation stage is the neighbours' row sum of the first layer's result. -/
theorem stage_raw2 (x0 : FVec F S16384x128 .f32) (x1 : IVec S2x524288 32) (x3 x5 : FVec F S128x128 .f32)
    (x4 : FVec F S128 .f32) :
    val_main_v39 (F := F) x0 x1 x3 x4 x5 = RawOf (val_main_v29 (F := F) x0 x1 x3 x4 x5) x1 := rfl

/-- The second layer's degree stage is the same clamped in-degree. -/
theorem stage_deg2 (x1 : IVec S2x524288 32) : val_main_v45 (F := F) x1 = DOf x1 := rfl

/-- The rows of the second layer's result at the first endpoints of the labelled edges. -/
theorem stage_rows0 (x0 : FVec F S16384x128 .f32) (x1 : IVec S2x524288 32) (x2 : IVec S2x131072 32)
    (x3 x5 : FVec F S128x128 .f32) (x4 : FVec F S128 .f32) (x6 x8 : FVec F S128x64 .f32) (x7 : FVec F S64 .f32) :
    val_main_v63 (F := F) x0 x1 x2 x3 x4 x5 x6 x7 x8
      = Rows0Of (val_main_v54 (F := F) x0 x1 x3 x4 x5 x6 x7 x8) x2 := rfl

/-- The rows of the second layer's result at the second endpoints. -/
theorem stage_rows1 (x0 : FVec F S16384x128 .f32) (x1 : IVec S2x524288 32) (x2 : IVec S2x131072 32)
    (x3 x5 : FVec F S128x128 .f32) (x4 : FVec F S128 .f32) (x6 x8 : FVec F S128x64 .f32) (x7 : FVec F S64 .f32) :
    val_main_v72 (F := F) x0 x1 x2 x3 x4 x5 x6 x7 x8
      = Rows1Of (val_main_v54 (F := F) x0 x1 x3 x4 x5 x6 x7 x8) x2 := rfl

end Cert.ReferenceIdeal.Hand

end
-- ==== Proof.Ref.Layer1.lean ====
/-
  The reference's first layer, read at node r and channel j.

  Its stages are: the neighbours' row sum divided, entry by entry, by the clamped degree of the row; the product
  with W_l; the bias broadcast along the rows; the product of the features with W_r; the maximum with 0. Each stage
  reads one entry (or one row and one column) of its operands, so the whole is the closed form
      max( Σ_k (agg[r,k] / d[r]) · W_l[k,j] + b[j] + Σ_k x[r,k] · W_r[k,j], 0 ),
  with the aggregation and the degrees left as the stages that compute them.
-/
import proofs.«155684_j2405181685928_2_alg».proof.Proof.RefRun
import proofs.«155684_j2405181685928_2_alg».proof.Proof.Spec

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! The composed index maps of the stages, at a row-and-column index. -/

theorem lidx_v23 (r : Fin 16384) (j k : Fin 128) : lidx_main_v23 (ix2 r j) k = ix2 r k := funext fun a => Fin.ext (by match a with | ⟨0, _⟩ => rfl | ⟨1, _⟩ => rfl)
theorem ridx_v23 (r : Fin 16384) (j k : Fin 128) : ridx_main_v23 (ix2 r j) k = ix2 k j := funext fun a => Fin.ext (by match a with | ⟨0, _⟩ => rfl | ⟨1, _⟩ => rfl)
theorem lidx_v27 (r : Fin 16384) (j k : Fin 128) : lidx_main_v27 (ix2 r j) k = ix2 r k := funext fun a => Fin.ext (by match a with | ⟨0, _⟩ => rfl | ⟨1, _⟩ => rfl)
theorem ridx_v27 (r : Fin 16384) (j k : Fin 128) : ridx_main_v27 (ix2 r j) k = ix2 k j := funext fun a => Fin.ext (by match a with | ⟨0, _⟩ => rfl | ⟨1, _⟩ => rfl)
/-- The bias is broadcast along the rows: entry (r, j) reads b[j]. -/
theorem idx_v24_v25 (r : Fin 16384) (j : Fin 128) : idx_main_v24 (idx_main_v25 (ix2 r j)) = ix1 j := funext fun a => Fin.ext (by match a with | ⟨0, _⟩ => rfl)
/-- The clamped degree is broadcast along the channels: entry (r, k) reads d[r]. -/
theorem idx_v20_v21 (r : Fin 16384) (k : Fin 128) : idx_main_v20 (idx_main_v21 (ix2 r k)) = ix1 r := funext fun a => Fin.ext (by match a with | ⟨0, _⟩ => rfl)

/-- The first layer's result at (r, j) is the layer formula over the aggregation stage and the degree stage. -/
theorem layer1_apply (x0 : FVec Ideal S16384x128 .f32) (x1 : IVec S2x524288 32) (x3 x5 : FVec Ideal S128x128 .f32)
    (x4 : FVec Ideal S128 .f32) (r : Fin 16384) (j : Fin 128) :
    val_main_v29 (F := Ideal) x0 x1 x3 x4 x5 (ix2 r j)
      = Cert.Spec.sageR true (val_main_v13 (F := Ideal) x0 x1) x0 (val_main_v19 (F := Ideal) x1) x3 x5 x4 r j := by
  rw [val_main_v29_apply, val_main_v28_apply, val_main_v26_apply, val_main_v23_apply, val_main_v25_apply,
    val_main_v24_apply, val_main_v27_apply, val_main_call0_v0_apply, val_main_call0_cst_apply, idx_v24_v25,
    Ideal.maximumf_def, Ideal.addf_def, Ideal.addf_def, Ideal.ofBits_def]
  have hL : ∀ k : Fin 128, val_main_v22 (F := Ideal) x0 x1 (lidx_main_v23 (ix2 r j) k) * x3 (ridx_main_v23 (ix2 r j) k)
      = Ideal.div (val_main_v13 (F := Ideal) x0 x1 (ix2 r k)) (val_main_v19 (F := Ideal) x1 (ix1 r)) * x3 (ix2 k j) :=
    fun k => by
      rw [lidx_v23, ridx_v23, val_main_v22_apply, val_main_v21_apply, val_main_v20_apply, idx_v20_v21,
        Ideal.hostDivf_def]
  have hR : ∀ k : Fin 128, x0 (lidx_main_v27 (ix2 r j) k) * x5 (ridx_main_v27 (ix2 r j) k)
      = x0 (ix2 r k) * x5 (ix2 k j) := fun k => by rw [lidx_v27, ridx_v27]
  rw [Finset.sum_congr rfl fun k _ => hL k, Finset.sum_congr rfl fun k _ => hR k]
  unfold Cert.Spec.sageR Cert.Spec.act
  rw [if_pos rfl]

end Cert.ReferenceIdeal.Hand

end
-- ==== Proof.Ref.Layer2.lean ====
/-
  The reference's second layer, read at node r and channel j: the same stages as the first layer over the first
  layer's result, into 64 channels and without the final maximum:
      Σ_k (agg2[r,k] / d[r]) · W_l[k,j] + b[j] + Σ_k h[r,k] · W_r[k,j].
-/
import proofs.«155684_j2405181685928_2_alg».proof.Proof.RefRun
import proofs.«155684_j2405181685928_2_alg».proof.Proof.Spec

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! The composed index maps of the stages, at a row-and-column index. -/

theorem lidx_v49 (r : Fin 16384) (j : Fin 64) (k : Fin 128) : lidx_main_v49 (ix2 r j) k = ix2 r k := funext fun a => Fin.ext (by match a with | ⟨0, _⟩ => rfl | ⟨1, _⟩ => rfl)
theorem ridx_v49 (r : Fin 16384) (j : Fin 64) (k : Fin 128) : ridx_main_v49 (ix2 r j) k = ix2 k j := funext fun a => Fin.ext (by match a with | ⟨0, _⟩ => rfl | ⟨1, _⟩ => rfl)
theorem lidx_v53 (r : Fin 16384) (j : Fin 64) (k : Fin 128) : lidx_main_v53 (ix2 r j) k = ix2 r k := funext fun a => Fin.ext (by match a with | ⟨0, _⟩ => rfl | ⟨1, _⟩ => rfl)
theorem ridx_v53 (r : Fin 16384) (j : Fin 64) (k : Fin 128) : ridx_main_v53 (ix2 r j) k = ix2 k j := funext fun a => Fin.ext (by match a with | ⟨0, _⟩ => rfl | ⟨1, _⟩ => rfl)
/-- The bias is broadcast along the rows: entry (r, j) reads b[j]. -/
theorem idx_v50_v51 (r : Fin 16384) (j : Fin 64) : idx_main_v50 (idx_main_v51 (ix2 r j)) = ix1 j := funext fun a => Fin.ext (by match a with | ⟨0, _⟩ => rfl)
/-- The clamped degree is broadcast along the channels: entry (r, k) reads d[r]. -/
theorem idx_v46_v47 (r : Fin 16384) (k : Fin 128) : idx_main_v46 (idx_main_v47 (ix2 r k)) = ix1 r := funext fun a => Fin.ext (by match a with | ⟨0, _⟩ => rfl)

/-- The second layer's result at (r, j) is the layer formula over its aggregation stage, the first layer's result
    and its degree stage. -/
theorem layer2_apply (x0 : FVec Ideal S16384x128 .f32) (x1 : IVec S2x524288 32) (x3 x5 : FVec Ideal S128x128 .f32)
    (x4 : FVec Ideal S128 .f32) (x6 x8 : FVec Ideal S128x64 .f32) (x7 : FVec Ideal S64 .f32)
    (r : Fin 16384) (j : Fin 64) :
    val_main_v54 (F := Ideal) x0 x1 x3 x4 x5 x6 x7 x8 (ix2 r j)
      = Cert.Spec.sageR false (val_main_v39 (F := Ideal) x0 x1 x3 x4 x5) (val_main_v29 (F := Ideal) x0 x1 x3 x4 x5)
          (val_main_v45 (F := Ideal) x1) x6 x8 x7 r j := by
  rw [val_main_v54_apply, val_main_v52_apply, val_main_v49_apply, val_main_v51_apply, val_main_v50_apply,
    val_main_v53_apply, idx_v50_v51, Ideal.addf_def, Ideal.addf_def]
  have hL : ∀ k : Fin 128,
      val_main_v48 (F := Ideal) x0 x1 x3 x4 x5 (lidx_main_v49 (ix2 r j) k) * x6 (ridx_main_v49 (ix2 r j) k)
        = Ideal.div (val_main_v39 (F := Ideal) x0 x1 x3 x4 x5 (ix2 r k)) (val_main_v45 (F := Ideal) x1 (ix1 r))
            * x6 (ix2 k j) :=
    fun k => by
      rw [lidx_v49, ridx_v49, val_main_v48_apply, val_main_v47_apply, val_main_v46_apply, idx_v46_v47,
        Ideal.hostDivf_def]
  have hR : ∀ k : Fin 128,
      val_main_v29 (F := Ideal) x0 x1 x3 x4 x5 (lidx_main_v53 (ix2 r j) k) * x8 (ridx_main_v53 (ix2 r j) k)
        = val_main_v29 (F := Ideal) x0 x1 x3 x4 x5 (ix2 r k) * x8 (ix2 k j) := fun k => by rw [lidx_v53, ridx_v53]
  rw [Finset.sum_congr rfl fun k _ => hL k, Finset.sum_congr rfl fun k _ => hR k]
  unfold Cert.Spec.sageR Cert.Spec.act
  rw [if_neg Bool.false_ne_true]

end Cert.ReferenceIdeal.Hand

end
-- ==== Proof.Ref.Decode.lean ====
/-
  The reference's edge scores. For a labelled edge e the two gathered rows of z are multiplied channel by channel,
  and the 64 products are summed (the sum starts from the float word 0.0, which is the real 0).
-/
import proofs.«155684_j2405181685928_2_alg».proof.Proof.RefRun
import proofs.«155684_j2405181685928_2_alg».proof.Proof.Spec

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- Column k of row e of the product array. -/
theorem idx_v74 (e : Fin 131072) (k : Fin 64) : idx_main_v74 (ix1 e) k = ix2 e k := funext fun a => Fin.ext (by match a with | ⟨0, _⟩ => rfl | ⟨1, _⟩ => rfl)

/-- The channel products: the two gathered rows, entry by entry. -/
theorem edgeProd_apply (x0 : FVec Ideal S16384x128 .f32) (x1 : IVec S2x524288 32) (x2 : IVec S2x131072 32)
    (x3 x5 : FVec Ideal S128x128 .f32) (x4 : FVec Ideal S128 .f32) (x6 x8 : FVec Ideal S128x64 .f32)
    (x7 : FVec Ideal S64 .f32) (i : S131072x64.Idx) :
    val_main_v73 (F := Ideal) x0 x1 x2 x3 x4 x5 x6 x7 x8 i
      = val_main_v63 (F := Ideal) x0 x1 x2 x3 x4 x5 x6 x7 x8 i * val_main_v72 (F := Ideal) x0 x1 x2 x3 x4 x5 x6 x7 x8 i := by
  rw [val_main_v73_apply, Ideal.mulf_def]

/-- The edge score: the sum of the 64 channel products of edge e. -/
theorem edgeSum_apply (x0 : FVec Ideal S16384x128 .f32) (x1 : IVec S2x524288 32) (x2 : IVec S2x131072 32)
    (x3 x5 : FVec Ideal S128x128 .f32) (x4 : FVec Ideal S128 .f32) (x6 x8 : FVec Ideal S128x64 .f32)
    (x7 : FVec Ideal S64 .f32) (e : Fin 131072) :
    val_main_v74 (F := Ideal) x0 x1 x2 x3 x4 x5 x6 x7 x8 (ix1 e)
      = Cert.Spec.rowSum (fun i => val_main_v63 (F := Ideal) x0 x1 x2 x3 x4 x5 x6 x7 x8 i
          * val_main_v72 (F := Ideal) x0 x1 x2 x3 x4 x5 x6 x7 x8 i) e := by
  rw [val_main_v74_apply, val_main_cst_14_apply, Ideal.ofBits_def, Ideal.ofBits_zero_f32, zero_add]
  unfold Cert.Spec.rowSum
  refine Finset.sum_congr rfl fun k _ => ?_
  rw [idx_v74, val_main_v73_apply, Ideal.mulf_def]

end Cert.ReferenceIdeal.Hand

end
-- ==== Proof.Ref.Gram.lean ====
/-
  The reference's dense scores. Entry (i, j) of z · zᵀ is the inner product of rows i and j of z over the 64
  channels (the transposed operand read at (k, j) is z at (j, k)); the mask compares that entry with the float
  word 0.0.
-/
import proofs.«155684_j2405181685928_2_alg».proof.Proof.RefRun
import proofs.«155684_j2405181685928_2_alg».proof.Proof.Spec

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

theorem lidx_v76 (i j : Fin 16384) (k : Fin 64) : lidx_main_v76 (ix2 i j) k = ix2 i k := funext fun a => Fin.ext (by match a with | ⟨0, _⟩ => rfl | ⟨1, _⟩ => rfl)
/-- The transposed operand at (k, j) reads z at (j, k). -/
theorem idx_v75_ridx_v76 (i j : Fin 16384) (k : Fin 64) : idx_main_v75 (ridx_main_v76 (ix2 i j) k) = ix2 j k := funext fun a => Fin.ext (by match a with | ⟨0, _⟩ => rfl | ⟨1, _⟩ => rfl)

/-- The dense score at (i, j): the inner product of rows i and j of the second layer's result. -/
theorem dense_apply (x0 : FVec Ideal S16384x128 .f32) (x1 : IVec S2x524288 32) (x3 x5 : FVec Ideal S128x128 .f32)
    (x4 : FVec Ideal S128 .f32) (x6 x8 : FVec Ideal S128x64 .f32) (x7 : FVec Ideal S64 .f32) (i j : Fin 16384) :
    val_main_v76 (F := Ideal) x0 x1 x3 x4 x5 x6 x7 x8 (ix2 i j)
      = Cert.Spec.gram (val_main_v54 (F := Ideal) x0 x1 x3 x4 x5 x6 x7 x8) i j := by
  rw [val_main_v76_apply]
  unfold Cert.Spec.gram
  simp only [val_main_v75_apply, lidx_v76, idx_v75_ridx_v76]

/-- The mask at (i, j): is the dense score greater than 0. -/
theorem denseMask_apply (x0 : FVec Ideal S16384x128 .f32) (x1 : IVec S2x524288 32) (x3 x5 : FVec Ideal S128x128 .f32)
    (x4 : FVec Ideal S128 .f32) (x6 x8 : FVec Ideal S128x64 .f32) (x7 : FVec Ideal S64 .f32) (i j : Fin 16384) :
    val_main_v78 (F := Ideal) x0 x1 x3 x4 x5 x6 x7 x8 (ix2 i j)
      = Cert.Spec.pos (Cert.Spec.gram (val_main_v54 (F := Ideal) x0 x1 x3 x4 x5 x6 x7 x8) i j) := by
  rw [val_main_v78_apply, val_main_v77_apply, val_main_cst_15_apply, dense_apply, Ideal.cmpf_def, Ideal.ofBits_def]
  rfl

end Cert.ReferenceIdeal.Hand

end
-- ==== Proof.Ref.Results.lean ====
/-
  The reference's six results, each read at an index, over the run's memory m on device c.

  The first layer h and the second layer z are the layer formula of the specification over the host chain's
  aggregation and degree terms; the edge scores are the channel products of the two gathered rows of z and their
  sums over the 64 channels; the dense scores are the inner products of the rows of z, and the mask their comparison
  with 0.
-/
import proofs.«155684_j2405181685928_2_alg».proof.Proof.Ref.Stages
import proofs.«155684_j2405181685928_2_alg».proof.Proof.Ref.Layer1
import proofs.«155684_j2405181685928_2_alg».proof.Proof.Ref.Layer2
import proofs.«155684_j2405181685928_2_alg».proof.Proof.Ref.Decode
import proofs.«155684_j2405181685928_2_alg».proof.Proof.Ref.Gram

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

open Cert.ReferenceIdeal.Value

section
variable {F : FTy → Type} [FloatOps F]

/-- The first layer's result (the run's first result), at any reading of the floats. -/
def sage1R (m : (ℓ : Loc nD τ sig) → Buf (Elt F) ℓ) (c : Dev nD) : Buf (Elt F) ((c.tc : Thread nD τ).loc main_v29) :=
  val_main_v29 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))

/-- The term the run states for its first result is `sage1R`. -/
theorem sage1R_eq_run (m : (ℓ : Loc nD τ sig) → Buf (Elt F) ℓ) (c : Dev nD) :
    maximumf (addf (addf (Host.dotGeneral dot_S16384x128_S128x128_S16384x128_1_0_0_1_n_n none (Host.divf (Host.scatterAdd
    scatter_S16384x128_S524288x1_S524288x128_1_0_0_1 (broadcastInDim S16384x128 ![] bcast_S_S16384x128 (constant S_ .f32
    0x00000000#32)) (broadcastInDim S524288x1 ![0] bcast_S524288_S524288x1_0 (shapeCast _ (extractStridedSlice S1x524288
    ![1, 0] (m ((c.tc : Thread nD τ).loc main_arg1)) slices_S2x524288_S1x524288_1_0) shapeCasts_S1x524288_S524288))
    (Host.gather gather_S16384x128_S524288x1_S524288x128_1_0_n_n_0_1_1128 (m ((c.tc : Thread nD τ).loc main_arg0))
    (broadcastInDim S524288x1 ![0] bcast_S524288_S524288x1_0 (select (cmpi .slt (shapeCast _ (extractStridedSlice
    S1x524288 ![0, 0] (m ((c.tc : Thread nD τ).loc main_arg1)) slices_S2x524288_S1x524288_0_0)
    shapeCasts_S1x524288_S524288) (broadcastInDim S524288 ![] bcast_S_S524288 (constantI S_ 32 0#32))) (addi (shapeCast _
    (extractStridedSlice S1x524288 ![0, 0] (m ((c.tc : Thread nD τ).loc main_arg1)) slices_S2x524288_S1x524288_0_0)
    shapeCasts_S1x524288_S524288) (broadcastInDim S524288 ![] bcast_S_S524288 (constantI S_ 32 16384#32))) (shapeCast _
    (extractStridedSlice S1x524288 ![0, 0] (m ((c.tc : Thread nD τ).loc main_arg1)) slices_S2x524288_S1x524288_0_0)
    shapeCasts_S1x524288_S524288))))) (broadcastInDim S16384x128 ![0, 1] bcast_S16384x1_S16384x128_0_1 (broadcastInDim
    S16384x1 ![0] bcast_S16384_S16384x1_0 (maximumf (Host.scatterAdd scatter_S16384_S524288x1_S524288_n_0_0_1
    (broadcastInDim S16384 ![] bcast_S_S16384 (constant S_ .f32 0x00000000#32)) (broadcastInDim S524288x1 ![0]
    bcast_S524288_S524288x1_0 (shapeCast _ (extractStridedSlice S1x524288 ![1, 0] (m ((c.tc : Thread nD τ).loc main_arg1))
    slices_S2x524288_S1x524288_1_0) shapeCasts_S1x524288_S524288)) (broadcastInDim S524288 ![] bcast_S_S524288 (constant
    S_ .f32 0x3F800000#32))) (broadcastInDim S16384 ![] bcast_S_S16384 (constant S_ .f32 0x3F800000#32)))))) (m ((c.tc :
    Thread nD τ).loc main_arg3))) (broadcastInDim S16384x128 ![0, 1] bcast_S1x128_S16384x128_0_1 (broadcastInDim S1x128
    ![1] bcast_S128_S1x128_1 (m ((c.tc : Thread nD τ).loc main_arg4))))) (Host.dotGeneral
    dot_S16384x128_S128x128_S16384x128_1_0_0_1_n_n none (m ((c.tc : Thread nD τ).loc main_arg0)) (m ((c.tc : Thread nD
    τ).loc main_arg5)))) (broadcastInDim S16384x128 ![] bcast_S_S16384x128 (constant S_ .f32 0x00000000#32))
      = sage1R m c :=
  val_main_v29_eq _ _ _ _ _

end

/-- The second layer's result is its stage over the arguments. -/
theorem res_out1_eq (m : (ℓ : Loc nD τ sig) → Buf (Elt Ideal) ℓ) (c : Dev nD) : res_out1 m c = val_main_v54 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  val_main_v54_eq m c

/-- First layer at (r, j). -/
theorem sage1_apply (m : (ℓ : Loc nD τ sig) → Buf (Elt Ideal) ℓ) (c : Dev nD) (r : Fin 16384) (j : Fin 128) :
    sage1R m c (ix2 r j) = Cert.Spec.sageR true (RawOf (F := Ideal) (m ((c.tc : Thread nD τ).loc main_arg0)) (m ((c.tc : Thread nD τ).loc main_arg1))) (m ((c.tc : Thread nD τ).loc main_arg0)) (DOf (F := Ideal) (m ((c.tc : Thread nD τ).loc main_arg1))) (m ((c.tc : Thread nD τ).loc main_arg3)) (m ((c.tc : Thread nD τ).loc main_arg5)) (m ((c.tc : Thread nD τ).loc main_arg4)) r j := by
  have h := layer1_apply (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) r j
  rw [stage_raw1, stage_deg1] at h
  exact h

/-- Second layer at (r, j). -/
theorem z_apply (m : (ℓ : Loc nD τ sig) → Buf (Elt Ideal) ℓ) (c : Dev nD) (r : Fin 16384) (j : Fin 64) :
    res_out1 m c (ix2 r j) = Cert.Spec.sageR false (RawOf (F := Ideal) (sage1R m c) (m ((c.tc : Thread nD τ).loc main_arg1))) (sage1R m c) (DOf (F := Ideal) (m ((c.tc : Thread nD τ).loc main_arg1))) (m ((c.tc : Thread nD τ).loc main_arg6)) (m ((c.tc : Thread nD τ).loc main_arg8)) (m ((c.tc : Thread nD τ).loc main_arg7)) r j := by
  have h := layer2_apply (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg8)) (m ((c.tc : Thread nD τ).loc main_arg7)) r j
  rw [stage_raw2, stage_deg2] at h
  exact (congrFun (res_out1_eq m c) (ix2 r j)).trans h

/-- Channel product of a labelled edge at (e, k). -/
theorem dmul_apply (m : (ℓ : Loc nD τ sig) → Buf (Elt Ideal) ℓ) (c : Dev nD) (e : Fin 131072) (k : Fin 64) :
    res_out2 m c (ix2 e k) = Rows0Of (F := Ideal) (res_out1 m c) (m ((c.tc : Thread nD τ).loc main_arg2)) (ix2 e k) * Rows1Of (F := Ideal) (res_out1 m c) (m ((c.tc : Thread nD τ).loc main_arg2)) (ix2 e k) := by
  have h := edgeProd_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg8)) (m ((c.tc : Thread nD τ).loc main_arg7)) (ix2 e k)
  rw [stage_rows0, stage_rows1, ← res_out1_eq m c] at h
  exact (congrFun (val_main_v73_eq m c) (ix2 e k)).trans h

/-- Score of a labelled edge. -/
theorem dsum_apply (m : (ℓ : Loc nD τ sig) → Buf (Elt Ideal) ℓ) (c : Dev nD) (e : Fin 131072) :
    res_out3 m c (ix1 e) = Cert.Spec.rowSum (fun i => Rows0Of (F := Ideal) (res_out1 m c) (m ((c.tc : Thread nD τ).loc main_arg2)) i * Rows1Of (F := Ideal) (res_out1 m c) (m ((c.tc : Thread nD τ).loc main_arg2)) i) e := by
  have h := edgeSum_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg8)) (m ((c.tc : Thread nD τ).loc main_arg7)) e
  rw [stage_rows0, stage_rows1, ← res_out1_eq m c] at h
  exact (congrFun (val_main_v74_eq m c) (ix1 e)).trans h

/-- Dense score at (i, j). -/
theorem prob_apply (m : (ℓ : Loc nD τ sig) → Buf (Elt Ideal) ℓ) (c : Dev nD) (i j : Fin 16384) :
    res_out4 m c (ix2 i j) = Cert.Spec.gram (res_out1 m c) i j := by
  have h := dense_apply (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg8)) (m ((c.tc : Thread nD τ).loc main_arg7)) i j
  rw [← res_out1_eq m c] at h
  exact (congrFun (val_main_v76_eq m c) (ix2 i j)).trans h

/-- Mask at (i, j). -/
theorem mask_apply (m : (ℓ : Loc nD τ sig) → Buf (Elt Ideal) ℓ) (c : Dev nD) (i j : Fin 16384) :
    res_out5 m c (ix2 i j) = Cert.Spec.pos (Cert.Spec.gram (res_out1 m c) i j) := by
  have h := denseMask_apply (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6)) (m ((c.tc : Thread nD τ).loc main_arg8)) (m ((c.tc : Thread nD τ).loc main_arg7)) i j
  rw [← res_out1_eq m c] at h
  exact (congrFun (val_main_v78_eq m c) (ix2 i j)).trans h

end Cert.ReferenceIdeal.Hand

end
-- ==== Proof.ChainEq.lean ====
/-
  The host side's irregular steps are the same terms in the two programs.  Both programs spell the edge endpoints,
  the neighbour sums, the clamped degrees and the gathered endpoint rows with the same operations over the same
  literal extents; the only difference is the name under which each program records an operation's dimension
  numbers, and those records have equal fields.  So each pair of terms is equal by unfolding.
-/
import proofs.«155684_j2405181685928_2_alg».proof.Proof.KI.Chain
import proofs.«155684_j2405181685928_2_alg».proof.Proof.Ref.Chain

noncomputable section

namespace Cert.ChainEq

open Idealize.ShloMosaic

variable {F : FTy → Type} [FloatOps F]

/-- The neighbour sums. -/
theorem rawOf_eq (feat : FVec F Cert.KernelIdeal.S16384x128 .f32) (ei : IVec Cert.KernelIdeal.S2x524288 32) :
    Cert.ReferenceIdeal.Hand.RawOf (F := F) feat ei = Cert.KernelIdeal.Hand.RawOf feat ei := rfl

/-- The clamped degrees. -/
theorem dOf_eq (ei : IVec Cert.KernelIdeal.S2x524288 32) :
    Cert.ReferenceIdeal.Hand.DOf (F := F) ei = Cert.KernelIdeal.Hand.DOf ei := rfl

/-- The rows at the labelled edges' first endpoints. -/
theorem rows0Of_eq (z : FVec F Cert.KernelIdeal.S16384x64 .f32) (eli : IVec Cert.KernelIdeal.S2x131072 32) :
    Cert.ReferenceIdeal.Hand.Rows0Of (F := F) z eli = Cert.KernelIdeal.Hand.Rows0Of z eli := rfl

/-- The rows at their second endpoints. -/
theorem rows1Of_eq (z : FVec F Cert.KernelIdeal.S16384x64 .f32) (eli : IVec Cert.KernelIdeal.S2x131072 32) :
    Cert.ReferenceIdeal.Hand.Rows1Of (F := F) z eli = Cert.KernelIdeal.Hand.Rows1Of z eli := rfl

end Cert.ChainEq

end
-- ==== Proof.Bridge.lean ====
/-
  The two programs compute the same arrays. From memories that hold the same nine arguments, each of the reference's
  six results is, index by index, the same function of the arguments as the kernel program's: the layers by the
  layer formula over the shared aggregation and degree terms (the first layer's output feeding the second's), the
  edge scores over the shared gathered rows, the dense scores and the mask over the second layer's output.
-/
import proofs.«155684_j2405181685928_2_alg».proof.Proof.KI.Values
import proofs.«155684_j2405181685928_2_alg».proof.Proof.Ref.Results
import proofs.«155684_j2405181685928_2_alg».proof.Proof.ChainEq

noncomputable section

namespace Cert.Bridge

open Idealize.ShloMosaic Idealize.ShloMosaic.TcCoe Idealize.SL.Sem Idealize.ShloMosaic.ValueIdx
open Cert.KernelIdeal.Hand Cert.ReferenceIdeal.Hand Cert.ReferenceIdeal.Value Cert.ChainEq

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- On core `c` the reference's memory holds the kernel program's nine arguments. -/
def Agree : Prop :=
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

variable {m m' c}

/-- The first layer's output. -/
theorem sage1_eq (h : Agree m m' c) : sage1R m' c = o23 m c := by
  refine funext fun (i : (⟨2, ![16384, 128]⟩ : Shape).Idx) => ?_
  obtain ⟨r, j, rfl⟩ : ∃ (r : Fin 16384) (j : Fin 128), i = ix2 r j := ⟨i 0, i 1, eq_ix2 i⟩
  refine (sage1_apply m' c r j).trans (Eq.trans ?_ (k_sage1 m c r j).symm)
  rw [h.1, h.2.1, h.2.2.2.1, h.2.2.2.2.1, h.2.2.2.2.2.1, rawOf_eq, dOf_eq]

/-- The second layer's output. -/
theorem z_eq (h : Agree m m' c) : res_out1 m' c = o34 m c := by
  refine funext fun (i : (⟨2, ![16384, 64]⟩ : Shape).Idx) => ?_
  obtain ⟨r, j, rfl⟩ : ∃ (r : Fin 16384) (j : Fin 64), i = ix2 r j := ⟨i 0, i 1, eq_ix2 i⟩
  refine (z_apply m' c r j).trans (Eq.trans ?_ (k_z m c r j).symm)
  rw [sage1_eq h, h.2.1, h.2.2.2.2.2.2.1, h.2.2.2.2.2.2.2.1, h.2.2.2.2.2.2.2.2, rawOf_eq, dOf_eq]

/-- The labelled edges' channel products. -/
theorem dmul_eq (h : Agree m m' c) : res_out2 m' c = o53_0 m c := by
  refine funext fun (i : (⟨2, ![131072, 64]⟩ : Shape).Idx) => ?_
  obtain ⟨e, k, rfl⟩ : ∃ (e : Fin 131072) (k : Fin 64), i = ix2 e k := ⟨i 0, i 1, eq_ix2 i⟩
  refine (dmul_apply m' c e k).trans (Eq.trans ?_ (k_dmul m c e k).symm)
  rw [z_eq h, h.2.2.1, rows0Of_eq, rows1Of_eq]

/-- The labelled edges' scores. -/
theorem dsum_eq (h : Agree m m' c) : res_out3 m' c = o53_1 m c := by
  refine funext fun (i : (⟨1, ![131072]⟩ : Shape).Idx) => ?_
  obtain ⟨e, rfl⟩ : ∃ (e : Fin 131072), i = ix1 e := ⟨i 0, eq_ix1 i⟩
  refine (dsum_apply m' c e).trans (Eq.trans ?_ (k_dsum m c e).symm)
  rw [z_eq h, h.2.2.1]
  simp only [rows0Of_eq, rows1Of_eq]

/-- The dense scores. -/
theorem prob_eq (h : Agree m m' c) : res_out4 m' c = o54_0 m c := by
  refine funext fun (i : (⟨2, ![16384, 16384]⟩ : Shape).Idx) => ?_
  obtain ⟨a, b, rfl⟩ : ∃ (a b : Fin 16384), i = ix2 a b := ⟨i 0, i 1, eq_ix2 i⟩
  refine (prob_apply m' c a b).trans (Eq.trans ?_ (k_prob m c a b).symm)
  rw [z_eq h]

/-- The mask. -/
theorem mask_eq (h : Agree m m' c) : res_out5 m' c = Cert.KernelIdeal.Gen.V8 m (left m) c Cert.KernelIdeal.main_v57 := by
  refine funext fun (i : (⟨2, ![16384, 16384]⟩ : Shape).Idx) => ?_
  obtain ⟨a, b, rfl⟩ : ∃ (a b : Fin 16384), i = ix2 a b := ⟨i 0, i 1, eq_ix2 i⟩
  refine (mask_apply m' c a b).trans (Eq.trans ?_ (k_mask m c a b).symm)
  rw [z_eq h]

end Cert.Bridge

end
-- ==== Proof.lean ====
/-
  A two-layer graph network, its edge decoder and its dense score matrix, computed by four blocked kernels among
  host gathers and scatter-adds, against the plain array program.

  Per node r and channel j a layer is  act( Σ_k (agg[r,k] / d[r]) · Wl[k,j] + b[j] + Σ_k x[r,k] · Wr[k,j] ),  with agg the
  sum of the in-neighbours' rows, d[r] the in-degree clamped below at 1, act = max(·, 0) in the first layer and the
  identity in the second. The kernels take 2048 rows at a time and scale agg by a stored column 1 / d[r]; on the
  extended reals the product with 1 / d is the quotient by d because d ≥ 1 is not zero, and the three summands may
  be added in either order. A blocked product reads only its own rows, so the blocks' outputs are the whole product's.
  The edge scores multiply two gathered rows of the second layer's output z and sum the 64 channels; the dense scores
  are the inner products of the rows of z, taken 1024 × 1024 at a time from a row block and a slice of a resident copy
  of z (two windows on the one array z, each holding half of it); the mask compares each score with zero (the kernel
  stores the comparison as a 0/1 word and the host asks whether the word is non-zero).

  Every program terminates, nothing faults, and the argument arrays end as launched: the kernel program by its chain
  of host stretches and regions, each region's body run symbolically; the reference by its run. No operation was
  rewritten between the word-level kernel program and its reading on the extended reals.
-/
import proofs.«155684_j2405181685928_2_alg».proof.Defs
import proofs.«155684_j2405181685928_2_alg».proof.Proof.Gen.Kernel
import proofs.«155684_j2405181685928_2_alg».proof.Proof.Gen.KernelIdeal
import proofs.«155684_j2405181685928_2_alg».proof.Proof.Gen.ReferenceIdeal
import proofs.«155684_j2405181685928_2_alg».proof.Proof.Gen.Pre_finite_inputs
import proofs.«155684_j2405181685928_2_alg».proof.Proof.Gen.ReferenceIdeal.Run
import proofs.«155684_j2405181685928_2_alg».proof.Proof.K.Run
import proofs.«155684_j2405181685928_2_alg».proof.Proof.KI.Run
import proofs.«155684_j2405181685928_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : @Cert.frame_Kernel Cert.Kernel.Gen.facts Cert.Pre_finite_inputs.Gen.facts := fun m ρ _ =>
  (θ_run (Cert.Kernel.defs (F := Bits)) _ _).mono (fun _ h c => (h c).2.2.2.2.2.2) (Cert.Kernel.Hand.run (F := Bits) m ρ)

/-- So does its reading on the extended reals. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2.2.2.2.2.2) (Cert.KernelIdeal.Hand.run (F := Ideal) m ρ)

/-- And the reference. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2.2.2.2.2.2) (Cert.ReferenceIdeal.Value.run (F := Ideal) m ρ)

/-- From memories agreeing on the arguments both programs end with the same six arrays: the kernel program's results
    are what its regions leave (the mask: the comparison of the last region's sign words with zero), and each of the
    reference's results is that same array. -/
theorem algebraic : @Cert.algebraic_KernelIdeal_ReferenceIdeal Cert.KernelIdeal.Gen.facts Cert.ReferenceIdeal.Gen.facts Cert.Pre_finite_inputs.Gen.facts := by
  intro m ρ m' ρ' _ hagree
  have hag : ∀ c, Cert.Bridge.Agree m m' c := fun c => hagree c
  refine ⟨fun c => Cert.KernelIdeal.Hand.o23 m c, fun c => Cert.KernelIdeal.Hand.o34 m c, fun c => Cert.KernelIdeal.Hand.o53_0 m c,
    fun c => Cert.KernelIdeal.Hand.o53_1 m c, fun c => Cert.KernelIdeal.Hand.o54_0 m c,
    fun c => Cert.KernelIdeal.Gen.V8 m (Cert.KernelIdeal.Hand.left m) c Cert.KernelIdeal.main_v57, ?_, ?_⟩
  · refine (θ_run (Cert.KernelIdeal.defs (F := Ideal)) _ _).mono (fun _ h c => ?_) (Cert.KernelIdeal.Hand.run (F := Ideal) m ρ)
    obtain ⟨h0, h1, h2, h3, h4, h5, hargs⟩ := h c
    exact ⟨h0.trans ((Cert.KernelIdeal.Hand.V8_v23 m _ c).trans (Cert.KernelIdeal.Hand.left_v23 m 2 c)),
      h1.trans ((Cert.KernelIdeal.Hand.V8_v34 m _ c).trans (Cert.KernelIdeal.Hand.left_v34 m 4 c)),
      h2.trans ((Cert.KernelIdeal.Hand.V8_v53_0 m _ c).trans (Cert.KernelIdeal.Hand.left_v53_0 m 6 c)),
      h3.trans ((Cert.KernelIdeal.Hand.V8_v53_1 m _ c).trans (Cert.KernelIdeal.Hand.left_v53_1 m 6 c)),
      h4.trans ((Cert.KernelIdeal.Hand.V8_v54_0 m _ c).trans (Cert.KernelIdeal.Hand.left_v54_0 m 7 c)),
      h5, hargs⟩
  · refine (θ_run (Cert.ReferenceIdeal.defs (F := Ideal)) _ _).mono (fun _ h c => ?_) (Cert.ReferenceIdeal.Value.run (F := Ideal) m' ρ')
    obtain ⟨h0, h1, h2, h3, h4, h5, hargs⟩ := h c
    exact ⟨h0.trans ((Cert.ReferenceIdeal.Hand.sage1R_eq_run m' c).trans (Cert.Bridge.sage1_eq (hag c))),
      h1.trans (Cert.Bridge.z_eq (hag c)),
      h2.trans (Cert.Bridge.dmul_eq (hag c)),
      h3.trans (Cert.Bridge.dsum_eq (hag c)),
      h4.trans (Cert.Bridge.prob_eq (hag c)),
      h5.trans (Cert.Bridge.mask_eq (hag c)), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
